-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S4x256x32x32 : Shape := ⟨4, ![4, 256, 32, 32]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S4x256x32x32 : S_.BroadcastsInDim S4x256x32x32 (![] : Fin 0 → Fin S4x256x32x32.rank)
  reducesTo_S4x256x32x32_S_d0_1_2_3 : S4x256x32x32.ReducesTo [0, 1, 2, 3] S_

variable [Facts]

def fn_part1 {F : FTy → Type} [FloatOps F] (main_v13 : IVec S_ 1) (main_v16 : IVec S4x256x32x32 1) : IVec S_ 1 :=
  let main_c_5 : IVec S_ 1 := constantI S_ 1 1#1
  let main_v17 : IVec S_ 1 := (fun x v => Host.reduce IntOp.andi x v reducesTo_S4x256x32x32_S_d0_1_2_3 h_S_) main_v16 main_c_5
  let main_v18 : IVec S_ 1 := andi main_v13 main_v17
  main_v18

def fn {F : FTy → Type} [FloatOps F] (main_arg0 : FVec F S4x128x64x64 .f32) (main_arg1 : FVec F S4x128x64x64 .f32) (main_arg2 : FVec F S4x256x32x32 .f32) (main_arg3 : FVec F S4x256x32x32 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x128x64x64 .f32 := Host.absf main_arg1
  let main_cst_0 : FVec F S_ .f32 := constant S_ .f32 0x7F800000#32
  let main_v5 : FVec F S4x128x64x64 .f32 := broadcastInDim S4x128x64x64 ![] bcast_S_S4x128x64x64 main_cst_0
  let main_v6 : IVec S4x128x64x64 1 := cmpf .olt main_v4 main_v5
  let main_c_1 : IVec S_ 1 := constantI S_ 1 1#1
  let main_v7 : IVec S_ 1 := (fun x v => Host.reduce IntOp.andi x v reducesTo_S4x128x64x64_S_d0_1_2_3 h_S_) main_v6 main_c_1
  let main_v8 : IVec S_ 1 := andi main_v3 main_v7
  let main_v9 : FVec F S4x256x32x32 .f32 := Host.absf main_arg2
  let main_cst_2 : FVec F S_ .f32 := constant S_ .f32 0x7F800000#32
  let main_v10 : FVec F S4x256x32x32 .f32 := broadcastInDim S4x256x32x32 ![] bcast_S_S4x256x32x32 main_cst_2
  let main_v11 : IVec S4x256x32x32 1 := cmpf .olt main_v9 main_v10
  let main_c_3 : IVec S_ 1 := constantI S_ 1 1#1
  let main_v12 : IVec S_ 1 := (fun x v => Host.reduce IntOp.andi x v reducesTo_S4x256x32x32_S_d0_1_2_3 h_S_) main_v11 main_c_3
  let main_v13 : IVec S_ 1 := andi main_v8 main_v12
  let main_v14 : FVec F S4x256x32x32 .f32 := Host.absf main_arg3
  let main_cst_4 : FVec F S_ .f32 := constant S_ .f32 0x7F800000#32
  let main_v15 : FVec F S4x256x32x32 .f32 := broadcastInDim S4x256x32x32 ![] bcast_S_S4x256x32x32 main_cst_4
  let main_v16 : IVec S4x256x32x32 1 := cmpf .olt main_v14 main_v15
  fn_part1 (F := F) main_v13 main_v16
-- ==== Kernel.lean ====
abbrev S4x128x64x64 : Shape := ⟨4, ![4, 128, 64, 64]⟩
abbrev S4x256x32x32 : Shape := ⟨4, ![4, 256, 32, 32]⟩
abbrev S4x128x4096 : Shape := ⟨3, ![4, 128, 4096]⟩
abbrev S4x1x1 : Shape := ⟨3, ![4, 1, 1]⟩
abbrev S1x128x256 : Shape := ⟨3, ![1, 128, 256]⟩
abbrev S1x128x4096 : Shape := ⟨3, ![1, 128, 4096]⟩
abbrev S1x1x1 : Shape := ⟨3, ![1, 1, 1]⟩
abbrev S1x1 : Shape := ⟨2, ![1, 1]⟩
abbrev S128x256 : Shape := ⟨2, ![128, 256]⟩
abbrev S128x4096 : Shape := ⟨2, ![128, 4096]⟩
abbrev S256 : Shape := ⟨1, ![256]⟩
abbrev S1x256 : Shape := ⟨2, ![1, 256]⟩
abbrev S4096 : Shape := ⟨1, ![4096]⟩
abbrev S1x4096 : Shape := ⟨2, ![1, 4096]⟩
abbrev S256x4096 : Shape := ⟨2, ![256, 4096]⟩
abbrev S256x1 : Shape := ⟨2, ![256, 1]⟩
abbrev S1 : Shape := ⟨1, ![1]⟩
abbrev S4x256x1024 : Shape := ⟨3, ![4, 256, 1024]⟩
abbrev S1x256x256 : Shape := ⟨3, ![1, 256, 256]⟩
abbrev S1x256x1024 : Shape := ⟨3, ![1, 256, 1024]⟩
abbrev S256x256 : Shape := ⟨2, ![256, 256]⟩
abbrev S256x1024 : Shape := ⟨2, ![256, 1024]⟩
abbrev S1024 : Shape := ⟨1, ![1024]⟩
abbrev S1x1024 : Shape := ⟨2, ![1, 1024]⟩
abbrev S_ : Shape := ⟨0, ![]⟩
abbrev S3 : Shape := ⟨1, ![3]⟩

abbrev nBuf : Space → Nat
  | .hbm => 23
  | .vmem => 22
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x256x32x32, .f32⟩
  | .hbm, ⟨3, _⟩ => ⟨S4x256x32x32, .f32⟩
  | .hbm, ⟨4, _⟩ => ⟨S4x128x4096, .f32⟩
  | .hbm, ⟨5, _⟩ => ⟨S4x128x4096, .f32⟩
  | .hbm, ⟨6, _⟩ => ⟨S4x1x1, .f32⟩
  | .hbm, ⟨7, _⟩ => ⟨S4x256x1024, .f32⟩
  | .hbm, ⟨8, _⟩ => ⟨S4x256x1024, .f32⟩
  | .hbm, ⟨9, _⟩ => ⟨S4x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S3, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x4096, .f32⟩
  | .local _ .vmem, ⟨5, _⟩ => ⟨S1x128x4096, .f32⟩
  | .local _ .vmem, ⟨6, _⟩ => ⟨S1x128x4096, .f32⟩
  | .local _ .vmem, ⟨7, _⟩ => ⟨S1x128x4096, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x1x1, .f32⟩
  | .local _ .vmem, ⟨20, _⟩ => ⟨S1x1x1, .f32⟩
  | .local _ .vmem, ⟨21, _⟩ => ⟨S1x1, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x128x64x64_S4x128x4096 : S4x128x64x64.ShapeCasts S4x128x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S128x256_S256 : S128x256.Reduces [0] S256
  shapeCasts_S256_S1x256 : S256.ShapeCasts S1x256
  reduces_S128x4096_S4096 : S128x4096.Reduces [0] S4096
  shapeCasts_S4096_S1x4096 : S4096.ShapeCasts S1x4096
  broadcasts_S1x256_S128x256 : S1x256.Broadcasts S128x256
  bitsLt_bf16_f32 : FTy.bits .bf16 < FTy.bits .f32
  broadcasts_S1x4096_S128x4096 : S1x4096.Broadcasts S128x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x256x32x32_S4x256x1024 : S4x256x32x32.ShapeCasts S4x256x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x256_S256 : S256x256.Reduces [0] S256
  reduces_S256x1024_S1024 : S256x1024.Reduces [0] S1024
  shapeCasts_S1024_S1x1024 : S1024.ShapeCasts S1x1024
  broadcasts_S1x256_S256x256 : S1x256.Broadcasts S256x256
  broadcasts_S1x1024_S256x1024 : S1x1024.Broadcasts S256x1024
  reduces_S256x1024_S256 : S256x1024.Reduces [1] S256
  reducesTo_S4x1x1_S_d0_1_2 : S4x1x1.ReducesTo [0, 1, 2] S_
  h_S_ : 0 < S_.numel
  bcast_S_S1 : S_.BroadcastsInDim S1 (![] : Fin 0 → Fin S1.rank)
  concatenates_S1_S1_S1_S3_d0 : Shape.Concatenates [S1, S1, S1] S3 0
  dot_S128x256_S128x4096_S256x4096_0_0_1_1_n_n_wf : DotDims.WF S128x256 S128x4096 S256x4096 [0] [0] [1] [1] [] []
  dot_S256x256_S256x1024_S256x1024_0_0_1_1_n_n_wf : DotDims.WF S256x256 S256x1024 S256x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S4x128x4096.size a
  hwx0_0 : ∀ i : grid0.Coords, EltTy.bits .f32 = 32 ∨ (Rect.block (s := S4x128x4096) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x4096.size a
  hwx0_1 : ∀ i : grid0.Coords, EltTy.bits .f32 = 32 ∨ (Rect.block (s := S4x128x4096) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S4x128x4096.size a
  hwx0_2 : ∀ i : grid0.Coords, EltTy.bits .f32 = 32 ∨ (Rect.block (s := S4x128x4096) S1x128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S4x128x4096.size a
  hwx0_3 : ∀ i : grid0.Coords, EltTy.bits .f32 = 32 ∨ (Rect.block (s := S4x128x4096) S1x128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S4x256x1024.size a
  hwx1_0 : ∀ i : grid1.Coords, EltTy.bits .f32 = 32 ∨ (Rect.block (s := S4x256x1024) S1x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S4x256x1024.size a
  hwx1_1 : ∀ i : grid1.Coords, EltTy.bits .f32 = 32 ∨ (Rect.block (s := S4x256x1024) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x256x1024.size a
  hwx1_2 : ∀ i : grid1.Coords, EltTy.bits .f32 = 32 ∨ (Rect.block (s := S4x256x1024) S1x256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x256x1024.size a
  hwx1_3 : ∀ i : grid1.Coords, EltTy.bits .f32 = 32 ∨ (Rect.block (s := S4x256x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S4x1x1.size a
  hwx1_4 : ∀ i : grid1.Coords, EltTy.bits .f32 = 32 ∨ (Rect.block (s := S4x1x1) S1x1x1.size (cc1_transform_4 i) (hinb1_4 i)).WholeWords (EltTy.packing .f32)

variable [Facts₀]

def dot_S128x256_S128x4096_S256x4096_0_0_1_1_n_n : DotDims S128x256 S128x4096 S256x4096 where
  lhsContracting := [0]
  rhsContracting := [0]
  lhsNonContracting := [1]
  rhsNonContracting := [1]
  lhsBatch := []
  rhsBatch := []
  wf := dot_S128x256_S128x4096_S256x4096_0_0_1_1_n_n_wf
def dot_S256x256_S256x1024_S256x1024_0_0_1_1_n_n : DotDims S256x256 S256x1024 S256x1024 where
  lhsContracting := [0]
  rhsContracting := [0]
  lhsNonContracting := [1]
  rhsNonContracting := [1]
  lhsBatch := []
  rhsBatch := []
  wf := dot_S256x256_S256x1024_S256x1024_0_0_1_1_n_n_wf

abbrev win0_0 : Pipeline.Window sig grid0 :=
  Pipeline.Window.ofSpec (Memref.whole main_v0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x128x64x64 : Shape := ⟨4, ![4, 128, 64, 64]⟩
abbrev S4x256x32x32 : Shape := ⟨4, ![4, 256, 32, 32]⟩
abbrev S_ : Shape := ⟨0, ![]⟩
abbrev S4x64x64 : Shape := ⟨3, ![4, 64, 64]⟩
abbrev S4x1x64x64 : Shape := ⟨4, ![4, 1, 64, 64]⟩
abbrev S4x128x4096 : Shape := ⟨3, ![4, 128, 4096]⟩
abbrev S4x4096x4096 : Shape := ⟨3, ![4, 4096, 4096]⟩
abbrev S4x32x32 : Shape := ⟨3, ![4, 32, 32]⟩
abbrev S4x1x32x32 : Shape := ⟨4, ![4, 1, 32, 32]⟩
abbrev S4x256x1024 : Shape := ⟨3, ![4, 256, 1024]⟩
abbrev S4x1024x1024 : Shape := ⟨3, ![4, 1024, 1024]⟩
abbrev S1 : Shape := ⟨1, ![1]⟩
abbrev S3 : Shape := ⟨1, ![3]⟩

abbrev nBuf : Space → Nat
  | .hbm => 77
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x256x32x32, .f32⟩
  | .hbm, ⟨3, _⟩ => ⟨S4x256x32x32, .f32⟩
  | .hbm, ⟨4, _⟩ => ⟨S4x128x64x64, .f32⟩
  | .hbm, ⟨5, _⟩ => ⟨S_, .f32⟩
  | .hbm, ⟨6, _⟩ => ⟨S4x64x64, .f32⟩
  | .hbm, ⟨7, _⟩ => ⟨S4x1x64x64, .f32⟩
  | .hbm, ⟨8, _⟩ => ⟨S4x1x64x64, .f32⟩
  | .hbm, ⟨9, _⟩ => ⟨S_, .f32⟩
  | .hbm, ⟨10, _⟩ => ⟨S4x1x64x64, .f32⟩
  | .hbm, ⟨11, _⟩ => ⟨S4x1x64x64, .f32⟩
  | .hbm, ⟨12, _⟩ => ⟨S4x128x64x64, .f32⟩
  | .hbm, ⟨13, _⟩ => ⟨S4x128x64x64, .f32⟩
  | .hbm, ⟨14, _⟩ => ⟨S4x128x4096, .f32⟩
  | .hbm, ⟨15, _⟩ => ⟨S4x4096x4096, .f32⟩
  | .hbm, ⟨16, _⟩ => ⟨S4x128x64x64, .f32⟩
  | .hbm, ⟨17, _⟩ => ⟨S_, .f32⟩
  | .hbm, ⟨18, _⟩ => ⟨S4x64x64, .f32⟩
  | .hbm, ⟨19, _⟩ => ⟨S4x1x64x64, .f32⟩
  | .hbm, ⟨20, _⟩ => ⟨S4x1x64x64, .f32⟩
  | .hbm, ⟨21, _⟩ => ⟨S_, .f32⟩
  | .hbm, ⟨22, _⟩ => ⟨S4x1x64x64, .f32⟩
  | .hbm, ⟨23, _⟩ => ⟨S4x1x64x64, .f32⟩
  | .hbm, ⟨24, _⟩ => ⟨S4x128x64x64, .f32⟩
  | .hbm, ⟨25, _⟩ => ⟨S4x128x64x64, .f32⟩
  | .hbm, ⟨26, _⟩ => ⟨S4x128x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S_, .f32⟩
  | .hbm, ⟨38, _⟩ => ⟨S4x256x32x32, .f32⟩
  | .hbm, ⟨39, _⟩ => ⟨S_, .f32⟩
  | .hbm, ⟨40, _⟩ => ⟨S4x32x32, .f32⟩
  | .hbm, ⟨41, _⟩ => ⟨S4x1x32x32, .f32⟩
  | .hbm, ⟨42, _⟩ => ⟨S4x1x32x32, .f32⟩
  | .hbm, ⟨43, _⟩ => ⟨S_, .f32⟩
  | .hbm, ⟨44, _⟩ => ⟨S4x1x32x32, .f32⟩
  | .hbm, ⟨45, _⟩ => ⟨S4x1x32x32, .f32⟩
  | .hbm, ⟨46, _⟩ => ⟨S4x256x32x32, .f32⟩
  | .hbm, ⟨47, _⟩ => ⟨S4x256x32x32, .f32⟩
  | .hbm, ⟨48, _⟩ => ⟨S4x256x1024, .f32⟩
  | .hbm, ⟨49, _⟩ => ⟨S4x1024x1024, .f32⟩
  | .hbm, ⟨50, _⟩ => ⟨S4x256x32x32, .f32⟩
  | .hbm, ⟨51, _⟩ => ⟨S_, .f32⟩
  | .hbm, ⟨52, _⟩ => ⟨S4x32x32, .f32⟩
  | .hbm, ⟨53, _⟩ => ⟨S4x1x32x32, .f32⟩
  | .hbm, ⟨54, _⟩ => ⟨S4x1x32x32, .f32⟩
  | .hbm, ⟨55, _⟩ => ⟨S_, .f32⟩
  | .hbm, ⟨56, _⟩ => ⟨S4x1x32x32, .f32⟩
  | .hbm, ⟨57, _⟩ => ⟨S4x1x32x32, .f32⟩
  | .hbm, ⟨58, _⟩ => ⟨S4x256x32x32, .f32⟩
  | .hbm, ⟨59, _⟩ => ⟨S4x256x32x32, .f32⟩
  | .hbm, ⟨60, _⟩ => ⟨S4x256x1024, .f32⟩
  | .hbm, ⟨61, _⟩ => ⟨S4x1024x1024, .f32⟩
  | .hbm, ⟨62, _⟩ => ⟨S4x1024x1024, .f32⟩
  | .hbm, ⟨63, _⟩ => ⟨S4x1024x1024, .f32⟩
  | .hbm, ⟨64, _⟩ => ⟨S_, .f32⟩
  | .hbm, ⟨65, _⟩ => ⟨S4x1024x1024, .f32⟩
  | .hbm, ⟨66, _⟩ => ⟨S4x1024x1024, .f32⟩
  | .hbm, ⟨67, _⟩ => ⟨S_, .f32⟩
  | .hbm, ⟨68, _⟩ => ⟨S4x1024x1024, .f32⟩
  | .hbm, ⟨69, _⟩ => ⟨S4x1024x1024, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S3, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  reducesTo_S4x128x64x64_S4x64x64_d1 : S4x128x64x64.ReducesTo [1] S4x64x64
  h_S_ : 0 < S_.numel
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x128x64x64_0_1_2_3 : S4x1x64x64.BroadcastsInDim S4x128x64x64 (![0, 1, 2, 3] : Fin 4 → Fin S4x128x64x64.rank)
  shapeCasts_S4x128x64x64_S4x128x4096 : S4x128x64x64.ShapeCasts S4x128x4096
  bcast_S_S4x4096x4096 : S_.BroadcastsInDim S4x4096x4096 (![] : Fin 0 → Fin S4x4096x4096.rank)
  reducesTo_S4x4096x4096_S_d0_1_2 : S4x4096x4096.ReducesTo [0, 1, 2] S_
  reducesTo_S4x256x32x32_S4x32x32_d1 : S4x256x32x32.ReducesTo [1] S4x32x32
  bcast_S4x32x32_S4x1x32x32_0_2_3 : S4x32x32.BroadcastsInDim S4x1x32x32 (![0, 2, 3] : Fin 3 → Fin S4x1x32x32.rank)
  bcast_S_S4x1x32x32 : S_.BroadcastsInDim S4x1x32x32 (![] : Fin 0 → Fin S4x1x32x32.rank)
  bcast_S4x1x32x32_S4x256x32x32_0_1_2_3 : S4x1x32x32.BroadcastsInDim S4x256x32x32 (![0, 1, 2, 3] : Fin 4 → Fin S4x256x32x32.rank)
  shapeCasts_S4x256x32x32_S4x256x1024 : S4x256x32x32.ShapeCasts S4x256x1024
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S1 : S_.BroadcastsInDim S1 (![] : Fin 0 → Fin S1.rank)
  concatenates_S1_S1_S1_S3_d0 : Shape.Concatenates [S1, S1, S1] S3 0
  dot_S4x128x4096_S4x128x4096_S4x4096x4096_1_1_2_2_0_0_wf : DotDims.WF S4x128x4096 S4x128x4096 S4x4096x4096 [1] [1] [2] [2] [0] [0]
  dot_S4x256x1024_S4x256x1024_S4x1024x1024_1_1_2_2_0_0_wf : DotDims.WF S4x256x1024 S4x256x1024 S4x1024x1024 [1] [1] [2] [2] [0] [0]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf
def dot_S4x256x1024_S4x256x1024_S4x1024x1024_1_1_2_2_0_0 : DotDims S4x256x1024 S4x256x1024 S4x1024x1024 where
  lhsContracting := [1]
  rhsContracting := [1]
  lhsNonContracting := [2]
  rhsNonContracting := [2]
  lhsBatch := [0]
  rhsBatch := [0]
  wf := dot_S4x256x1024_S4x256x1024_S4x1024x1024_1_1_2_2_0_0_wf

class Facts : Prop extends Facts₀ where

variable [Facts]
-- ==== Proof.KBody0.lean ====
import proofs.«158146_j14877766713777_1_alg».proof.Proof.Gen.Kernel.Skeleton
import proofs.«158146_j14877766713777_1_alg».proof.Proof.Gen.Kernel.Launch
import proofs.«158146_j14877766713777_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What one grid point adds to the running scalar: the squared Frobenius distance between the two
    similarity matrices of the point's blocks (each block's columns scaled to unit length first),
    added to the running value `s`. -/
def acc0 (x0 x1 : Vec F S1x128x256 .f32) (x2 x3 : Vec F S1x128x4096 .f32) (s : Vec F S1x1 .f32) : Vec F S1x1 .f32 :=
  k0_pay1 (k0_pay4 x0) (k0_pay5 x1) (k0_pay6 x2) (k0_pay7 x3) (k0_pay8 x0) (k0_pay9 x1) (k0_pay10 x2) (k0_pay11 x3) s

/-- The output block after the point: the running scalar, as a 1x1x1 block. -/
def out0 (x0 x1 : Vec F S1x128x256 .f32) (x2 x3 : Vec F S1x128x4096 .f32) (s : Vec F S1x1 .f32) : Vec F S1x1x1 .f32 :=
  k0_pay2 (acc0 x0 x1 x2 x3 s)

/-- The body's branch condition, from the grid coordinates: the row-tile coordinate is zero. -/
abbrev cond0 (i : grid0.Coords) : Prop := (Scalar.cmpi .ne (Scalar.extui (Scalar.cmpi .eq (BitVec.ofNat 32 (i 1).val) 0#32)) 0#32) = 1#1

/-- It holds exactly at the first row tile of each batch entry: decided over the grid. -/
theorem hcond0 : ∀ t : Fin cfg0.N, cond0 (grid0.coords t) ↔ t.val % 16 = 0 :=
  (by decide +kernel : ∀ t : Fin grid0.N, cond0 (grid0.coords t) ↔ t.val % 16 = 0)

/-- The zero offsets of a rank-2 and of a rank-3 block, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- At a first row tile the running scalar is reset to zero before the point's term is added:
    whatever the scratch and the output block held, they end at the point's term over zero.
    Every store writes its whole block, so each buffer reads back as its last store's value: the
    scratch as the sum over the zero block it was just reset to, the output block as that sum
    recast; every load of an input reads the whole block the input holds. -/
theorem body0_A (c : Dev nD) (i : grid0.Coords) (hc : cond0 i)
    (arg2 : Memref sig .tc .vmem S1x128x256 .f32) (harg2 : arg2.IsWhole) (arg3 : Memref sig .tc .vmem S1x128x256 .f32) (harg3 : arg3.IsWhole)
    (arg4 : Memref sig .tc .vmem S1x128x4096 .f32) (harg4 : arg4.IsWhole) (arg5 : Memref sig .tc .vmem S1x128x4096 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x128x256 .f32) (x2 x3 : Vec F S1x128x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out0 x0 x1 x2 x3 (k0_pay3 (F := F))) ∗ owns (c : Thread nD τ) arg7 fullShare (acc0 x0 x1 x2 x3 (k0_pay3 (F := F)))) -∗ K ⟨⟩))
      ⊢ wp frame (wpE (defs₀ (F := F)) Variants.none c none) E (cc0__sim_diff_kernel i arg2 harg2 arg3 harg3 arg4 harg4 arg5 harg5 arg6 harg6 arg7 harg7) K := by
  simp only [cc0__sim_diff_kernel_eq_skeleton]; unfold cc0__sim_diff_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  obtain rfl := harg4.eq_unread hf4; obtain rfl := harg5.eq_unread hf5
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread,
      View.ld_unit_zero (S := S1x128x256) hz3, View.ld_unit_zero (S := S1x128x4096) hz3, View.readCov_unit_zero (S := S1x1) _ hz2]
    unfold out0 acc0; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread,
      View.ld_unit_zero (S := S1x128x256) hz3, View.ld_unit_zero (S := S1x128x4096) hz3, View.readCov_unit_zero (S := S1x1) _ hz2]
    unfold acc0; rfl

set_option maxHeartbeats 1000000 in
/-- At any other row tile the point's term is added to what the scratch holds: the one store into
    the scratch writes the whole block, its value the sum over the contents `s` read just before;
    the output block is that sum recast. -/
theorem body0_B (c : Dev nD) (i : grid0.Coords) (hc : ¬cond0 i)
    (arg2 : Memref sig .tc .vmem S1x128x256 .f32) (harg2 : arg2.IsWhole) (arg3 : Memref sig .tc .vmem S1x128x256 .f32) (harg3 : arg3.IsWhole)
    (arg4 : Memref sig .tc .vmem S1x128x4096 .f32) (harg4 : arg4.IsWhole) (arg5 : Memref sig .tc .vmem S1x128x4096 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x128x256 .f32) (x2 x3 : Vec F S1x128x4096 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out0 x0 x1 x2 x3 s) ∗ owns (c : Thread nD τ) arg7 fullShare (acc0 x0 x1 x2 x3 s)) -∗ K ⟨⟩))
      ⊢ wp frame (wpE (defs₀ (F := F)) Variants.none c none) E (cc0__sim_diff_kernel i arg2 harg2 arg3 harg3 arg4 harg4 arg5 harg5 arg6 harg6 arg7 harg7) K := by
  simp only [cc0__sim_diff_kernel_eq_skeleton]; unfold cc0__sim_diff_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3
  obtain rfl := harg4.eq_unread hf4; obtain rfl := harg5.eq_unread hf5
  obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread, harg7.read_unread,
      View.ld_unit_zero (S := S1x128x256) hz3, View.ld_unit_zero (S := S1x128x4096) hz3, View.ld_unit_zero (S := S1x1) hz2]
    unfold out0 acc0; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread, harg7.read_unread,
      View.ld_unit_zero (S := S1x128x256) hz3, View.ld_unit_zero (S := S1x128x4096) hz3, View.ld_unit_zero (S := S1x1) hz2]
    unfold acc0; rfl

end Cert.Kernel.Hand

end
-- ==== Proof.KBody1.lean ====
import proofs.«158146_j14877766713777_1_alg».proof.Proof.Gen.Kernel.Skeleton
import proofs.«158146_j14877766713777_1_alg».proof.Proof.Gen.Kernel.Launch
import proofs.«158146_j14877766713777_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What one grid point adds to the running scalar: the squared Frobenius distance between the two
    similarity matrices of the point's blocks (each block's columns scaled to unit length first),
    added to the running value `s`. -/
def acc1 (x0 x1 : Vec F S1x256x256 .f32) (x2 x3 : Vec F S1x256x1024 .f32) (s : Vec F S1x1 .f32) : Vec F S1x1 .f32 :=
  k1_pay1 (k1_pay4 x0) (k1_pay5 x1) (k1_pay6 x2) (k1_pay7 x3) (k1_pay8 x0) (k1_pay9 x1) (k1_pay10 x2) (k1_pay11 x3) s

/-- The output block after the point: the running scalar, as a 1x1x1 block. -/
def out1 (x0 x1 : Vec F S1x256x256 .f32) (x2 x3 : Vec F S1x256x1024 .f32) (s : Vec F S1x1 .f32) : Vec F S1x1x1 .f32 :=
  k1_pay2 (acc1 x0 x1 x2 x3 s)

/-- The body's branch condition, from the grid coordinates: the row-tile coordinate is zero. -/
abbrev cond1 (i : grid1.Coords) : Prop := (Scalar.cmpi .ne (Scalar.extui (Scalar.cmpi .eq (BitVec.ofNat 32 (i 1).val) 0#32)) 0#32) = 1#1

/-- It holds exactly at the first row tile of each batch entry: decided over the grid. -/
theorem hcond1 : ∀ t : Fin cfg1.N, cond1 (grid1.coords t) ↔ t.val % 4 = 0 :=
  (by decide +kernel : ∀ t : Fin grid1.N, cond1 (grid1.coords t) ↔ t.val % 4 = 0)

/-- The zero offsets of a rank-2 and of a rank-3 block, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- At a first row tile the running scalar is reset to zero before the point's term is added:
    whatever the scratch and the output block held, they end at the point's term over zero.
    Every store writes its whole block, so each buffer reads back as its last store's value: the
    scratch as the sum over the zero block it was just reset to, the output block as that sum
    recast; every load of an input reads the whole block the input holds. -/
theorem body1_A (c : Dev nD) (i : grid1.Coords) (hc : cond1 i)
    (arg2 : Memref sig .tc .vmem S1x256x256 .f32) (harg2 : arg2.IsWhole) (arg3 : Memref sig .tc .vmem S1x256x256 .f32) (harg3 : arg3.IsWhole)
    (arg4 : Memref sig .tc .vmem S1x256x1024 .f32) (harg4 : arg4.IsWhole) (arg5 : Memref sig .tc .vmem S1x256x1024 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x256x256 .f32) (x2 x3 : Vec F S1x256x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out1 x0 x1 x2 x3 (k1_pay3 (F := F))) ∗ owns (c : Thread nD τ) arg7 fullShare (acc1 x0 x1 x2 x3 (k1_pay3 (F := F)))) -∗ K ⟨⟩))
      ⊢ wp frame (wpE (defs₀ (F := F)) Variants.none c none) E (cc1__sim_diff_kernel i arg2 harg2 arg3 harg3 arg4 harg4 arg5 harg5 arg6 harg6 arg7 harg7) K := by
  simp only [cc1__sim_diff_kernel_eq_skeleton]; unfold cc1__sim_diff_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  obtain rfl := harg4.eq_unread hf4; obtain rfl := harg5.eq_unread hf5
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread,
      View.ld_unit_zero (S := S1x256x256) hz3, View.ld_unit_zero (S := S1x256x1024) hz3, View.readCov_unit_zero (S := S1x1) _ hz2]
    unfold out1 acc1; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread,
      View.ld_unit_zero (S := S1x256x256) hz3, View.ld_unit_zero (S := S1x256x1024) hz3, View.readCov_unit_zero (S := S1x1) _ hz2]
    unfold acc1; rfl

set_option maxHeartbeats 1000000 in
/-- At any other row tile the point's term is added to what the scratch holds: the one store into
    the scratch writes the whole block, its value the sum over the contents `s` read just before;
    the output block is that sum recast. -/
theorem body1_B (c : Dev nD) (i : grid1.Coords) (hc : ¬cond1 i)
    (arg2 : Memref sig .tc .vmem S1x256x256 .f32) (harg2 : arg2.IsWhole) (arg3 : Memref sig .tc .vmem S1x256x256 .f32) (harg3 : arg3.IsWhole)
    (arg4 : Memref sig .tc .vmem S1x256x1024 .f32) (harg4 : arg4.IsWhole) (arg5 : Memref sig .tc .vmem S1x256x1024 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x256x256 .f32) (x2 x3 : Vec F S1x256x1024 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out1 x0 x1 x2 x3 s) ∗ owns (c : Thread nD τ) arg7 fullShare (acc1 x0 x1 x2 x3 s)) -∗ K ⟨⟩))
      ⊢ wp frame (wpE (defs₀ (F := F)) Variants.none c none) E (cc1__sim_diff_kernel i arg2 harg2 arg3 harg3 arg4 harg4 arg5 harg5 arg6 harg6 arg7 harg7) K := by
  simp only [cc1__sim_diff_kernel_eq_skeleton]; unfold cc1__sim_diff_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3
  obtain rfl := harg4.eq_unread hf4; obtain rfl := harg5.eq_unread hf5
  obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread, harg7.read_unread,
      View.ld_unit_zero (S := S1x256x256) hz3, View.ld_unit_zero (S := S1x256x1024) hz3, View.ld_unit_zero (S := S1x1) hz2]
    unfold out1 acc1; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread, harg7.read_unread,
      View.ld_unit_zero (S := S1x256x256) hz3, View.ld_unit_zero (S := S1x256x1024) hz3, View.ld_unit_zero (S := S1x1) hz2]
    unfold acc1; rfl

end Cert.Kernel.Hand

end
-- ==== Proof.KDat.lean ====
/-
  The proof data of the two kernel regions, for any contents `V` the region is entered from.

  A region sweeps the rows of the pixel-similarity matrix of one batch element in tiles. Its windows
  are the teacher's and the student's row tile, the teacher's and the student's whole map (cut from
  the same two arrays as the tiles), and the one-entry result of the batch element. A one-entry
  scratch carries the running sum of squared differences over the tiles of a batch element: it is
  zeroed at the first tile, and after every tile the result's buffer is set to the scratch, so the
  block written back at the last tile is the batch element's total.
-/
import proofs.«158146_j14877766713777_1_alg».proof.Proof.KBody0
import proofs.«158146_j14877766713777_1_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held whole at the full share at some contents. -/
abbrev anyBuf (c : Dev nD) (b : Ref sig .tc) : sProp 𝕄 :=
  iprop(∃ f : Buf (Elt F) ((c : Thread nD τ).loc b), ((c : Thread nD τ).loc b) ↦{fullShare} f)

/-! # Region 0: the blocks its windows read, what its body accumulates point by point, its proof data -/

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the one-entry scratch holds after the body at position `n` of the sweep: the body's sum
    for the point's row tile, added to zero at the first tile of a batch element and to what the point before left
    at every other tile. -/
def accAt0 (c : Dev nD) : (n : ℕ) → n < cfg0.N → Vec F S1x1 .f32
  | 0, hn => acc0 (iblk0 V c 0 ⟨0, hn⟩) (iblk0 V c 1 ⟨0, hn⟩) (iblk0 V c 2 ⟨0, hn⟩) (iblk0 V c 3 ⟨0, hn⟩) k0_pay3
  | n + 1, hn => acc0 (iblk0 V c 0 ⟨n + 1, hn⟩) (iblk0 V c 1 ⟨n + 1, hn⟩) (iblk0 V c 2 ⟨n + 1, hn⟩) (iblk0 V c 3 ⟨n + 1, hn⟩)
      (if (n + 1) % 16 = 0 then k0_pay3 else accAt0 c n (Nat.lt_of_succ_lt hn))

/-- At the first tile of a batch element the sum starts from zero. -/
theorem accAt0_first (c : Dev nD) (t : Fin cfg0.N) (h0 : t.val % 16 = 0) :
    accAt0 V c t.val t.isLt = acc0 (iblk0 V c 0 t) (iblk0 V c 1 t) (iblk0 V c 2 t) (iblk0 V c 3 t) k0_pay3 := by
  obtain ⟨n, hn⟩ := t
  cases n with
  | zero => rfl
  | succ n => exact (by unfold accAt0; rw [if_pos h0])

/-- At every other tile it continues from what the point before left. -/
theorem accAt0_next (c : Dev nD) (t : Fin cfg0.N) (h0 : ¬ t.val % 16 = 0) :
    accAt0 V c t.val t.isLt = acc0 (iblk0 V c 0 t) (iblk0 V c 1 t) (iblk0 V c 2 t) (iblk0 V c 3 t)
      (accAt0 V c (t.val - 1) (Nat.lt_of_le_of_lt (Nat.sub_le _ _) t.isLt)) := by
  obtain ⟨n, hn⟩ := t
  cases n with
  | zero => exact absurd (Nat.zero_mod _) h0
  | succ n => exact (congrArg (acc0 (iblk0 V c 0 ⟨n + 1, hn⟩) (iblk0 V c 1 ⟨n + 1, hn⟩) (iblk0 V c 2 ⟨n + 1, hn⟩) (iblk0 V c 3 ⟨n + 1, hn⟩)) (if_neg h0)).trans rfl

/-- What the invariant knows of the scratch before position `n`: past the first tile of a batch element it holds
    what the point before left. -/
def scrOK0 (c : Dev nD) (n : Fin (cfg0.N + 1)) (s : Vec F S1x1 .f32) : Prop :=
  ¬ n.val % 16 = 0 → ∃ h : n.val - 1 < cfg0.N, s = accAt0 V c (n.val - 1) h

/-- Every scoped buffer the region does not stage, the scratch apart, at some contents. -/
def others0 (c : Dev nD) : sProp 𝕄 :=
  iprop(anyBuf (F := F) c cc1_stg0_0 ∗ anyBuf (F := F) c cc1_stg0_1 ∗ anyBuf (F := F) c cc1_stg1_0 ∗ anyBuf (F := F) c cc1_stg1_1 ∗ anyBuf (F := F) c cc1_stg2_0 ∗ anyBuf (F := F) c cc1_stg2_1 ∗ anyBuf (F := F) c cc1_stg3_0 ∗ anyBuf (F := F) c cc1_stg3_1 ∗ anyBuf (F := F) c cc1_stg4_0 ∗ anyBuf (F := F) c cc1_stg4_1 ∗ anyBuf (F := F) c cc1_scratch0)

/-- The body's invariant between points: the scratch at its running sum, the other scoped buffers at anything. -/
def Φ0 (c : Dev nD) (n : Fin (cfg0.N + 1)) : sProp 𝕄 :=
  iprop((∃ s : Vec F S1x1 .f32, ⌜scrOK0 V c n s⌝ ∗ owns (c : Thread nD τ) (Memref.whole cc0_scratch0 : Memref sig .tc .vmem S1x1 .f32) fullShare s) ∗ others0 (F := F) c)

/-- The proof data of region 0 on core `c`: the arrays as the region finds them; after the body each input's
    buffer at its block, the result's buffer at the running sum; two input windows cut from one array hold it at
    the two halves of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (accAt0 V c t.val t.isLt)
  Φ n := Φ0 V c n
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body at any point: the inputs' buffers hold their blocks; at the first tile of a batch element the scratch is
    zeroed whatever it held, at every other tile it holds what the point before left; the run then leaves the
    scratch at the next running sum and the result's buffer at the same value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4,
    show (dat0 V c).Φ t.castSucc = Φ0 V c t.castSucc from rfl, show (dat0 V c).Φ t.succ = Φ0 V c t.succ from rfl]
  unfold Φ0
  by_cases h0 : t.val % 16 = 0
  · rw [accAt0_first V c t h0]
    iintro ⟨⟨⟨%s, -, Hs⟩, Hoth⟩, Ho, ⟨%d0, H0⟩, ⟨%d1, H1⟩, ⟨%d2, H2⟩, ⟨%d3, H3⟩, ⟨%d4, H4⟩⟩
    iapply (body0_A c (grid0.coords t) ((hcond0 t).mpr h0) _ _ _ _ _ _ _ _ _ _ _ _ (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt0_first V c t h0).symm
      · iexact Hoth
    isplitl [Ho]; · iexact Ho
    isplitl [H0]; · iexact H0
    isplitl [H1]; · iexact H1
    isplitl [H2]; · iexact H2
    isplitl [H3]; · iexact H3
    iexact H4
  · rw [accAt0_next V c t h0]
    iintro ⟨⟨⟨%s, %hs, Hs⟩, Hoth⟩, Ho, ⟨%d0, H0⟩, ⟨%d1, H1⟩, ⟨%d2, H2⟩, ⟨%d3, H3⟩, ⟨%d4, H4⟩⟩
    obtain ⟨hlt, rfl⟩ := hs (by simpa only [Fin.coe_castSucc] using h0)
    iapply (body0_B c (grid0.coords t) (fun h => h0 ((hcond0 t).mp h)) _ _ _ _ _ _ _ _ _ _ _ _ (iblk0 V c 0 t) (iblk0 V c 1 t) (iblk0 V c 2 t) (iblk0 V c 3 t) _ Set.univ _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt0_next V c t h0).symm
      · iexact Hoth
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Region 1: the blocks its windows read, what its body accumulates point by point, its proof data -/

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION. What the one-entry scratch holds after the body at position `n` of the sweep: the body's sum
    for the point's row tile, added to zero at the first tile of a batch element and to what the point before left
    at every other tile. -/
def accAt1 (c : Dev nD) : (n : ℕ) → n < cfg1.N → Vec F S1x1 .f32
  | 0, hn => acc1 (iblk1 V c 0 ⟨0, hn⟩) (iblk1 V c 1 ⟨0, hn⟩) (iblk1 V c 2 ⟨0, hn⟩) (iblk1 V c 3 ⟨0, hn⟩) k1_pay3
  | n + 1, hn => acc1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay3 else accAt1 c n (Nat.lt_of_succ_lt hn))

/-- At the first tile of a batch element the sum starts from zero. -/
theorem accAt1_first (c : Dev nD) (t : Fin cfg1.N) (h0 : t.val % 4 = 0) :
    accAt1 V c t.val t.isLt = acc1 (iblk1 V c 0 t) (iblk1 V c 1 t) (iblk1 V c 2 t) (iblk1 V c 3 t) k1_pay3 := by
  obtain ⟨n, hn⟩ := t
  cases n with
  | zero => rfl
  | succ n => exact (by unfold accAt1; rw [if_pos h0])

/-- At every other tile it continues from what the point before left. -/
theorem accAt1_next (c : Dev nD) (t : Fin cfg1.N) (h0 : ¬ t.val % 4 = 0) :
    accAt1 V c t.val t.isLt = acc1 (iblk1 V c 0 t) (iblk1 V c 1 t) (iblk1 V c 2 t) (iblk1 V c 3 t)
      (accAt1 V c (t.val - 1) (Nat.lt_of_le_of_lt (Nat.sub_le _ _) t.isLt)) := by
  obtain ⟨n, hn⟩ := t
  cases n with
  | zero => exact absurd (Nat.zero_mod _) h0
  | succ n => exact (congrArg (acc1 (iblk1 V c 0 ⟨n + 1, hn⟩) (iblk1 V c 1 ⟨n + 1, hn⟩) (iblk1 V c 2 ⟨n + 1, hn⟩) (iblk1 V c 3 ⟨n + 1, hn⟩)) (if_neg h0)).trans rfl

/-- What the invariant knows of the scratch before position `n`: past the first tile of a batch element it holds
    what the point before left. -/
def scrOK1 (c : Dev nD) (n : Fin (cfg1.N + 1)) (s : Vec F S1x1 .f32) : Prop :=
  ¬ n.val % 4 = 0 → ∃ h : n.val - 1 < cfg1.N, s = accAt1 V c (n.val - 1) h

/-- Every scoped buffer the region does not stage, the scratch apart, at some contents. -/
def others1 (c : Dev nD) : sProp 𝕄 :=
  iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc0_scratch0)

/-- The body's invariant between points: the scratch at its running sum, the other scoped buffers at anything. -/
def Φ1 (c : Dev nD) (n : Fin (cfg1.N + 1)) : sProp 𝕄 :=
  iprop((∃ s : Vec F S1x1 .f32, ⌜scrOK1 V c n s⌝ ∗ owns (c : Thread nD τ) (Memref.whole cc1_scratch0 : Memref sig .tc .vmem S1x1 .f32) fullShare s) ∗ others1 (F := F) c)

/-- The proof data of region 1 on core `c`: the arrays as the region finds them; after the body each input's
    buffer at its block, the result's buffer at the running sum; two input windows cut from one array hold it at
    the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (accAt1 V c t.val t.isLt)
  Φ n := Φ1 V c n
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay2 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1600000 in
/-- The body at any point: the inputs' buffers hold their blocks; at the first tile of a batch element the scratch is
    zeroed whatever it held, at every other tile it holds what the point before left; the run then leaves the
    scratch at the next running sum and the result's buffer at the same value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4,
    show (dat1 V c).Φ t.castSucc = Φ1 V c t.castSucc from rfl, show (dat1 V c).Φ t.succ = Φ1 V c t.succ from rfl]
  unfold Φ1
  by_cases h0 : t.val % 4 = 0
  · rw [accAt1_first V c t h0]
    iintro ⟨⟨⟨%s, -, Hs⟩, Hoth⟩, Ho, ⟨%d0, H0⟩, ⟨%d1, H1⟩, ⟨%d2, H2⟩, ⟨%d3, H3⟩, ⟨%d4, H4⟩⟩
    iapply (body1_A c (grid1.coords t) ((hcond1 t).mpr h0) _ _ _ _ _ _ _ _ _ _ _ _ (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt1_first V c t h0).symm
      · iexact Hoth
    isplitl [Ho]; · iexact Ho
    isplitl [H0]; · iexact H0
    isplitl [H1]; · iexact H1
    isplitl [H2]; · iexact H2
    isplitl [H3]; · iexact H3
    iexact H4
  · rw [accAt1_next V c t h0]
    iintro ⟨⟨⟨%s, %hs, Hs⟩, Hoth⟩, Ho, ⟨%d0, H0⟩, ⟨%d1, H1⟩, ⟨%d2, H2⟩, ⟨%d3, H3⟩, ⟨%d4, H4⟩⟩
    obtain ⟨hlt, rfl⟩ := hs (by simpa only [Fin.coe_castSucc] using h0)
    iapply (body1_B c (grid1.coords t) (fun h => h0 ((hcond1 t).mp h)) _ _ _ _ _ _ _ _ _ _ _ _ (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt1_next V c t h0).symm
      · iexact Hoth
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The run of the whole program: two host reshapes, the first region, two host reshapes, the second
  region, and the host's sums, divisions and stacking — from any memory with zero counters every weakly
  fair execution ends, and the final memory holds every buffer at the contents obtained by folding
  the host lines and the regions' write-backs over the launch memory.

  Each region reads the teacher's and the student's feature array through two windows apiece (a row
  tile and the whole map). A buffer cannot be handed whole to two windows, so at a region's entry the
  full share of each feature array is split in two halves, one per window, and at the exit the halves,
  which still hold the entry contents, are joined back; the result's array is held whole throughout.
-/
import proofs.«158146_j14877766713777_1_alg».proof.Proof.KDat
import proofs.«158146_j14877766713777_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- Core `c`'s buffers at launch. -/
abbrev W0 : Dev nD → Valuation τ sig (Elt F) := fun c b => (s₀ m ρ).mem ((c : Dev nD), b)
/-- After the first two reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its result array at what the write-backs left, everything else as entered. -/
def W2 (c : Dev nD) : Valuation τ sig (Elt F) :=
  Function.update (W1 m ρ c) main_v2 ((dat0 (V1 m ρ) c).arrAt 4 cfg0.N)
/-- After the next two reshapes (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Function.update (W3 m ρ c) main_v5 ((dat1 (V3 m ρ) c).arrAt 4 cfg1.N)
/-- After the host's sums, divisions and stacking: the final contents. -/
abbrev W5 : Dev nD → Valuation τ sig (Elt F) := fun c => StableHlo.after hostOps2 (W4 m ρ c)

/-! ## The proof data family and the thread state -/

/-- No region has a prefetched table. -/
abbrev adm : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A line of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## Region 0: its arrays out of the core's buffers and back -/

/-- Region 0's proof data at its entry contents. -/
abbrev d0 (c : Dev nD) := dat0 (V1 m ρ) c

/-- The three distinct buffers behind region 0's five windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1) ∗ (((c : Thread nD τ).loc main_v2) ↦{fullShare} W main_v2)) := by
  unfold Pipeline.arrBufs
  exact bigSep_eq_bigSepL_of_eq [main_v0, main_v1, main_v2] (by decide) (by decide) _

/-- The five windows' holdings one by one: each feature array through two windows at the two halves of its share,
    the result's array whole. -/
theorem arrays0_eq (c : Dev nD) (Fn : (w : Fin cfg0.W) → Buf (Elt F) ((cfg0.win w).arr.view.loc (c : Thread nD τ))) :
    ((d0 m ρ c).arrays Fn : sProp 𝕄)
      = iprop((((c : Thread nD τ).loc main_v0) ↦{fullShare.left} Fn 0) ∗ (((c : Thread nD τ).loc main_v1) ↦{fullShare.left} Fn 1)
          ∗ (((c : Thread nD τ).loc main_v0) ↦{fullShare.right} Fn 2) ∗ (((c : Thread nD τ).loc main_v1) ↦{fullShare.right} Fn 3)
          ∗ (((c : Thread nD τ).loc main_v2) ↦{fullShare} Fn 4)) := by
  unfold Dat.arrays
  rw [bigSep_W0]
  rw [(arr_whole0 0).set_eq_univ, (arr_whole0 1).set_eq_univ, (arr_whole0 4).set_eq_univ]
  rw [show (d0 m ρ c).share 0 = fullShare.left from rfl, show (d0 m ρ c).share 1 = fullShare.left from rfl, show (d0 m ρ c).share 2 = fullShare.right from rfl, show (d0 m ρ c).share 3 = fullShare.right from rfl, show (d0 m ρ c).share 4 = fullShare from rfl]

/-- Off the result's array the exit contents are the entry contents. -/
theorem W2_of_ne (c : Dev nD) (b : Ref sig .tc) (hb : b ≠ main_v2) : W2 m ρ c b = W1 m ρ c b := by
  unfold W2
  exact Function.update_of_ne (StableHlo.devRef_ne_of_ne hb) _ _

/-- The result's array at exit holds what the write-backs left. -/
theorem W2_out (c : Dev nD) : W2 m ρ c main_v2 = (dat0 (V1 m ρ) c).arrAt 4 cfg0.N := by
  unfold W2
  exact Function.update_self _ _ _

/-- The buffers behind region 0's arrays, each whole, make the windows' shares at entry: the two feature arrays are
    each read through two windows, which take the two halves of the array's share; the result's array is held whole. -/
theorem arrays_entry0 (c : Dev nD) :
    (Pipeline.arrBufs (Ix := Unit) (Name := ℕ) (U := UR sig nD τ) (Lvl := ℕ) spec0 c (V1 m ρ c) : sProp 𝕄)
      ⊢ (d0 m ρ c).arrays ((d0 m ρ c).arrAt · 0) := by
  rw [arrBufs0_eq, arrays0_eq]
  iintro ⟨H0, H1, H2⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H2

/-- At the region's exit the windows' shares make the buffers whole again: an input array holds what it held, the
    result's array what the write-backs left. -/
theorem arrays_exit0 (c : Dev nD) :
    ((d0 m ρ c).arrays ((d0 m ρ c).arrAt · cfg0.N) : sProp 𝕄)
      ⊢ Pipeline.arrBufs (Ix := Unit) (Name := ℕ) (U := UR sig nD τ) (Lvl := ℕ) spec0 c (fun b => W2 m ρ c b) := by
  rw [arrBufs0_eq, arrays0_eq]
  simp only [W2_of_ne m ρ c main_v0 (by decide), W2_of_ne m ρ c main_v1 (by decide), W2_out m ρ c]
  rw [(d0 m ρ c).arrAt_in 0 rfl, (d0 m ρ c).arrAt_in 1 rfl, (d0 m ρ c).arrAt_in 2 rfl, (d0 m ρ c).arrAt_in 3 rfl]
  iintro ⟨H0l, H1l, H0r, H1r, H2⟩
  isplitl [H0l H0r]
  · iapply (pointsTo_share (PosShare.mem_left_op_right fullShare)).2; isplitl [H0l]; (· iexact H0l); iexact H0r
  isplitl [H1l H1r]
  · iapply (pointsTo_share (PosShare.mem_left_op_right fullShare)).2; isplitl [H1l]; (· iexact H1l); iexact H1r
  iexact H2

/-- The buffers no window of region 0 touches hold the same at exit as at entry. -/
theorem rest_exit0 (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (fun b => W2 m ρ c b) := by
  unfold Pipeline.unscopedRest
  refine bigSep_congr fun b hb => ?_
  dsimp only
  rw [W2_of_ne m ρ c b fun h => (Finset.mem_sdiff.mp hb).2 (h ▸ Finset.mem_image.mpr ⟨4, Finset.mem_univ _, rfl⟩)]

/-- Every unscoped buffer at the entry contents is the region's array buffers and the rest. -/
theorem held_split0 (c : Dev nD) :
    (StableHlo.held (c : Thread nD τ) (Pipeline.ucRefs τ sig) (W1 m ρ c) : sProp 𝕄)
      ⊢ iprop(Pipeline.arrBufs (Ix := Unit) (Name := ℕ) (U := UR sig nD τ) (Lvl := ℕ) spec0 c (V1 m ρ c)
          ∗ Pipeline.unscopedRest (Ix := Unit) (Name := ℕ) (U := UR sig nD τ) (Lvl := ℕ) spec0 c (V1 m ρ c)) := by
  rw [← Pipeline.unscopedBufs_held c (W1 m ρ c)]
  exact Entails.of_eq (Pipeline.unscopedBufs_split₀ (cfgs := cfgs) (0 : Fin 2) winFacts₀0.arr_unscoped c _)

/-- And back, at the exit contents. -/
theorem held_join0 (c : Dev nD) :
    (iprop(Pipeline.arrBufs (Ix := Unit) (Name := ℕ) (U := UR sig nD τ) (Lvl := ℕ) spec0 c (fun b => W2 m ρ c b)
          ∗ Pipeline.unscopedRest (Ix := Unit) (Name := ℕ) (U := UR sig nD τ) (Lvl := ℕ) spec0 c (fun b => W2 m ρ c b)) : sProp 𝕄)
      ⊢ StableHlo.held (c : Thread nD τ) (Pipeline.ucRefs τ sig) (W2 m ρ c) := by
  rw [← Pipeline.unscopedBufs_held c (W2 m ρ c)]
  exact Entails.of_eq (Pipeline.unscopedBufs_split₀ (cfgs := cfgs) (0 : Fin 2) winFacts₀0.arr_unscoped c _).symm

/-! ## Region 1: its arrays out of the core's buffers and back -/

/-- Region 1's proof data at its entry contents. -/
abbrev d1 (c : Dev nD) := dat1 (V3 m ρ) c

/-- The three distinct buffers behind region 1's five windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v4) ↦{fullShare} W main_v4) ∗ (((c : Thread nD τ).loc main_v5) ↦{fullShare} W main_v5)) := by
  unfold Pipeline.arrBufs
  exact bigSep_eq_bigSepL_of_eq [main_v3, main_v4, main_v5] (by decide) (by decide) _

/-- The five windows' holdings one by one: each feature array through two windows at the two halves of its share,
    the result's array whole. -/
theorem arrays1_eq (c : Dev nD) (Fn : (w : Fin cfg1.W) → Buf (Elt F) ((cfg1.win w).arr.view.loc (c : Thread nD τ))) :
    ((d1 m ρ c).arrays Fn : sProp 𝕄)
      = iprop((((c : Thread nD τ).loc main_v3) ↦{fullShare.left} Fn 0) ∗ (((c : Thread nD τ).loc main_v4) ↦{fullShare.left} Fn 1)
          ∗ (((c : Thread nD τ).loc main_v3) ↦{fullShare.right} Fn 2) ∗ (((c : Thread nD τ).loc main_v4) ↦{fullShare.right} Fn 3)
          ∗ (((c : Thread nD τ).loc main_v5) ↦{fullShare} Fn 4)) := by
  unfold Dat.arrays
  rw [bigSep_W1]
  rw [(arr_whole1 0).set_eq_univ, (arr_whole1 1).set_eq_univ, (arr_whole1 4).set_eq_univ]
  rw [show (d1 m ρ c).share 0 = fullShare.left from rfl, show (d1 m ρ c).share 1 = fullShare.left from rfl, show (d1 m ρ c).share 2 = fullShare.right from rfl, show (d1 m ρ c).share 3 = fullShare.right from rfl, show (d1 m ρ c).share 4 = fullShare from rfl]

/-- Off the result's array the exit contents are the entry contents. -/
theorem W4_of_ne (c : Dev nD) (b : Ref sig .tc) (hb : b ≠ main_v5) : W4 m ρ c b = W3 m ρ c b := by
  unfold W4
  exact Function.update_of_ne (StableHlo.devRef_ne_of_ne hb) _ _

/-- The result's array at exit holds what the write-backs left. -/
theorem W4_out (c : Dev nD) : W4 m ρ c main_v5 = (dat1 (V3 m ρ) c).arrAt 4 cfg1.N := by
  unfold W4
  exact Function.update_self _ _ _

/-- The buffers behind region 1's arrays, each whole, make the windows' shares at entry: the two feature arrays are
    each read through two windows, which take the two halves of the array's share; the result's array is held whole. -/
theorem arrays_entry1 (c : Dev nD) :
    (Pipeline.arrBufs (Ix := Unit) (Name := ℕ) (U := UR sig nD τ) (Lvl := ℕ) spec1 c (V3 m ρ c) : sProp 𝕄)
      ⊢ (d1 m ρ c).arrays ((d1 m ρ c).arrAt · 0) := by
  rw [arrBufs1_eq, arrays1_eq]
  iintro ⟨H0, H1, H2⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H2

/-- At the region's exit the windows' shares make the buffers whole again: an input array holds what it held, the
    result's array what the write-backs left. -/
theorem arrays_exit1 (c : Dev nD) :
    ((d1 m ρ c).arrays ((d1 m ρ c).arrAt · cfg1.N) : sProp 𝕄)
      ⊢ Pipeline.arrBufs (Ix := Unit) (Name := ℕ) (U := UR sig nD τ) (Lvl := ℕ) spec1 c (fun b => W4 m ρ c b) := by
  rw [arrBufs1_eq, arrays1_eq]
  simp only [W4_of_ne m ρ c main_v3 (by decide), W4_of_ne m ρ c main_v4 (by decide), W4_out m ρ c]
  rw [(d1 m ρ c).arrAt_in 0 rfl, (d1 m ρ c).arrAt_in 1 rfl, (d1 m ρ c).arrAt_in 2 rfl, (d1 m ρ c).arrAt_in 3 rfl]
  iintro ⟨H0l, H1l, H0r, H1r, H2⟩
  isplitl [H0l H0r]
  · iapply (pointsTo_share (PosShare.mem_left_op_right fullShare)).2; isplitl [H0l]; (· iexact H0l); iexact H0r
  isplitl [H1l H1r]
  · iapply (pointsTo_share (PosShare.mem_left_op_right fullShare)).2; isplitl [H1l]; (· iexact H1l); iexact H1r
  iexact H2

/-- The buffers no window of region 1 touches hold the same at exit as at entry. -/
theorem rest_exit1 (c : Dev nD) :
    (Pipeline.unscopedRest (Ix := Unit) (Name := ℕ) (U := UR sig nD τ) (Lvl := ℕ) spec1 c (V3 m ρ c) : sProp 𝕄)
      = Pipeline.unscopedRest (Ix := Unit) (Name := ℕ) (U := UR sig nD τ) (Lvl := ℕ) spec1 c (fun b => W4 m ρ c b) := by
  unfold Pipeline.unscopedRest
  refine bigSep_congr fun b hb => ?_
  dsimp only
  rw [W4_of_ne m ρ c b fun h => (Finset.mem_sdiff.mp hb).2 (h ▸ Finset.mem_image.mpr ⟨4, Finset.mem_univ _, rfl⟩)]

/-- Every unscoped buffer at the entry contents is the region's array buffers and the rest. -/
theorem held_split1 (c : Dev nD) :
    (StableHlo.held (c : Thread nD τ) (Pipeline.ucRefs τ sig) (W3 m ρ c) : sProp 𝕄)
      ⊢ iprop(Pipeline.arrBufs (Ix := Unit) (Name := ℕ) (U := UR sig nD τ) (Lvl := ℕ) spec1 c (V3 m ρ c)
          ∗ Pipeline.unscopedRest (Ix := Unit) (Name := ℕ) (U := UR sig nD τ) (Lvl := ℕ) spec1 c (V3 m ρ c)) := by
  rw [← Pipeline.unscopedBufs_held c (W3 m ρ c)]
  exact Entails.of_eq (Pipeline.unscopedBufs_split₀ (cfgs := cfgs) (1 : Fin 2) winFacts₀1.arr_unscoped c _)

/-- And back, at the exit contents. -/
theorem held_join1 (c : Dev nD) :
    (iprop(Pipeline.arrBufs (Ix := Unit) (Name := ℕ) (U := UR sig nD τ) (Lvl := ℕ) spec1 c (fun b => W4 m ρ c b)
          ∗ Pipeline.unscopedRest (Ix := Unit) (Name := ℕ) (U := UR sig nD τ) (Lvl := ℕ) spec1 c (fun b => W4 m ρ c b)) : sProp 𝕄)
      ⊢ StableHlo.held (c : Thread nD τ) (Pipeline.ucRefs τ sig) (W4 m ρ c) := by
  rw [← Pipeline.unscopedBufs_held c (W4 m ρ c)]
  exact Entails.of_eq (Pipeline.unscopedBufs_split₀ (cfgs := cfgs) (1 : Fin 2) winFacts₀1.arr_unscoped c _).symm

set_option backward.isDefEq.respectTransparency.types false in
/-- REGION 0 over the thread state: entered from every unscoped buffer at `W1`, left at `W2`. Its arrays are
    split out of the unscoped buffers and dealt to the windows, and put back at the exit; the scoped buffers enter the
    invariant, where the scratch is tracked; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := BI.emp
  Y c := BI.emp
  Z c := iprop(Pipeline.unscopedRest (Ix := Unit) (Name := ℕ) (U := UR sig nD τ) (Lvl := ℕ) spec0 c (V1 m ρ c) ∗ ∃ r, prngReg c r)
  hentry c := by
    rw [Pipeline.ownSems0_none]
    iintro ⟨⟨Hub, Hp, HO⟩, -, -⟩
    ihave H := (held_split0 m ρ c) $$ Hub
    icases H with ⟨Ha, Hrest⟩
    imodintro
    isplitl [Ha]; · iapply (arrays_entry0 m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    change iprop(_ ∗ _ ∗ Pipeline.scopedRest (Ix := Unit) (Name := ℕ) (U := UR sig nD τ) (Lvl := ℕ) (Val := Elt F) spec0 c) ⊢ Φ0 (V1 m ρ) c 0
    rw [scopedRest0_eq]
    unfold Φ0 others0
    simp only [owns_whole]
    iintro ⟨-, -, ⟨%f, Hs⟩, Hr⟩
    isplitl [Hs]
    · iexists f; isplitr; · ipureintro; intro h; exact absurd (Nat.zero_mod _) h
      iexact Hs
    iexact Hr
  hout c := by
    rw [Pipeline.ownSems0_none]
    change Φ0 (V1 m ρ) c (Fin.last cfg0.N) ⊢ iprop(_ ∗ _ ∗ Pipeline.scopedRest (Ix := Unit) (Name := ℕ) (U := UR sig nD τ) (Lvl := ℕ) (Val := Elt F) spec0 c)
    rw [scopedRest0_eq]
    unfold Φ0 others0
    simp only [owns_whole]
    iintro ⟨⟨%s, -, Hs⟩, Hr⟩
    isplitr; · iempintro
    isplitr; · iempintro
    isplitl [Hs]; · iexists _; iexact Hs
    iexact Hr
  hexit c := by
    iintro ⟨Ha, HO, -, Hrest, Hp⟩
    imodintro
    isplitl [Ha Hrest]
    · iapply (held_join0 m ρ c)
      isplitl [Ha]; · iapply (arrays_exit0 m ρ c); iexact Ha
      rw [← rest_exit0 m ρ c]; iexact Hrest
    isplitl [Hp]; · iexact Hp
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and dealt to the windows, and put back at the exit; the scoped buffers enter the
    invariant, where the scratch is tracked; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := BI.emp
  Y c := BI.emp
  Z c := iprop(Pipeline.unscopedRest (Ix := Unit) (Name := ℕ) (U := UR sig nD τ) (Lvl := ℕ) spec1 c (V3 m ρ c) ∗ ∃ r, prngReg c r)
  hentry c := by
    rw [Pipeline.ownSems0_none]
    iintro ⟨⟨Hub, Hp, HO⟩, -, -⟩
    ihave H := (held_split1 m ρ c) $$ Hub
    icases H with ⟨Ha, Hrest⟩
    imodintro
    isplitl [Ha]; · iapply (arrays_entry1 m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    change iprop(_ ∗ _ ∗ Pipeline.scopedRest (Ix := Unit) (Name := ℕ) (U := UR sig nD τ) (Lvl := ℕ) (Val := Elt F) spec1 c) ⊢ Φ1 (V3 m ρ) c 0
    rw [scopedRest1_eq]
    unfold Φ1 others1
    simp only [owns_whole]
    iintro ⟨-, -, A0, A1, A2, A3, A4, A5, A6, A7, A8, A9, A10, ⟨%f, Hs⟩⟩
    isplitl [Hs]
    · iexists f; isplitr; · ipureintro; intro h; exact absurd (Nat.zero_mod _) h
      iexact Hs
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  hout c := by
    rw [Pipeline.ownSems0_none]
    change Φ1 (V3 m ρ) c (Fin.last cfg1.N) ⊢ iprop(_ ∗ _ ∗ Pipeline.scopedRest (Ix := Unit) (Name := ℕ) (U := UR sig nD τ) (Lvl := ℕ) (Val := Elt F) spec1 c)
    rw [scopedRest1_eq]
    unfold Φ1 others1
    simp only [owns_whole]
    iintro ⟨⟨%s, -, Hs⟩, A0, A1, A2, A3, A4, A5, A6, A7, A8, A9, A10⟩
    isplitr; · iempintro
    isplitr; · iempintro
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexists _; iexact Hs
  hexit c := by
    iintro ⟨Ha, HO, -, Hrest, Hp⟩
    imodintro
    isplitl [Ha Hrest]
    · iapply (held_join1 m ρ c)
      isplitl [Ha]; · iapply (arrays_exit1 m ρ c); iexact Ha
      rw [← rest_exit1 m ρ c]; iexact Hrest
    isplitl [Hp]; · iexact Hp
    unfold Pipeline.Dat.owesAt Pipeline.owesWithin
    icases HO with ⟨%W, -, HO⟩; iexists W; iexact HO

/-! ## The program as its items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The last thread state without what is owed: every unscoped buffer at the final contents, the generator register. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- THE RUN. From any memory with zero counters every weakly fair execution of the program terminates, nothing
    faulting, and the final memory holds every unscoped buffer of every core at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      change iprop(StableHlo.held (c : Thread nD τ) (Pipeline.ucRefs τ sig) (W5 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.KFrame.lean ====
/-
  The frame: every argument array ends as launched.

  The final contents are a fold over the launch memory: three lines of host operations, each of
  which writes only its own results, and two regions, each of which changes only its result array.
  No step writes an argument, so the fold at an argument's buffer walks back to the launch memory.
-/
import proofs.«158146_j14877766713777_1_alg».proof.Proof.KRun

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer that no host line writes and that is neither region's result holds its launch contents at the end. -/
theorem W5_of_untouched (c : Dev nD) (b : Ref sig .tc) (h0 : b ∉ hostOps0_W) (h1 : b ∉ hostOps1_W) (h2 : b ∉ hostOps2_W)
    (hv2 : b ≠ main_v2) (hv5 : b ≠ main_v5) : W5 m ρ c b = m ((c : Thread nD τ).loc b) :=
  calc W5 m ρ c b = W4 m ρ c b := StableHlo.after_of_writes_sub hostOps2 _ hostOps2_writes h2
    _ = W3 m ρ c b := W4_of_ne m ρ c b hv5
    _ = W2 m ρ c b := StableHlo.after_of_writes_sub hostOps1 _ hostOps1_writes h1
    _ = W1 m ρ c b := W2_of_ne m ρ c b hv2
    _ = W0 m ρ c b := StableHlo.after_of_writes_sub hostOps0 _ hostOps0_writes h0
    _ = m ((c : Thread nD τ).loc b) := rfl

/-- An unscoped reference of the TensorCore is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: from any memory with zero counters every weakly fair execution terminates, nothing faulting, and the
    four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_of_untouched m ρ c main_arg0 (by decide) (by decide) (by decide) (by decide) (by decide)),
     (h c _ (mem_uc main_arg1 (by decide))).trans (W5_of_untouched m ρ c main_arg1 (by decide) (by decide) (by decide) (by decide) (by decide)),
     (h c _ (mem_uc main_arg2 (by decide))).trans (W5_of_untouched m ρ c main_arg2 (by decide) (by decide) (by decide) (by decide) (by decide)),
     (h c _ (mem_uc main_arg3 (by decide))).trans (W5_of_untouched m ρ c main_arg3 (by decide) (by decide) (by decide) (by decide) (by decide))⟩)
    (run_all m ρ)

end Cert.Kernel.Hand

end
-- ==== Proof.KIBody0.lean ====
import proofs.«158146_j14877766713777_1_alg».proof.Proof.Gen.KernelIdeal.Skeleton
import proofs.«158146_j14877766713777_1_alg».proof.Proof.Gen.KernelIdeal.Launch
import proofs.«158146_j14877766713777_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What one grid point adds to the running scalar: the squared Frobenius distance between the two
    similarity matrices of the point's blocks (each block's columns scaled to unit length first),
    added to the running value `s`. -/
def acc0 (x0 x1 : Vec F S1x128x256 .f32) (x2 x3 : Vec F S1x128x4096 .f32) (s : Vec F S1x1 .f32) : Vec F S1x1 .f32 :=
  k0_pay1 (k0_pay4 x0) (k0_pay5 x1) (k0_pay6 x2) (k0_pay7 x3) (k0_pay8 x0) (k0_pay9 x1) (k0_pay10 x2) (k0_pay11 x3) s

/-- The output block after the point: the running scalar, as a 1x1x1 block. -/
def out0 (x0 x1 : Vec F S1x128x256 .f32) (x2 x3 : Vec F S1x128x4096 .f32) (s : Vec F S1x1 .f32) : Vec F S1x1x1 .f32 :=
  k0_pay2 (acc0 x0 x1 x2 x3 s)

/-- The body's branch condition, from the grid coordinates: the row-tile coordinate is zero. -/
abbrev cond0 (i : grid0.Coords) : Prop := (Scalar.cmpi .ne (Scalar.extui (Scalar.cmpi .eq (BitVec.ofNat 32 (i 1).val) 0#32)) 0#32) = 1#1

/-- It holds exactly at the first row tile of each batch entry: decided over the grid. -/
theorem hcond0 : ∀ t : Fin cfg0.N, cond0 (grid0.coords t) ↔ t.val % 16 = 0 :=
  (by decide +kernel : ∀ t : Fin grid0.N, cond0 (grid0.coords t) ↔ t.val % 16 = 0)

/-- The zero offsets of a rank-2 and of a rank-3 block, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- At a first row tile the running scalar is reset to zero before the point's term is added:
    whatever the scratch and the output block held, they end at the point's term over zero.
    Every store writes its whole block, so each buffer reads back as its last store's value: the
    scratch as the sum over the zero block it was just reset to, the output block as that sum
    recast; every load of an input reads the whole block the input holds. -/
theorem body0_A (c : Dev nD) (i : grid0.Coords) (hc : cond0 i)
    (arg2 : Memref sig .tc .vmem S1x128x256 .f32) (harg2 : arg2.IsWhole) (arg3 : Memref sig .tc .vmem S1x128x256 .f32) (harg3 : arg3.IsWhole)
    (arg4 : Memref sig .tc .vmem S1x128x4096 .f32) (harg4 : arg4.IsWhole) (arg5 : Memref sig .tc .vmem S1x128x4096 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x128x256 .f32) (x2 x3 : Vec F S1x128x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out0 x0 x1 x2 x3 (k0_pay3 (F := F))) ∗ owns (c : Thread nD τ) arg7 fullShare (acc0 x0 x1 x2 x3 (k0_pay3 (F := F)))) -∗ K ⟨⟩))
      ⊢ wp frame (wpE (defs₀ (F := F)) Variants.none c none) E (cc0__sim_diff_kernel i arg2 harg2 arg3 harg3 arg4 harg4 arg5 harg5 arg6 harg6 arg7 harg7) K := by
  simp only [cc0__sim_diff_kernel_eq_skeleton]; unfold cc0__sim_diff_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  obtain rfl := harg4.eq_unread hf4; obtain rfl := harg5.eq_unread hf5
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread,
      View.ld_unit_zero (S := S1x128x256) hz3, View.ld_unit_zero (S := S1x128x4096) hz3, View.readCov_unit_zero (S := S1x1) _ hz2]
    unfold out0 acc0; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread,
      View.ld_unit_zero (S := S1x128x256) hz3, View.ld_unit_zero (S := S1x128x4096) hz3, View.readCov_unit_zero (S := S1x1) _ hz2]
    unfold acc0; rfl

set_option maxHeartbeats 1000000 in
/-- At any other row tile the point's term is added to what the scratch holds: the one store into
    the scratch writes the whole block, its value the sum over the contents `s` read just before;
    the output block is that sum recast. -/
theorem body0_B (c : Dev nD) (i : grid0.Coords) (hc : ¬cond0 i)
    (arg2 : Memref sig .tc .vmem S1x128x256 .f32) (harg2 : arg2.IsWhole) (arg3 : Memref sig .tc .vmem S1x128x256 .f32) (harg3 : arg3.IsWhole)
    (arg4 : Memref sig .tc .vmem S1x128x4096 .f32) (harg4 : arg4.IsWhole) (arg5 : Memref sig .tc .vmem S1x128x4096 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x128x256 .f32) (x2 x3 : Vec F S1x128x4096 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out0 x0 x1 x2 x3 s) ∗ owns (c : Thread nD τ) arg7 fullShare (acc0 x0 x1 x2 x3 s)) -∗ K ⟨⟩))
      ⊢ wp frame (wpE (defs₀ (F := F)) Variants.none c none) E (cc0__sim_diff_kernel i arg2 harg2 arg3 harg3 arg4 harg4 arg5 harg5 arg6 harg6 arg7 harg7) K := by
  simp only [cc0__sim_diff_kernel_eq_skeleton]; unfold cc0__sim_diff_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3
  obtain rfl := harg4.eq_unread hf4; obtain rfl := harg5.eq_unread hf5
  obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread, harg7.read_unread,
      View.ld_unit_zero (S := S1x128x256) hz3, View.ld_unit_zero (S := S1x128x4096) hz3, View.ld_unit_zero (S := S1x1) hz2]
    unfold out0 acc0; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread, harg7.read_unread,
      View.ld_unit_zero (S := S1x128x256) hz3, View.ld_unit_zero (S := S1x128x4096) hz3, View.ld_unit_zero (S := S1x1) hz2]
    unfold acc0; rfl

end Cert.KernelIdeal.Hand

end
-- ==== Proof.KIBody1.lean ====
import proofs.«158146_j14877766713777_1_alg».proof.Proof.Gen.KernelIdeal.Skeleton
import proofs.«158146_j14877766713777_1_alg».proof.Proof.Gen.KernelIdeal.Launch
import proofs.«158146_j14877766713777_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What one grid point adds to the running scalar: the squared Frobenius distance between the two
    similarity matrices of the point's blocks (each block's columns scaled to unit length first),
    added to the running value `s`. -/
def acc1 (x0 x1 : Vec F S1x256x256 .f32) (x2 x3 : Vec F S1x256x1024 .f32) (s : Vec F S1x1 .f32) : Vec F S1x1 .f32 :=
  k1_pay1 (k1_pay4 x0) (k1_pay5 x1) (k1_pay6 x2) (k1_pay7 x3) (k1_pay8 x0) (k1_pay9 x1) (k1_pay10 x2) (k1_pay11 x3) s

/-- The output block after the point: the running scalar, as a 1x1x1 block. -/
def out1 (x0 x1 : Vec F S1x256x256 .f32) (x2 x3 : Vec F S1x256x1024 .f32) (s : Vec F S1x1 .f32) : Vec F S1x1x1 .f32 :=
  k1_pay2 (acc1 x0 x1 x2 x3 s)

/-- The body's branch condition, from the grid coordinates: the row-tile coordinate is zero. -/
abbrev cond1 (i : grid1.Coords) : Prop := (Scalar.cmpi .ne (Scalar.extui (Scalar.cmpi .eq (BitVec.ofNat 32 (i 1).val) 0#32)) 0#32) = 1#1

/-- It holds exactly at the first row tile of each batch entry: decided over the grid. -/
theorem hcond1 : ∀ t : Fin cfg1.N, cond1 (grid1.coords t) ↔ t.val % 4 = 0 :=
  (by decide +kernel : ∀ t : Fin grid1.N, cond1 (grid1.coords t) ↔ t.val % 4 = 0)

/-- The zero offsets of a rank-2 and of a rank-3 block, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- At a first row tile the running scalar is reset to zero before the point's term is added:
    whatever the scratch and the output block held, they end at the point's term over zero.
    Every store writes its whole block, so each buffer reads back as its last store's value: the
    scratch as the sum over the zero block it was just reset to, the output block as that sum
    recast; every load of an input reads the whole block the input holds. -/
theorem body1_A (c : Dev nD) (i : grid1.Coords) (hc : cond1 i)
    (arg2 : Memref sig .tc .vmem S1x256x256 .f32) (harg2 : arg2.IsWhole) (arg3 : Memref sig .tc .vmem S1x256x256 .f32) (harg3 : arg3.IsWhole)
    (arg4 : Memref sig .tc .vmem S1x256x1024 .f32) (harg4 : arg4.IsWhole) (arg5 : Memref sig .tc .vmem S1x256x1024 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x256x256 .f32) (x2 x3 : Vec F S1x256x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out1 x0 x1 x2 x3 (k1_pay3 (F := F))) ∗ owns (c : Thread nD τ) arg7 fullShare (acc1 x0 x1 x2 x3 (k1_pay3 (F := F)))) -∗ K ⟨⟩))
      ⊢ wp frame (wpE (defs₀ (F := F)) Variants.none c none) E (cc1__sim_diff_kernel i arg2 harg2 arg3 harg3 arg4 harg4 arg5 harg5 arg6 harg6 arg7 harg7) K := by
  simp only [cc1__sim_diff_kernel_eq_skeleton]; unfold cc1__sim_diff_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  obtain rfl := harg4.eq_unread hf4; obtain rfl := harg5.eq_unread hf5
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread,
      View.ld_unit_zero (S := S1x256x256) hz3, View.ld_unit_zero (S := S1x256x1024) hz3, View.readCov_unit_zero (S := S1x1) _ hz2]
    unfold out1 acc1; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread,
      View.ld_unit_zero (S := S1x256x256) hz3, View.ld_unit_zero (S := S1x256x1024) hz3, View.readCov_unit_zero (S := S1x1) _ hz2]
    unfold acc1; rfl

set_option maxHeartbeats 1000000 in
/-- At any other row tile the point's term is added to what the scratch holds: the one store into
    the scratch writes the whole block, its value the sum over the contents `s` read just before;
    the output block is that sum recast. -/
theorem body1_B (c : Dev nD) (i : grid1.Coords) (hc : ¬cond1 i)
    (arg2 : Memref sig .tc .vmem S1x256x256 .f32) (harg2 : arg2.IsWhole) (arg3 : Memref sig .tc .vmem S1x256x256 .f32) (harg3 : arg3.IsWhole)
    (arg4 : Memref sig .tc .vmem S1x256x1024 .f32) (harg4 : arg4.IsWhole) (arg5 : Memref sig .tc .vmem S1x256x1024 .f32) (harg5 : arg5.IsWhole)
    (arg6 : Memref sig .tc .vmem S1x1x1 .f32) (harg6 : arg6.IsWhole) (arg7 : Memref sig .tc .vmem S1x1 .f32) (harg7 : arg7.IsWhole)
    (x0 x1 : Vec F S1x256x256 .f32) (x2 x3 : Vec F S1x256x1024 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (out1 x0 x1 x2 x3 s) ∗ owns (c : Thread nD τ) arg7 fullShare (acc1 x0 x1 x2 x3 s)) -∗ K ⟨⟩))
      ⊢ wp frame (wpE (defs₀ (F := F)) Variants.none c none) E (cc1__sim_diff_kernel i arg2 harg2 arg3 harg3 arg4 harg4 arg5 harg5 arg6 harg6 arg7 harg7) K := by
  simp only [cc1__sim_diff_kernel_eq_skeleton]; unfold cc1__sim_diff_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3
  obtain rfl := harg4.eq_unread hf4; obtain rfl := harg5.eq_unread hf5
  obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ ?_).trans ?_
    · exact fun y => ⟨_, List.Mem.head _, View.mem_set_unit_zero (S := S1x1x1) hz3 inb_S1x1x1_S1x1x1_0_0_0 y⟩
    rw [View.canon_unit_zero (S := S1x1x1) hz3]
    rw [View.readCov_cons_toLoadRect]
    dsimp only
    simp only [View.readAt_eq_ld, harg2.read_unread, harg3.read_unread, harg4.read_unread, harg5.read_unread, harg7.read_unread,
      View.ld_unit_zero (S := S1x256x256) hz3, View.ld_unit_zero (S := S1x256x1024) hz3, View.ld_unit_zero (S := S1x1) hz2]
    unfold out1 acc1; rfl
  · iexists _; isplitr
    swap; · iexact H7
    ipureintro
    sl_unfold_words
    refine (View.read_writes_eq_canon _ _ _ ?_).trans ?_
    · exact fun y => ⟨_, List.Mem.head _, View.mem_set_unit_zero (S := S1x1) hz2 inb_S1x1_S1x1_0_0 y⟩
    rw [View.canon_cons_unit_zero (S := S1x1) hz2]
    dsimp only
    simp only [View.readAt_eq_ld, harg2.read_unread, harg3.read_unread, harg4.read_unread, harg5.read_unread, harg7.read_unread,
      View.ld_unit_zero (S := S1x256x256) hz3, View.ld_unit_zero (S := S1x256x1024) hz3, View.ld_unit_zero (S := S1x1) hz2]
    unfold acc1; rfl

end Cert.KernelIdeal.Hand

end
-- ==== Proof.KIDat.lean ====
/-
  The proof data of the two kernel regions, for any contents `V` the region is entered from.

  A region sweeps the rows of the pixel-similarity matrix of one batch element in tiles. Its windows
  are the teacher's and the student's row tile, the teacher's and the student's whole map (cut from
  the same two arrays as the tiles), and the one-entry result of the batch element. A one-entry
  scratch carries the running sum of squared differences over the tiles of a batch element: it is
  zeroed at the first tile, and after every tile the result's buffer is set to the scratch, so the
  block written back at the last tile is the batch element's total.
-/
import proofs.«158146_j14877766713777_1_alg».proof.Proof.KIBody0
import proofs.«158146_j14877766713777_1_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held whole at the full share at some contents. -/
abbrev anyBuf (c : Dev nD) (b : Ref sig .tc) : sProp 𝕄 :=
  iprop(∃ f : Buf (Elt F) ((c : Thread nD τ).loc b), ((c : Thread nD τ).loc b) ↦{fullShare} f)

/-! # Region 0: the blocks its windows read, what its body accumulates point by point, its proof data -/

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the one-entry scratch holds after the body at position `n` of the sweep: the body's sum
    for the point's row tile, added to zero at the first tile of a batch element and to what the point before left
    at every other tile. -/
def accAt0 (c : Dev nD) : (n : ℕ) → n < cfg0.N → Vec F S1x1 .f32
  | 0, hn => acc0 (iblk0 V c 0 ⟨0, hn⟩) (iblk0 V c 1 ⟨0, hn⟩) (iblk0 V c 2 ⟨0, hn⟩) (iblk0 V c 3 ⟨0, hn⟩) k0_pay3
  | n + 1, hn => acc0 (iblk0 V c 0 ⟨n + 1, hn⟩) (iblk0 V c 1 ⟨n + 1, hn⟩) (iblk0 V c 2 ⟨n + 1, hn⟩) (iblk0 V c 3 ⟨n + 1, hn⟩)
      (if (n + 1) % 16 = 0 then k0_pay3 else accAt0 c n (Nat.lt_of_succ_lt hn))

/-- At the first tile of a batch element the sum starts from zero. -/
theorem accAt0_first (c : Dev nD) (t : Fin cfg0.N) (h0 : t.val % 16 = 0) :
    accAt0 V c t.val t.isLt = acc0 (iblk0 V c 0 t) (iblk0 V c 1 t) (iblk0 V c 2 t) (iblk0 V c 3 t) k0_pay3 := by
  obtain ⟨n, hn⟩ := t
  cases n with
  | zero => rfl
  | succ n => exact (by unfold accAt0; rw [if_pos h0])

/-- At every other tile it continues from what the point before left. -/
theorem accAt0_next (c : Dev nD) (t : Fin cfg0.N) (h0 : ¬ t.val % 16 = 0) :
    accAt0 V c t.val t.isLt = acc0 (iblk0 V c 0 t) (iblk0 V c 1 t) (iblk0 V c 2 t) (iblk0 V c 3 t)
      (accAt0 V c (t.val - 1) (Nat.lt_of_le_of_lt (Nat.sub_le _ _) t.isLt)) := by
  obtain ⟨n, hn⟩ := t
  cases n with
  | zero => exact absurd (Nat.zero_mod _) h0
  | succ n => exact (congrArg (acc0 (iblk0 V c 0 ⟨n + 1, hn⟩) (iblk0 V c 1 ⟨n + 1, hn⟩) (iblk0 V c 2 ⟨n + 1, hn⟩) (iblk0 V c 3 ⟨n + 1, hn⟩)) (if_neg h0)).trans rfl

/-- What the invariant knows of the scratch before position `n`: past the first tile of a batch element it holds
    what the point before left. -/
def scrOK0 (c : Dev nD) (n : Fin (cfg0.N + 1)) (s : Vec F S1x1 .f32) : Prop :=
  ¬ n.val % 16 = 0 → ∃ h : n.val - 1 < cfg0.N, s = accAt0 V c (n.val - 1) h

/-- Every scoped buffer the region does not stage, the scratch apart, at some contents. -/
def others0 (c : Dev nD) : sProp 𝕄 :=
  iprop(anyBuf (F := F) c cc1_stg0_0 ∗ anyBuf (F := F) c cc1_stg0_1 ∗ anyBuf (F := F) c cc1_stg1_0 ∗ anyBuf (F := F) c cc1_stg1_1 ∗ anyBuf (F := F) c cc1_stg2_0 ∗ anyBuf (F := F) c cc1_stg2_1 ∗ anyBuf (F := F) c cc1_stg3_0 ∗ anyBuf (F := F) c cc1_stg3_1 ∗ anyBuf (F := F) c cc1_stg4_0 ∗ anyBuf (F := F) c cc1_stg4_1 ∗ anyBuf (F := F) c cc1_scratch0)

/-- The body's invariant between points: the scratch at its running sum, the other scoped buffers at anything. -/
def Φ0 (c : Dev nD) (n : Fin (cfg0.N + 1)) : sProp 𝕄 :=
  iprop((∃ s : Vec F S1x1 .f32, ⌜scrOK0 V c n s⌝ ∗ owns (c : Thread nD τ) (Memref.whole cc0_scratch0 : Memref sig .tc .vmem S1x1 .f32) fullShare s) ∗ others0 (F := F) c)

/-- The proof data of region 0 on core `c`: the arrays as the region finds them; after the body each input's
    buffer at its block, the result's buffer at the running sum; two input windows cut from one array hold it at
    the two halves of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (accAt0 V c t.val t.isLt)
  Φ n := Φ0 V c n
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body at any point: the inputs' buffers hold their blocks; at the first tile of a batch element the scratch is
    zeroed whatever it held, at every other tile it holds what the point before left; the run then leaves the
    scratch at the next running sum and the result's buffer at the same value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4,
    show (dat0 V c).Φ t.castSucc = Φ0 V c t.castSucc from rfl, show (dat0 V c).Φ t.succ = Φ0 V c t.succ from rfl]
  unfold Φ0
  by_cases h0 : t.val % 16 = 0
  · rw [accAt0_first V c t h0]
    iintro ⟨⟨⟨%s, -, Hs⟩, Hoth⟩, Ho, ⟨%d0, H0⟩, ⟨%d1, H1⟩, ⟨%d2, H2⟩, ⟨%d3, H3⟩, ⟨%d4, H4⟩⟩
    iapply (body0_A c (grid0.coords t) ((hcond0 t).mpr h0) _ _ _ _ _ _ _ _ _ _ _ _ (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt0_first V c t h0).symm
      · iexact Hoth
    isplitl [Ho]; · iexact Ho
    isplitl [H0]; · iexact H0
    isplitl [H1]; · iexact H1
    isplitl [H2]; · iexact H2
    isplitl [H3]; · iexact H3
    iexact H4
  · rw [accAt0_next V c t h0]
    iintro ⟨⟨⟨%s, %hs, Hs⟩, Hoth⟩, Ho, ⟨%d0, H0⟩, ⟨%d1, H1⟩, ⟨%d2, H2⟩, ⟨%d3, H3⟩, ⟨%d4, H4⟩⟩
    obtain ⟨hlt, rfl⟩ := hs (by simpa only [Fin.coe_castSucc] using h0)
    iapply (body0_B c (grid0.coords t) (fun h => h0 ((hcond0 t).mp h)) _ _ _ _ _ _ _ _ _ _ _ _ (iblk0 V c 0 t) (iblk0 V c 1 t) (iblk0 V c 2 t) (iblk0 V c 3 t) _ Set.univ _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt0_next V c t h0).symm
      · iexact Hoth
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Region 1: the blocks its windows read, what its body accumulates point by point, its proof data -/

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION. What the one-entry scratch holds after the body at position `n` of the sweep: the body's sum
    for the point's row tile, added to zero at the first tile of a batch element and to what the point before left
    at every other tile. -/
def accAt1 (c : Dev nD) : (n : ℕ) → n < cfg1.N → Vec F S1x1 .f32
  | 0, hn => acc1 (iblk1 V c 0 ⟨0, hn⟩) (iblk1 V c 1 ⟨0, hn⟩) (iblk1 V c 2 ⟨0, hn⟩) (iblk1 V c 3 ⟨0, hn⟩) k1_pay3
  | n + 1, hn => acc1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay3 else accAt1 c n (Nat.lt_of_succ_lt hn))

/-- At the first tile of a batch element the sum starts from zero. -/
theorem accAt1_first (c : Dev nD) (t : Fin cfg1.N) (h0 : t.val % 4 = 0) :
    accAt1 V c t.val t.isLt = acc1 (iblk1 V c 0 t) (iblk1 V c 1 t) (iblk1 V c 2 t) (iblk1 V c 3 t) k1_pay3 := by
  obtain ⟨n, hn⟩ := t
  cases n with
  | zero => rfl
  | succ n => exact (by unfold accAt1; rw [if_pos h0])

/-- At every other tile it continues from what the point before left. -/
theorem accAt1_next (c : Dev nD) (t : Fin cfg1.N) (h0 : ¬ t.val % 4 = 0) :
    accAt1 V c t.val t.isLt = acc1 (iblk1 V c 0 t) (iblk1 V c 1 t) (iblk1 V c 2 t) (iblk1 V c 3 t)
      (accAt1 V c (t.val - 1) (Nat.lt_of_le_of_lt (Nat.sub_le _ _) t.isLt)) := by
  obtain ⟨n, hn⟩ := t
  cases n with
  | zero => exact absurd (Nat.zero_mod _) h0
  | succ n => exact (congrArg (acc1 (iblk1 V c 0 ⟨n + 1, hn⟩) (iblk1 V c 1 ⟨n + 1, hn⟩) (iblk1 V c 2 ⟨n + 1, hn⟩) (iblk1 V c 3 ⟨n + 1, hn⟩)) (if_neg h0)).trans rfl

/-- What the invariant knows of the scratch before position `n`: past the first tile of a batch element it holds
    what the point before left. -/
def scrOK1 (c : Dev nD) (n : Fin (cfg1.N + 1)) (s : Vec F S1x1 .f32) : Prop :=
  ¬ n.val % 4 = 0 → ∃ h : n.val - 1 < cfg1.N, s = accAt1 V c (n.val - 1) h

/-- Every scoped buffer the region does not stage, the scratch apart, at some contents. -/
def others1 (c : Dev nD) : sProp 𝕄 :=
  iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc0_scratch0)

/-- The body's invariant between points: the scratch at its running sum, the other scoped buffers at anything. -/
def Φ1 (c : Dev nD) (n : Fin (cfg1.N + 1)) : sProp 𝕄 :=
  iprop((∃ s : Vec F S1x1 .f32, ⌜scrOK1 V c n s⌝ ∗ owns (c : Thread nD τ) (Memref.whole cc1_scratch0 : Memref sig .tc .vmem S1x1 .f32) fullShare s) ∗ others1 (F := F) c)

/-- The proof data of region 1 on core `c`: the arrays as the region finds them; after the body each input's
    buffer at its block, the result's buffer at the running sum; two input windows cut from one array hold it at
    the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (accAt1 V c t.val t.isLt)
  Φ n := Φ1 V c n
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay2 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1600000 in
/-- The body at any point: the inputs' buffers hold their blocks; at the first tile of a batch element the scratch is
    zeroed whatever it held, at every other tile it holds what the point before left; the run then leaves the
    scratch at the next running sum and the result's buffer at the same value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4,
    show (dat1 V c).Φ t.castSucc = Φ1 V c t.castSucc from rfl, show (dat1 V c).Φ t.succ = Φ1 V c t.succ from rfl]
  unfold Φ1
  by_cases h0 : t.val % 4 = 0
  · rw [accAt1_first V c t h0]
    iintro ⟨⟨⟨%s, -, Hs⟩, Hoth⟩, Ho, ⟨%d0, H0⟩, ⟨%d1, H1⟩, ⟨%d2, H2⟩, ⟨%d3, H3⟩, ⟨%d4, H4⟩⟩
    iapply (body1_A c (grid1.coords t) ((hcond1 t).mpr h0) _ _ _ _ _ _ _ _ _ _ _ _ (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt1_first V c t h0).symm
      · iexact Hoth
    isplitl [Ho]; · iexact Ho
    isplitl [H0]; · iexact H0
    isplitl [H1]; · iexact H1
    isplitl [H2]; · iexact H2
    isplitl [H3]; · iexact H3
    iexact H4
  · rw [accAt1_next V c t h0]
    iintro ⟨⟨⟨%s, %hs, Hs⟩, Hoth⟩, Ho, ⟨%d0, H0⟩, ⟨%d1, H1⟩, ⟨%d2, H2⟩, ⟨%d3, H3⟩, ⟨%d4, H4⟩⟩
    obtain ⟨hlt, rfl⟩ := hs (by simpa only [Fin.coe_castSucc] using h0)
    iapply (body1_B c (grid1.coords t) (fun h => h0 ((hcond1 t).mp h)) _ _ _ _ _ _ _ _ _ _ _ _ (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hoth]
    · isplitl [Hs]
      · iexists _; isplitr; swap; (· iexact Hs)
        ipureintro; intro hn
        refine ⟨by simp only [Fin.val_succ, Nat.add_sub_cancel]; exact t.isLt, ?_⟩
        simp only [Fin.val_succ, Nat.add_sub_cancel]
        exact (accAt1_next V c t h0).symm
      · iexact Hoth
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The run of the whole program: two host reshapes, the first region, two host reshapes, the second
  region, and the host's sums, divisions and stacking — from any memory with zero counters every weakly
  fair execution ends, and the final memory holds every buffer at the contents obtained by folding
  the host lines and the regions' write-backs over the launch memory.

  Each region reads the teacher's and the student's feature array through two windows apiece (a row
  tile and the whole map). A buffer cannot be handed whole to two windows, so at a region's entry the
  full share of each feature array is split in two halves, one per window, and at the exit the halves,
  which still hold the entry contents, are joined back; the result's array is held whole throughout.
-/
import proofs.«158146_j14877766713777_1_alg».proof.Proof.KIDat
import proofs.«158146_j14877766713777_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- Core `c`'s buffers at launch. -/
abbrev W0 : Dev nD → Valuation τ sig (Elt F) := fun c b => (s₀ m ρ).mem ((c : Dev nD), b)
/-- After the first two reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its result array at what the write-backs left, everything else as entered. -/
def W2 (c : Dev nD) : Valuation τ sig (Elt F) :=
  Function.update (W1 m ρ c) main_v2 ((dat0 (V1 m ρ) c).arrAt 4 cfg0.N)
/-- After the next two reshapes (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Function.update (W3 m ρ c) main_v5 ((dat1 (V3 m ρ) c).arrAt 4 cfg1.N)
/-- After the host's sums, divisions and stacking: the final contents. -/
abbrev W5 : Dev nD → Valuation τ sig (Elt F) := fun c => StableHlo.after hostOps2 (W4 m ρ c)

/-! ## The proof data family and the thread state -/

/-- No region has a prefetched table. -/
abbrev adm : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A line of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## Region 0: its arrays out of the core's buffers and back -/

/-- Region 0's proof data at its entry contents. -/
abbrev d0 (c : Dev nD) := dat0 (V1 m ρ) c

/-- The three distinct buffers behind region 0's five windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1) ∗ (((c : Thread nD τ).loc main_v2) ↦{fullShare} W main_v2)) := by
  unfold Pipeline.arrBufs
  exact bigSep_eq_bigSepL_of_eq [main_v0, main_v1, main_v2] (by decide) (by decide) _

/-- The five windows' holdings one by one: each feature array through two windows at the two halves of its share,
    the result's array whole. -/
theorem arrays0_eq (c : Dev nD) (Fn : (w : Fin cfg0.W) → Buf (Elt F) ((cfg0.win w).arr.view.loc (c : Thread nD τ))) :
    ((d0 m ρ c).arrays Fn : sProp 𝕄)
      = iprop((((c : Thread nD τ).loc main_v0) ↦{fullShare.left} Fn 0) ∗ (((c : Thread nD τ).loc main_v1) ↦{fullShare.left} Fn 1)
          ∗ (((c : Thread nD τ).loc main_v0) ↦{fullShare.right} Fn 2) ∗ (((c : Thread nD τ).loc main_v1) ↦{fullShare.right} Fn 3)
          ∗ (((c : Thread nD τ).loc main_v2) ↦{fullShare} Fn 4)) := by
  unfold Dat.arrays
  rw [bigSep_W0]
  rw [(arr_whole0 0).set_eq_univ, (arr_whole0 1).set_eq_univ, (arr_whole0 4).set_eq_univ]
  rw [show (d0 m ρ c).share 0 = fullShare.left from rfl, show (d0 m ρ c).share 1 = fullShare.left from rfl, show (d0 m ρ c).share 2 = fullShare.right from rfl, show (d0 m ρ c).share 3 = fullShare.right from rfl, show (d0 m ρ c).share 4 = fullShare from rfl]

/-- Off the result's array the exit contents are the entry contents. -/
theorem W2_of_ne (c : Dev nD) (b : Ref sig .tc) (hb : b ≠ main_v2) : W2 m ρ c b = W1 m ρ c b := by
  unfold W2
  exact Function.update_of_ne (StableHlo.devRef_ne_of_ne hb) _ _

/-- The result's array at exit holds what the write-backs left. -/
theorem W2_out (c : Dev nD) : W2 m ρ c main_v2 = (dat0 (V1 m ρ) c).arrAt 4 cfg0.N := by
  unfold W2
  exact Function.update_self _ _ _

/-- The buffers behind region 0's arrays, each whole, make the windows' shares at entry: the two feature arrays are
    each read through two windows, which take the two halves of the array's share; the result's array is held whole. -/
theorem arrays_entry0 (c : Dev nD) :
    (Pipeline.arrBufs (Ix := Unit) (Name := ℕ) (U := UR sig nD τ) (Lvl := ℕ) spec0 c (V1 m ρ c) : sProp 𝕄)
      ⊢ (d0 m ρ c).arrays ((d0 m ρ c).arrAt · 0) := by
  rw [arrBufs0_eq, arrays0_eq]
  iintro ⟨H0, H1, H2⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H2

/-- At the region's exit the windows' shares make the buffers whole again: an input array holds what it held, the
    result's array what the write-backs left. -/
theorem arrays_exit0 (c : Dev nD) :
    ((d0 m ρ c).arrays ((d0 m ρ c).arrAt · cfg0.N) : sProp 𝕄)
      ⊢ Pipeline.arrBufs (Ix := Unit) (Name := ℕ) (U := UR sig nD τ) (Lvl := ℕ) spec0 c (fun b => W2 m ρ c b) := by
  rw [arrBufs0_eq, arrays0_eq]
  simp only [W2_of_ne m ρ c main_v0 (by decide), W2_of_ne m ρ c main_v1 (by decide), W2_out m ρ c]
  rw [(d0 m ρ c).arrAt_in 0 rfl, (d0 m ρ c).arrAt_in 1 rfl, (d0 m ρ c).arrAt_in 2 rfl, (d0 m ρ c).arrAt_in 3 rfl]
  iintro ⟨H0l, H1l, H0r, H1r, H2⟩
  isplitl [H0l H0r]
  · iapply (pointsTo_share (PosShare.mem_left_op_right fullShare)).2; isplitl [H0l]; (· iexact H0l); iexact H0r
  isplitl [H1l H1r]
  · iapply (pointsTo_share (PosShare.mem_left_op_right fullShare)).2; isplitl [H1l]; (· iexact H1l); iexact H1r
  iexact H2

/-- The buffers no window of region 0 touches hold the same at exit as at entry. -/
theorem rest_exit0 (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (fun b => W2 m ρ c b) := by
  unfold Pipeline.unscopedRest
  refine bigSep_congr fun b hb => ?_
  dsimp only
  rw [W2_of_ne m ρ c b fun h => (Finset.mem_sdiff.mp hb).2 (h ▸ Finset.mem_image.mpr ⟨4, Finset.mem_univ _, rfl⟩)]

/-- Every unscoped buffer at the entry contents is the region's array buffers and the rest. -/
theorem held_split0 (c : Dev nD) :
    (StableHlo.held (c : Thread nD τ) (Pipeline.ucRefs τ sig) (W1 m ρ c) : sProp 𝕄)
      ⊢ iprop(Pipeline.arrBufs (Ix := Unit) (Name := ℕ) (U := UR sig nD τ) (Lvl := ℕ) spec0 c (V1 m ρ c)
          ∗ Pipeline.unscopedRest (Ix := Unit) (Name := ℕ) (U := UR sig nD τ) (Lvl := ℕ) spec0 c (V1 m ρ c)) := by
  rw [← Pipeline.unscopedBufs_held c (W1 m ρ c)]
  exact Entails.of_eq (Pipeline.unscopedBufs_split₀ (cfgs := cfgs) (0 : Fin 2) winFacts₀0.arr_unscoped c _)

/-- And back, at the exit contents. -/
theorem held_join0 (c : Dev nD) :
    (iprop(Pipeline.arrBufs (Ix := Unit) (Name := ℕ) (U := UR sig nD τ) (Lvl := ℕ) spec0 c (fun b => W2 m ρ c b)
          ∗ Pipeline.unscopedRest (Ix := Unit) (Name := ℕ) (U := UR sig nD τ) (Lvl := ℕ) spec0 c (fun b => W2 m ρ c b)) : sProp 𝕄)
      ⊢ StableHlo.held (c : Thread nD τ) (Pipeline.ucRefs τ sig) (W2 m ρ c) := by
  rw [← Pipeline.unscopedBufs_held c (W2 m ρ c)]
  exact Entails.of_eq (Pipeline.unscopedBufs_split₀ (cfgs := cfgs) (0 : Fin 2) winFacts₀0.arr_unscoped c _).symm

/-! ## Region 1: its arrays out of the core's buffers and back -/

/-- Region 1's proof data at its entry contents. -/
abbrev d1 (c : Dev nD) := dat1 (V3 m ρ) c

/-- The three distinct buffers behind region 1's five windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v4) ↦{fullShare} W main_v4) ∗ (((c : Thread nD τ).loc main_v5) ↦{fullShare} W main_v5)) := by
  unfold Pipeline.arrBufs
  exact bigSep_eq_bigSepL_of_eq [main_v3, main_v4, main_v5] (by decide) (by decide) _

/-- The five windows' holdings one by one: each feature array through two windows at the two halves of its share,
    the result's array whole. -/
theorem arrays1_eq (c : Dev nD) (Fn : (w : Fin cfg1.W) → Buf (Elt F) ((cfg1.win w).arr.view.loc (c : Thread nD τ))) :
    ((d1 m ρ c).arrays Fn : sProp 𝕄)
      = iprop((((c : Thread nD τ).loc main_v3) ↦{fullShare.left} Fn 0) ∗ (((c : Thread nD τ).loc main_v4) ↦{fullShare.left} Fn 1)
          ∗ (((c : Thread nD τ).loc main_v3) ↦{fullShare.right} Fn 2) ∗ (((c : Thread nD τ).loc main_v4) ↦{fullShare.right} Fn 3)
          ∗ (((c : Thread nD τ).loc main_v5) ↦{fullShare} Fn 4)) := by
  unfold Dat.arrays
  rw [bigSep_W1]
  rw [(arr_whole1 0).set_eq_univ, (arr_whole1 1).set_eq_univ, (arr_whole1 4).set_eq_univ]
  rw [show (d1 m ρ c).share 0 = fullShare.left from rfl, show (d1 m ρ c).share 1 = fullShare.left from rfl, show (d1 m ρ c).share 2 = fullShare.right from rfl, show (d1 m ρ c).share 3 = fullShare.right from rfl, show (d1 m ρ c).share 4 = fullShare from rfl]

/-- Off the result's array the exit contents are the entry contents. -/
theorem W4_of_ne (c : Dev nD) (b : Ref sig .tc) (hb : b ≠ main_v5) : W4 m ρ c b = W3 m ρ c b := by
  unfold W4
  exact Function.update_of_ne (StableHlo.devRef_ne_of_ne hb) _ _

/-- The result's array at exit holds what the write-backs left. -/
theorem W4_out (c : Dev nD) : W4 m ρ c main_v5 = (dat1 (V3 m ρ) c).arrAt 4 cfg1.N := by
  unfold W4
  exact Function.update_self _ _ _

/-- The buffers behind region 1's arrays, each whole, make the windows' shares at entry: the two feature arrays are
    each read through two windows, which take the two halves of the array's share; the result's array is held whole. -/
theorem arrays_entry1 (c : Dev nD) :
    (Pipeline.arrBufs (Ix := Unit) (Name := ℕ) (U := UR sig nD τ) (Lvl := ℕ) spec1 c (V3 m ρ c) : sProp 𝕄)
      ⊢ (d1 m ρ c).arrays ((d1 m ρ c).arrAt · 0) := by
  rw [arrBufs1_eq, arrays1_eq]
  iintro ⟨H0, H1, H2⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H2

/-- At the region's exit the windows' shares make the buffers whole again: an input array holds what it held, the
    result's array what the write-backs left. -/
theorem arrays_exit1 (c : Dev nD) :
    ((d1 m ρ c).arrays ((d1 m ρ c).arrAt · cfg1.N) : sProp 𝕄)
      ⊢ Pipeline.arrBufs (Ix := Unit) (Name := ℕ) (U := UR sig nD τ) (Lvl := ℕ) spec1 c (fun b => W4 m ρ c b) := by
  rw [arrBufs1_eq, arrays1_eq]
  simp only [W4_of_ne m ρ c main_v3 (by decide), W4_of_ne m ρ c main_v4 (by decide), W4_out m ρ c]
  rw [(d1 m ρ c).arrAt_in 0 rfl, (d1 m ρ c).arrAt_in 1 rfl, (d1 m ρ c).arrAt_in 2 rfl, (d1 m ρ c).arrAt_in 3 rfl]
  iintro ⟨H0l, H1l, H0r, H1r, H2⟩
  isplitl [H0l H0r]
  · iapply (pointsTo_share (PosShare.mem_left_op_right fullShare)).2; isplitl [H0l]; (· iexact H0l); iexact H0r
  isplitl [H1l H1r]
  · iapply (pointsTo_share (PosShare.mem_left_op_right fullShare)).2; isplitl [H1l]; (· iexact H1l); iexact H1r
  iexact H2

/-- The buffers no window of region 1 touches hold the same at exit as at entry. -/
theorem rest_exit1 (c : Dev nD) :
    (Pipeline.unscopedRest (Ix := Unit) (Name := ℕ) (U := UR sig nD τ) (Lvl := ℕ) spec1 c (V3 m ρ c) : sProp 𝕄)
      = Pipeline.unscopedRest (Ix := Unit) (Name := ℕ) (U := UR sig nD τ) (Lvl := ℕ) spec1 c (fun b => W4 m ρ c b) := by
  unfold Pipeline.unscopedRest
  refine bigSep_congr fun b hb => ?_
  dsimp only
  rw [W4_of_ne m ρ c b fun h => (Finset.mem_sdiff.mp hb).2 (h ▸ Finset.mem_image.mpr ⟨4, Finset.mem_univ _, rfl⟩)]

/-- Every unscoped buffer at the entry contents is the region's array buffers and the rest. -/
theorem held_split1 (c : Dev nD) :
    (StableHlo.held (c : Thread nD τ) (Pipeline.ucRefs τ sig) (W3 m ρ c) : sProp 𝕄)
      ⊢ iprop(Pipeline.arrBufs (Ix := Unit) (Name := ℕ) (U := UR sig nD τ) (Lvl := ℕ) spec1 c (V3 m ρ c)
          ∗ Pipeline.unscopedRest (Ix := Unit) (Name := ℕ) (U := UR sig nD τ) (Lvl := ℕ) spec1 c (V3 m ρ c)) := by
  rw [← Pipeline.unscopedBufs_held c (W3 m ρ c)]
  exact Entails.of_eq (Pipeline.unscopedBufs_split₀ (cfgs := cfgs) (1 : Fin 2) winFacts₀1.arr_unscoped c _)

/-- And back, at the exit contents. -/
theorem held_join1 (c : Dev nD) :
    (iprop(Pipeline.arrBufs (Ix := Unit) (Name := ℕ) (U := UR sig nD τ) (Lvl := ℕ) spec1 c (fun b => W4 m ρ c b)
          ∗ Pipeline.unscopedRest (Ix := Unit) (Name := ℕ) (U := UR sig nD τ) (Lvl := ℕ) spec1 c (fun b => W4 m ρ c b)) : sProp 𝕄)
      ⊢ StableHlo.held (c : Thread nD τ) (Pipeline.ucRefs τ sig) (W4 m ρ c) := by
  rw [← Pipeline.unscopedBufs_held c (W4 m ρ c)]
  exact Entails.of_eq (Pipeline.unscopedBufs_split₀ (cfgs := cfgs) (1 : Fin 2) winFacts₀1.arr_unscoped c _).symm

set_option backward.isDefEq.respectTransparency.types false in
/-- REGION 0 over the thread state: entered from every unscoped buffer at `W1`, left at `W2`. Its arrays are
    split out of the unscoped buffers and dealt to the windows, and put back at the exit; the scoped buffers enter the
    invariant, where the scratch is tracked; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := BI.emp
  Y c := BI.emp
  Z c := iprop(Pipeline.unscopedRest (Ix := Unit) (Name := ℕ) (U := UR sig nD τ) (Lvl := ℕ) spec0 c (V1 m ρ c) ∗ ∃ r, prngReg c r)
  hentry c := by
    rw [Pipeline.ownSems0_none]
    iintro ⟨⟨Hub, Hp, HO⟩, -, -⟩
    ihave H := (held_split0 m ρ c) $$ Hub
    icases H with ⟨Ha, Hrest⟩
    imodintro
    isplitl [Ha]; · iapply (arrays_entry0 m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    change iprop(_ ∗ _ ∗ Pipeline.scopedRest (Ix := Unit) (Name := ℕ) (U := UR sig nD τ) (Lvl := ℕ) (Val := Elt F) spec0 c) ⊢ Φ0 (V1 m ρ) c 0
    rw [scopedRest0_eq]
    unfold Φ0 others0
    simp only [owns_whole]
    iintro ⟨-, -, ⟨%f, Hs⟩, Hr⟩
    isplitl [Hs]
    · iexists f; isplitr; · ipureintro; intro h; exact absurd (Nat.zero_mod _) h
      iexact Hs
    iexact Hr
  hout c := by
    rw [Pipeline.ownSems0_none]
    change Φ0 (V1 m ρ) c (Fin.last cfg0.N) ⊢ iprop(_ ∗ _ ∗ Pipeline.scopedRest (Ix := Unit) (Name := ℕ) (U := UR sig nD τ) (Lvl := ℕ) (Val := Elt F) spec0 c)
    rw [scopedRest0_eq]
    unfold Φ0 others0
    simp only [owns_whole]
    iintro ⟨⟨%s, -, Hs⟩, Hr⟩
    isplitr; · iempintro
    isplitr; · iempintro
    isplitl [Hs]; · iexists _; iexact Hs
    iexact Hr
  hexit c := by
    iintro ⟨Ha, HO, -, Hrest, Hp⟩
    imodintro
    isplitl [Ha Hrest]
    · iapply (held_join0 m ρ c)
      isplitl [Ha]; · iapply (arrays_exit0 m ρ c); iexact Ha
      rw [← rest_exit0 m ρ c]; iexact Hrest
    isplitl [Hp]; · iexact Hp
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and dealt to the windows, and put back at the exit; the scoped buffers enter the
    invariant, where the scratch is tracked; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := BI.emp
  Y c := BI.emp
  Z c := iprop(Pipeline.unscopedRest (Ix := Unit) (Name := ℕ) (U := UR sig nD τ) (Lvl := ℕ) spec1 c (V3 m ρ c) ∗ ∃ r, prngReg c r)
  hentry c := by
    rw [Pipeline.ownSems0_none]
    iintro ⟨⟨Hub, Hp, HO⟩, -, -⟩
    ihave H := (held_split1 m ρ c) $$ Hub
    icases H with ⟨Ha, Hrest⟩
    imodintro
    isplitl [Ha]; · iapply (arrays_entry1 m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    change iprop(_ ∗ _ ∗ Pipeline.scopedRest (Ix := Unit) (Name := ℕ) (U := UR sig nD τ) (Lvl := ℕ) (Val := Elt F) spec1 c) ⊢ Φ1 (V3 m ρ) c 0
    rw [scopedRest1_eq]
    unfold Φ1 others1
    simp only [owns_whole]
    iintro ⟨-, -, A0, A1, A2, A3, A4, A5, A6, A7, A8, A9, A10, ⟨%f, Hs⟩⟩
    isplitl [Hs]
    · iexists f; isplitr; · ipureintro; intro h; exact absurd (Nat.zero_mod _) h
      iexact Hs
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  hout c := by
    rw [Pipeline.ownSems0_none]
    change Φ1 (V3 m ρ) c (Fin.last cfg1.N) ⊢ iprop(_ ∗ _ ∗ Pipeline.scopedRest (Ix := Unit) (Name := ℕ) (U := UR sig nD τ) (Lvl := ℕ) (Val := Elt F) spec1 c)
    rw [scopedRest1_eq]
    unfold Φ1 others1
    simp only [owns_whole]
    iintro ⟨⟨%s, -, Hs⟩, A0, A1, A2, A3, A4, A5, A6, A7, A8, A9, A10⟩
    isplitr; · iempintro
    isplitr; · iempintro
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexists _; iexact Hs
  hexit c := by
    iintro ⟨Ha, HO, -, Hrest, Hp⟩
    imodintro
    isplitl [Ha Hrest]
    · iapply (held_join1 m ρ c)
      isplitl [Ha]; · iapply (arrays_exit1 m ρ c); iexact Ha
      rw [← rest_exit1 m ρ c]; iexact Hrest
    isplitl [Hp]; · iexact Hp
    unfold Pipeline.Dat.owesAt Pipeline.owesWithin
    icases HO with ⟨%W, -, HO⟩; iexists W; iexact HO

/-! ## The program as its items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The last thread state without what is owed: every unscoped buffer at the final contents, the generator register. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- THE RUN. From any memory with zero counters every weakly fair execution of the program terminates, nothing
    faulting, and the final memory holds every unscoped buffer of every core at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      change iprop(StableHlo.held (c : Thread nD τ) (Pipeline.ucRefs τ sig) (W5 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KIFrame.lean ====
/-
  The frame: every argument array ends as launched.

  The final contents are a fold over the launch memory: three lines of host operations, each of
  which writes only its own results, and two regions, each of which changes only its result array.
  No step writes an argument, so the fold at an argument's buffer walks back to the launch memory.
-/
import proofs.«158146_j14877766713777_1_alg».proof.Proof.KIRun

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer that no host line writes and that is neither region's result holds its launch contents at the end. -/
theorem W5_of_untouched (c : Dev nD) (b : Ref sig .tc) (h0 : b ∉ hostOps0_W) (h1 : b ∉ hostOps1_W) (h2 : b ∉ hostOps2_W)
    (hv2 : b ≠ main_v2) (hv5 : b ≠ main_v5) : W5 m ρ c b = m ((c : Thread nD τ).loc b) :=
  calc W5 m ρ c b = W4 m ρ c b := StableHlo.after_of_writes_sub hostOps2 _ hostOps2_writes h2
    _ = W3 m ρ c b := W4_of_ne m ρ c b hv5
    _ = W2 m ρ c b := StableHlo.after_of_writes_sub hostOps1 _ hostOps1_writes h1
    _ = W1 m ρ c b := W2_of_ne m ρ c b hv2
    _ = W0 m ρ c b := StableHlo.after_of_writes_sub hostOps0 _ hostOps0_writes h0
    _ = m ((c : Thread nD τ).loc b) := rfl

/-- An unscoped reference of the TensorCore is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: from any memory with zero counters every weakly fair execution terminates, nothing faulting, and the
    four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_of_untouched m ρ c main_arg0 (by decide) (by decide) (by decide) (by decide) (by decide)),
     (h c _ (mem_uc main_arg1 (by decide))).trans (W5_of_untouched m ρ c main_arg1 (by decide) (by decide) (by decide) (by decide) (by decide)),
     (h c _ (mem_uc main_arg2 (by decide))).trans (W5_of_untouched m ρ c main_arg2 (by decide) (by decide) (by decide) (by decide) (by decide)),
     (h c _ (mem_uc main_arg3 (by decide))).trans (W5_of_untouched m ρ c main_arg3 (by decide) (by decide) (by decide) (by decide) (by decide))⟩)
    (run_all m ρ)

end Cert.KernelIdeal.Hand

end
-- ==== Proof.Spec.lean ====
/-
  The mathematics both programs compute, on the extended reals, over abstract finite index types.

  A feature map `x c p` has channels `c` and pixels `p`. Every pixel is divided by its channel
  norm (the root of the sum of its squared channels, plus a small stabiliser); the similarity of two
  pixels is the channel dot product of their normalised features; the loss of one feature level is the
  sum over all pixel pairs of the squared difference between the teacher's and the student's
  similarity, scaled by one over the number of pairs and the batch size.

  The cross forms take the two pixels from two different maps: a kernel that sweeps the rows of the
  similarity matrix in tiles normalises the tile and the whole map separately, and when the tile is a
  slice of the map the cross form is the plain one at the shifted pixel.
-/
import Idealize.ShloMosaic.PureOps.Ideal
import Idealize.ShloMosaic.Lib.ValueIdx

noncomputable section

namespace Cert.Spec

open Idealize.ShloMosaic

/-- The stabiliser added to every channel norm: the single-precision word nearest to 1e-8. -/
def eps : EReal := Ideal.ofBits .f32 0x322BCC77#32

variable {C P Q : Type} [Fintype C]

/-- The channel norm of one pixel: the root of the sum of its squared channels, plus `eps`. -/
def nrm (x : C → EReal) : EReal := Ideal.sqrt (∑ c, x c * x c) + eps

/-- A feature map with every pixel divided by its channel norm. -/
def feat (x : C → P → EReal) (c : C) (p : P) : EReal := Ideal.div (x c p) (nrm fun c' => x c' p)

/-- The similarity of pixel `p` of map `a` and pixel `q` of map `b`: the channel dot product of their
    normalised features. -/
def simX (a : C → P → EReal) (b : C → Q → EReal) (p : P) (q : Q) : EReal := ∑ c, feat a c p * feat b c q

/-- The similarity of two pixels of one map. -/
def sim (x : C → P → EReal) (p q : P) : EReal := simX x x p q

/-- The squared difference of the teacher's and the student's cross similarities at a pixel pair. -/
def d2X (ta : C → P → EReal) (tb : C → Q → EReal) (sa : C → P → EReal) (sb : C → Q → EReal) (p : P) (q : Q) : EReal :=
  (simX ta tb p q - simX sa sb p q) * (simX ta tb p q - simX sa sb p q)

/-- The squared difference of the two similarity matrices at a pixel pair. -/
def d2 (t s : C → P → EReal) (p q : P) : EReal := d2X t t s s p q

end Cert.Spec

end
-- ==== Proof.SpecSums.lean ====
/-
  The loss of one feature level, written the two ways the two programs arrange it, and the law that joins them.

  One program divides every squared similarity difference by the number of pixel pairs and then by the batch
  size, and adds up the quotients over every batch entry and pixel pair. The other adds up the squared
  differences first, sweeping the first pixel in tiles of 256 consecutive rows, and divides the total once by
  the product of the two divisors.

  Dividing by a nonzero real is multiplying by its inverse, two such multiplications are one multiplication by
  the product of the inverses, and multiplying by a nonnegative real distributes over every finite sum of
  extended reals, infinite terms included; a sum over the pixels is the sum over the tiles of the sums inside
  each tile. No entry has to be finite.
-/
import proofs.«158146_j14877766713777_1_alg».proof.Proof.Spec

noncomputable section

namespace Cert.RefSide

open Idealize.ShloMosaic Cert.Spec
open scoped BigOperators

/-! ### Sums of extended reals -/

/-- Multiplying by a nonnegative real distributes over a finite sum of extended reals. -/
theorem sum_mul_coe {ι : Type} (S : Finset ι) (f : ι → EReal) {c : ℝ} (hc : 0 ≤ c) :
    ∑ i ∈ S, f i * (c : EReal) = (∑ i ∈ S, f i) * (c : EReal) := by
  classical
  induction S using Finset.induction_on with
  | empty => simp
  | insert a S ha ih =>
    rw [Finset.sum_insert ha, Finset.sum_insert ha, ih,
      EReal.right_distrib_of_nonneg_of_ne_top (by exact_mod_cast hc) (EReal.coe_ne_top c)]

/-- Dividing by one nonzero real and then by another is multiplying by the product of their inverses. -/
theorem div_div_coe {k1 k2 : ℝ} (h1 : k1 ≠ 0) (h2 : k2 ≠ 0) (x : EReal) :
    Ideal.div (Ideal.div x (k1 : EReal)) (k2 : EReal) = x * ((1 / (k1 * k2) : ℝ) : EReal) := by
  rw [Ideal.div_coe h1, Ideal.div_coe h2, mul_assoc, ← EReal.coe_mul]
  congr 2
  field_simp

/-- A sum over `N = NT * n` consecutive indices is the sum over the `NT` tiles of the sums inside each tile,
    tile `i` holding the indices `n * i + p`, `p < n`. -/
theorem sum_tiles {M : Type} [AddCommMonoid M] (NT n N : ℕ) (hN : N = NT * n) (tile : Fin NT → Fin n → Fin N)
    (htile : ∀ i p, (tile i p).val = n * i.val + p.val) (f : Fin N → M) :
    ∑ x : Fin N, f x = ∑ i : Fin NT, ∑ p : Fin n, f (tile i p) := by
  subst hN
  rw [← Fintype.sum_prod_type']
  refine (Fintype.sum_equiv finProdFinEquiv _ _ (fun p => ?_)).symm
  refine congrArg f (Fin.ext ?_)
  rw [htile, finProdFinEquiv_apply_val]
  omega

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### The two arrangements of one level's loss -/

variable {B Cn HW NT : ℕ}

/-- The zero word both programs start their sums from. -/
def zero : EReal := Ideal.ofBits .f32 0x00000000#32

/-- One level's loss with every term divided first: the starting value plus the sum over the batch entries
    and the pixel pairs of the squared similarity difference divided by `k1` and then by `k2`. -/
def lossRef (t s : Fin B → Fin Cn → Fin HW → EReal) (k1 k2 : EReal) : EReal :=
  zero + ∑ b : Fin B, ∑ m : Fin HW, ∑ n : Fin HW, Ideal.div (Ideal.div (d2 (t b) (s b) m n) k1) k2

/-- One level's loss with one division at the end: the starting value plus the sum over the batch entries,
    the tiles of 256 rows, the rows of a tile and the second pixel of the squared similarity difference,
    divided by `K`. `tile i p` is row `p` of tile `i` as a pixel. -/
def lossKer (tile : Fin NT → Fin 256 → Fin HW) (t s : Fin B → Fin Cn → Fin HW → EReal) (K : EReal) : EReal :=
  Ideal.div (zero + ∑ b : Fin B, ∑ i : Fin NT, ∑ p : Fin 256, ∑ q : Fin HW, d2 (t b) (s b) (tile i p) q) K

/-- The zero word denotes zero. -/
theorem zero_eq : zero = 0 := by
  simp [zero, Ideal.ofBits, Ideal.ieee]

/-- The two arrangements agree whenever the divisors are nonzero reals, the single divisor is their product
    and is positive, and the tiles are consecutive blocks of 256 pixels. -/
theorem lossRef_eq_lossKer (hHW : HW = NT * 256) (tile : Fin NT → Fin 256 → Fin HW)
    (htile : ∀ i p, (tile i p).val = 256 * i.val + p.val)
    (t s : Fin B → Fin Cn → Fin HW → EReal) {k1 k2 K : ℝ} (h1 : k1 ≠ 0) (h2 : k2 ≠ 0) (hK : 0 < K)
    (hmul : k1 * k2 = K) :
    lossRef t s (k1 : EReal) (k2 : EReal) = lossKer tile t s (K : EReal) := by
  have hc : (0 : ℝ) ≤ 1 / K := by positivity
  unfold lossRef lossKer
  rw [Ideal.div_coe hK.ne', zero_eq, zero_add, zero_add]
  simp only [div_div_coe h1 h2, hmul]
  simp only [sum_mul_coe _ _ hc]
  refine congrArg (· * ((1 / K : ℝ) : EReal)) (Finset.sum_congr rfl fun b _ => ?_)
  exact sum_tiles NT 256 HW hHW tile htile _

/-! ### The two feature levels -/

/-- Row `p` of tile `i` of the 4096 pixels of the first level. -/
def tile1 (i : Fin 16) (p : Fin 256) : Fin 4096 := ⟨256 * i.val + p.val, by omega⟩

/-- Row `p` of tile `i` of the 1024 pixels of the second level. -/
def tile2 (i : Fin 4) (p : Fin 256) : Fin 1024 := ⟨256 * i.val + p.val, by omega⟩

/-- The word `0x4B800000` denotes 16777216, the number of pixel pairs of the first level. -/
theorem word_pairs1 : Ideal.ofBits .f32 0x4B800000#32 = ((16777216 : ℝ) : EReal) := by
  simp [Ideal.ofBits, Ideal.ieee, -EReal.coe_mul]; norm_num

/-- The word `0x49800000` denotes 1048576, the number of pixel pairs of the second level. -/
theorem word_pairs2 : Ideal.ofBits .f32 0x49800000#32 = ((1048576 : ℝ) : EReal) := by
  simp [Ideal.ofBits, Ideal.ieee, -EReal.coe_mul]; norm_num

/-- The word `0x40800000` denotes 4, the batch size. -/
theorem word_batch : Ideal.ofBits .f32 0x40800000#32 = ((4 : ℝ) : EReal) := by
  simp [Ideal.ofBits, Ideal.ieee, -EReal.coe_mul]; norm_num

/-- The word `0x4C800000` denotes 67108864, the pixel pairs of the first level times the batch size. -/
theorem word_total1 : Ideal.ofBits .f32 0x4C800000#32 = ((67108864 : ℝ) : EReal) := by
  simp [Ideal.ofBits, Ideal.ieee, -EReal.coe_mul]; norm_num

/-- The word `0x4A800000` denotes 4194304, the pixel pairs of the second level times the batch size. -/
theorem word_total2 : Ideal.ofBits .f32 0x4A800000#32 = ((4194304 : ℝ) : EReal) := by
  simp [Ideal.ofBits, Ideal.ieee, -EReal.coe_mul]; norm_num

/-- First level: dividing every term by 16777216 and by 4 is dividing the tiled total by 67108864. -/
theorem lossRef1_eq_lossKer1 (t s : Fin 4 → Fin 128 → Fin 4096 → EReal) :
    lossRef t s (Ideal.ofBits .f32 0x4B800000#32) (Ideal.ofBits .f32 0x40800000#32)
      = lossKer tile1 t s (Ideal.ofBits .f32 0x4C800000#32) := by
  rw [word_pairs1, word_batch, word_total1]
  exact lossRef_eq_lossKer (NT := 16) rfl tile1 (fun _ _ => rfl) t s (by norm_num) (by norm_num) (by norm_num)
    (by norm_num)

/-- Second level: dividing every term by 1048576 and by 4 is dividing the tiled total by 4194304. -/
theorem lossRef2_eq_lossKer2 (t s : Fin 4 → Fin 256 → Fin 1024 → EReal) :
    lossRef t s (Ideal.ofBits .f32 0x49800000#32) (Ideal.ofBits .f32 0x40800000#32)
      = lossKer tile2 t s (Ideal.ofBits .f32 0x4A800000#32) := by
  rw [word_pairs2, word_batch, word_total2]
  exact lossRef_eq_lossKer (NT := 4) rfl tile2 (fun _ _ => rfl) t s (by norm_num) (by norm_num) (by norm_num)
    (by norm_num)

end Cert.RefSide

end
-- ==== Proof.RefSide.lean ====
/-
  The reference program read back as the specification.

  For each feature level the reference normalises every pixel of the two maps by its channel norm, flattens
  the 64 × 64 (resp. 32 × 32) pixels row by row, contracts the channels of the flattened map with itself into a
  pixel-by-pixel similarity matrix, and sums, over the batch and every pixel pair, the squared difference of the
  two matrices divided by the number of pairs and then by the batch size. Read at an index, each of these stages
  is the corresponding definition of the specification applied to the map with its pixels numbered row by row:
  flattening sends pixel `p` to row `p / 64` (resp. `p / 32`) and column `p % 64` (resp. `p % 32`).

  The first result is the sum of the two levels' losses; the second lists that sum and the two losses.
-/
import proofs.«158146_j14877766713777_1_alg».proof.Proof.Gen.ReferenceIdeal.Read
import proofs.«158146_j14877766713777_1_alg».proof.Proof.SpecSums

noncomputable section

namespace Cert.RefSide

open Cert.ReferenceIdeal Cert.ReferenceIdeal.Read Idealize.ShloMosaic Idealize.ShloMosaic.ValueIdx Cert.Spec
open scoped BigOperators

/-! ### The first level: 128 channels, 64 × 64 pixels -/

/-- The first level's feature maps as the program holds them: batch, channel, row, column. -/
abbrev Arr1 : Type := (⟨S4x128x64x64, .f32⟩ : BufTy).Contents (Elt Ideal)

/-- A first-level map with its 64 × 64 pixels numbered row by row: pixel `p` is row `p / 64`, column `p % 64`. -/
def px1 (x : Arr1) (b : Fin 4) (c : Fin 128) (p : Fin 4096) : EReal :=
  x (ix4 b c ⟨p.val / 64, by have := p.isLt; omega⟩ ⟨p.val % 64, by have := p.isLt; omega⟩)

/-- Flattening the pixels: entry `(b, c, p)` of the flattened map is entry `(b, c, p / 64, p % 64)`. -/
theorem idx8_ix3 (b : Fin 4) (c : Fin 128) (p : Fin 4096) :
    idx_main_v8 (ix3 b c p) = ix4 b c ⟨p.val / 64, by have := p.isLt; omega⟩ ⟨p.val % 64, by have := p.isLt; omega⟩ := by
  have hb := b.isLt; have hc := c.isLt; have hp := p.isLt
  refine funext fun a => Fin.ext ?_
  match a with
  | ⟨0, _⟩ => show ((b.val * 128 + c.val) * 4096 + p.val) / 524288 = b.val; omega
  | ⟨1, _⟩ => show ((b.val * 128 + c.val) * 4096 + p.val) / 4096 % 128 = c.val; omega
  | ⟨2, _⟩ => show ((b.val * 128 + c.val) * 4096 + p.val) / 64 % 64 = p.val / 64; omega
  | ⟨3, _⟩ => show ((b.val * 128 + c.val) * 4096 + p.val) % 64 = p.val % 64; omega

/-- The norm broadcast to entry `(b, c, h, w)` sums the squares of the entries `(b, k, h, w)` over the channels `k`. -/
theorem idx1_chain (b : Fin 4) (c : Fin 128) (h w : Fin 64) (k : Fin 128) :
    idx_main_v1 (idx_main_v2 (idx_main_v6 (ix4 b c h w))) k = ix4 b k h w := by
  refine funext fun a => Fin.ext ?_
  match a with
  | ⟨0, _⟩ => rfl
  | ⟨1, _⟩ => rfl
  | ⟨2, _⟩ => rfl
  | ⟨3, _⟩ => rfl

/-- The channel norm of a pixel, broadcast back over the channels. -/
theorem norm_v6 (x : Arr1) (b : Fin 4) (c : Fin 128) (h w : Fin 64) :
    val_main_v6 (F := Ideal) x (ix4 b c h w)
      = Ideal.sqrt (∑ k : Fin 128, x (ix4 b k h w) * x (ix4 b k h w)) + eps := by
  rw [val_main_v6_apply, val_main_v5_apply, val_main_v3_apply, val_main_v2_apply, val_main_v1_apply,
    val_main_v4_apply, val_main_cst_0_apply, val_main_cst_apply]
  simp only [idx1_chain, val_main_v0_apply, Ideal.mulf_def, Ideal.addf_def, Ideal.hostUnary_sqrt_def,
    Ideal.ofBits_def, Ideal.ofBits_zero_f32, zero_add]
  rfl

/-- The flattened normalised map at a pixel is the specification's normalised feature. -/
theorem feat_v8 (x : Arr1) (b : Fin 4) (c : Fin 128) (p : Fin 4096) :
    val_main_v8 (F := Ideal) x (ix3 b c p) = feat (px1 x b) c p := by
  rw [val_main_v8_apply, idx8_ix3, val_main_v7_apply, norm_v6]
  simp only [Ideal.hostDivf_def]
  rfl

/-- The contraction's left operand at `(b, m, n)` and channel `k` is entry `(b, k, m)`. -/
theorem lidx9_ix3 (b : Fin 4) (m n : Fin 4096) (k : Fin 128) : lidx_main_v9 (ix3 b m n) k = ix3 b k m := by
  refine funext fun a => Fin.ext ?_
  match a with
  | ⟨0, _⟩ => rfl
  | ⟨1, _⟩ => rfl
  | ⟨2, _⟩ => rfl

/-- The contraction's right operand at `(b, m, n)` and channel `k` is entry `(b, k, n)`. -/
theorem ridx9_ix3 (b : Fin 4) (m n : Fin 4096) (k : Fin 128) : ridx_main_v9 (ix3 b m n) k = ix3 b k n := by
  refine funext fun a => Fin.ext ?_
  match a with
  | ⟨0, _⟩ => rfl
  | ⟨1, _⟩ => rfl
  | ⟨2, _⟩ => rfl

/-- The batched channel contraction at a pixel pair is the specification's similarity. -/
theorem sim_v9 (x : Arr1) (b : Fin 4) (m n : Fin 4096) :
    val_main_v9 (F := Ideal) x (ix3 b m n) = sim (px1 x b) m n := by
  refine (val_main_v9_apply x _).trans ?_
  show ∑ k : Fin 128, _ = ∑ k : Fin 128, feat (px1 x b) k m * feat (px1 x b) k n
  refine Finset.sum_congr rfl fun k _ => ?_
  rw [lidx9_ix3, ridx9_ix3, feat_v8, feat_v8]

/-- The second map's similarity matrix is computed by the same operations as the first's. -/
theorem v19_eq_v9 (x : Arr1) : val_main_v19 (F := Ideal) x = val_main_v9 (F := Ideal) x := rfl

/-- One term of the first level's sum: the squared similarity difference divided by the number of pixel pairs
    and then by the batch size, both as the words the program spells. -/
theorem term_v25 (x0 x1 : Arr1) (b : Fin 4) (m n : Fin 4096) :
    val_main_v25 (F := Ideal) x0 x1 (ix3 b m n)
      = Ideal.div (Ideal.div (d2 (px1 x0 b) (px1 x1 b) m n) (Ideal.ofBits .f32 0x4B800000#32))
          (Ideal.ofBits .f32 0x40800000#32) := by
  rw [val_main_v25_apply, val_main_v23_apply, val_main_v24_apply, val_main_v22_apply, val_main_cst_4_apply,
    val_main_cst_3_apply, val_main_v21_apply, val_main_v20_apply, v19_eq_v9, sim_v9, sim_v9]
  simp only [Ideal.hostDivf_def, Ideal.mulf_def, Ideal.subf_def, Ideal.ofBits_def]
  rfl

/-- The first level's loss as the reference computes it. -/
theorem level_v26 (x0 x1 : Arr1) (i : S_.Idx) :
    val_main_v26 (F := Ideal) x0 x1 i
      = lossRef (px1 x0) (px1 x1) (Ideal.ofBits .f32 0x4B800000#32) (Ideal.ofBits .f32 0x40800000#32) := by
  rw [val_main_v26_apply, val_main_cst_5_apply, sum_idx3]
  simp only [term_v25, Ideal.ofBits_def]
  rfl

/-! ### The second level: 256 channels, 32 × 32 pixels -/

/-- The second level's feature maps as the program holds them: batch, channel, row, column. -/
abbrev Arr2 : Type := (⟨S4x256x32x32, .f32⟩ : BufTy).Contents (Elt Ideal)

/-- A second-level map with its 32 × 32 pixels numbered row by row: pixel `p` is row `p / 32`, column `p % 32`. -/
def px2 (x : Arr2) (b : Fin 4) (c : Fin 256) (p : Fin 1024) : EReal :=
  x (ix4 b c ⟨p.val / 32, by have := p.isLt; omega⟩ ⟨p.val % 32, by have := p.isLt; omega⟩)

/-- Flattening the pixels: entry `(b, c, p)` of the flattened map is entry `(b, c, p / 32, p % 32)`. -/
theorem idx35_ix3 (b : Fin 4) (c : Fin 256) (p : Fin 1024) :
    idx_main_v35 (ix3 b c p) = ix4 b c ⟨p.val / 32, by have := p.isLt; omega⟩ ⟨p.val % 32, by have := p.isLt; omega⟩ := by
  have hb := b.isLt; have hc := c.isLt; have hp := p.isLt
  refine funext fun a => Fin.ext ?_
  match a with
  | ⟨0, _⟩ => show ((b.val * 256 + c.val) * 1024 + p.val) / 262144 = b.val; omega
  | ⟨1, _⟩ => show ((b.val * 256 + c.val) * 1024 + p.val) / 1024 % 256 = c.val; omega
  | ⟨2, _⟩ => show ((b.val * 256 + c.val) * 1024 + p.val) / 32 % 32 = p.val / 32; omega
  | ⟨3, _⟩ => show ((b.val * 256 + c.val) * 1024 + p.val) % 32 = p.val % 32; omega

/-- The norm broadcast to entry `(b, c, h, w)` sums the squares of the entries `(b, k, h, w)` over the channels `k`. -/
theorem idx28_chain (b : Fin 4) (c : Fin 256) (h w : Fin 32) (k : Fin 256) :
    idx_main_v28 (idx_main_v29 (idx_main_v33 (ix4 b c h w))) k = ix4 b k h w := by
  refine funext fun a => Fin.ext ?_
  match a with
  | ⟨0, _⟩ => rfl
  | ⟨1, _⟩ => rfl
  | ⟨2, _⟩ => rfl
  | ⟨3, _⟩ => rfl

/-- The channel norm of a pixel, broadcast back over the channels. -/
theorem norm_v33 (x : Arr2) (b : Fin 4) (c : Fin 256) (h w : Fin 32) :
    val_main_v33 (F := Ideal) x (ix4 b c h w)
      = Ideal.sqrt (∑ k : Fin 256, x (ix4 b k h w) * x (ix4 b k h w)) + eps := by
  rw [val_main_v33_apply, val_main_v32_apply, val_main_v30_apply, val_main_v29_apply, val_main_v28_apply,
    val_main_v31_apply, val_main_cst_7_apply, val_main_cst_6_apply]
  simp only [idx28_chain, val_main_v27_apply, Ideal.mulf_def, Ideal.addf_def, Ideal.hostUnary_sqrt_def,
    Ideal.ofBits_def, Ideal.ofBits_zero_f32, zero_add]
  rfl

/-- The flattened normalised map at a pixel is the specification's normalised feature. -/
theorem feat_v35 (x : Arr2) (b : Fin 4) (c : Fin 256) (p : Fin 1024) :
    val_main_v35 (F := Ideal) x (ix3 b c p) = feat (px2 x b) c p := by
  rw [val_main_v35_apply, idx35_ix3, val_main_v34_apply, norm_v33]
  simp only [Ideal.hostDivf_def]
  rfl

/-- The contraction's left operand at `(b, m, n)` and channel `k` is entry `(b, k, m)`. -/
theorem lidx36_ix3 (b : Fin 4) (m n : Fin 1024) (k : Fin 256) : lidx_main_v36 (ix3 b m n) k = ix3 b k m := by
  refine funext fun a => Fin.ext ?_
  match a with
  | ⟨0, _⟩ => rfl
  | ⟨1, _⟩ => rfl
  | ⟨2, _⟩ => rfl

/-- The contraction's right operand at `(b, m, n)` and channel `k` is entry `(b, k, n)`. -/
theorem ridx36_ix3 (b : Fin 4) (m n : Fin 1024) (k : Fin 256) : ridx_main_v36 (ix3 b m n) k = ix3 b k n := by
  refine funext fun a => Fin.ext ?_
  match a with
  | ⟨0, _⟩ => rfl
  | ⟨1, _⟩ => rfl
  | ⟨2, _⟩ => rfl

/-- The batched channel contraction at a pixel pair is the specification's similarity. -/
theorem sim_v36 (x : Arr2) (b : Fin 4) (m n : Fin 1024) :
    val_main_v36 (F := Ideal) x (ix3 b m n) = sim (px2 x b) m n := by
  refine (val_main_v36_apply x _).trans ?_
  show ∑ k : Fin 256, _ = ∑ k : Fin 256, feat (px2 x b) k m * feat (px2 x b) k n
  refine Finset.sum_congr rfl fun k _ => ?_
  rw [lidx36_ix3, ridx36_ix3, feat_v35, feat_v35]

/-- The second map's similarity matrix is computed by the same operations as the first's. -/
theorem v46_eq_v36 (x : Arr2) : val_main_v46 (F := Ideal) x = val_main_v36 (F := Ideal) x := rfl

/-- One term of the second level's sum: the squared similarity difference divided by the number of pixel pairs
    and then by the batch size, both as the words the program spells. -/
theorem term_v52 (x2 x3 : Arr2) (b : Fin 4) (m n : Fin 1024) :
    val_main_v52 (F := Ideal) x2 x3 (ix3 b m n)
      = Ideal.div (Ideal.div (d2 (px2 x2 b) (px2 x3 b) m n) (Ideal.ofBits .f32 0x49800000#32))
          (Ideal.ofBits .f32 0x40800000#32) := by
  rw [val_main_v52_apply, val_main_v50_apply, val_main_v51_apply, val_main_v49_apply, val_main_cst_11_apply,
    val_main_cst_10_apply, val_main_v48_apply, val_main_v47_apply, v46_eq_v36, sim_v36, sim_v36]
  simp only [Ideal.hostDivf_def, Ideal.mulf_def, Ideal.subf_def, Ideal.ofBits_def]
  rfl

/-- The second level's loss as the reference computes it. -/
theorem level_v53 (x2 x3 : Arr2) (i : S_.Idx) :
    val_main_v53 (F := Ideal) x2 x3 i
      = lossRef (px2 x2) (px2 x3) (Ideal.ofBits .f32 0x49800000#32) (Ideal.ofBits .f32 0x40800000#32) := by
  rw [val_main_v53_apply, val_main_cst_12_apply, sum_idx3]
  simp only [term_v52, Ideal.ofBits_def]
  rfl

/-! ### The two results -/

/-- The first level's loss with every term divided first. -/
def g1Ref (x0 x1 : Arr1) : EReal :=
  lossRef (px1 x0) (px1 x1) (Ideal.ofBits .f32 0x4B800000#32) (Ideal.ofBits .f32 0x40800000#32)

/-- The second level's loss with every term divided first. -/
def g2Ref (x2 x3 : Arr2) : EReal :=
  lossRef (px2 x2) (px2 x3) (Ideal.ofBits .f32 0x49800000#32) (Ideal.ofBits .f32 0x40800000#32)

/-- The first level's loss with one division of the tiled total. -/
def g1Ker (x0 x1 : Arr1) : EReal := lossKer tile1 (px1 x0) (px1 x1) (Ideal.ofBits .f32 0x4C800000#32)

/-- The second level's loss with one division of the tiled total. -/
def g2Ker (x2 x3 : Arr2) : EReal := lossKer tile2 (px2 x2) (px2 x3) (Ideal.ofBits .f32 0x4A800000#32)

theorem g1Ref_eq_g1Ker (x0 x1 : Arr1) : g1Ref x0 x1 = g1Ker x0 x1 := lossRef1_eq_lossKer1 _ _

theorem g2Ref_eq_g2Ker (x2 x3 : Arr2) : g2Ref x2 x3 = g2Ker x2 x3 := lossRef2_eq_lossKer2 _ _

/-- The reference's first result is the sum of the two levels' losses. -/
theorem ref_v54 (x0 x1 : Arr1) (x2 x3 : Arr2) (i : S_.Idx) :
    val_main_v54 (F := Ideal) x0 x1 x2 x3 i = g1Ref x0 x1 + g2Ref x2 x3 := by
  rw [val_main_v54_apply, level_v26, level_v53]
  rfl

/-- The same result with each level's total divided once. -/
theorem ref_v54_ker (x0 x1 : Arr1) (x2 x3 : Arr2) (i : S_.Idx) :
    val_main_v54 (F := Ideal) x0 x1 x2 x3 i = g1Ker x0 x1 + g2Ker x2 x3 := by
  rw [ref_v54, g1Ref_eq_g1Ker, g2Ref_eq_g2Ker]

/-- Three one-entry vectors laid end to end, read at an entry: entry `n` is the one entry of vector `n`. -/
theorem concat3_apply {α : Type} (y0 y1 y2 : S1.Idx → α)
    (h : Shape.Concatenates (([⟨S1, y0⟩, ⟨S1, y1⟩, ⟨S1, y2⟩] : List ((s : Shape) × (s.Idx → α))).map (·.1)) S3 0)
    (n : Fin 3) :
    concatenate S3 0 [⟨S1, y0⟩, ⟨S1, y1⟩, ⟨S1, y2⟩] h (ix1 n)
      = ![y0 (ix1 (0 : Fin 1)), y1 (ix1 (0 : Fin 1)), y2 (ix1 (0 : Fin 1))] n := by
  match n with
  | ⟨0, _⟩ =>
    exact concatenate_apply_piece 0 _ h _ 0 (by show (0 : ℕ) < 3; omega) S1 y0 rfl rfl 0 rfl (ix1 (0 : Fin 1))
      (fun b hb => absurd (by match b with | ⟨0, _⟩ => rfl) hb) rfl
  | ⟨1, _⟩ =>
    exact concatenate_apply_piece 0 _ h _ 1 (by show (1 : ℕ) < 3; omega) S1 y1 rfl rfl 1 rfl (ix1 (0 : Fin 1))
      (fun b hb => absurd (by match b with | ⟨0, _⟩ => rfl) hb) rfl
  | ⟨2, _⟩ =>
    exact concatenate_apply_piece 0 _ h _ 2 (by show (2 : ℕ) < 3; omega) S1 y2 rfl rfl 2 rfl (ix1 (0 : Fin 1))
      (fun b hb => absurd (by match b with | ⟨0, _⟩ => rfl) hb) rfl

/-- The reference's second result lists the total loss and the two levels' losses. -/
theorem ref_v58 (x0 x1 : Arr1) (x2 x3 : Arr2) (n : Fin 3) :
    val_main_v58 (F := Ideal) x0 x1 x2 x3 (ix1 n) = ![g1Ref x0 x1 + g2Ref x2 x3, g1Ref x0 x1, g2Ref x2 x3] n := by
  unfold val_main_v58
  rw [concat3_apply, val_main_v55_apply, val_main_v56_apply, val_main_v57_apply, ref_v54, level_v26, level_v53]
  rfl

/-- The same result with each level's total divided once. -/
theorem ref_v58_ker (x0 x1 : Arr1) (x2 x3 : Arr2) (n : Fin 3) :
    val_main_v58 (F := Ideal) x0 x1 x2 x3 (ix1 n) = ![g1Ker x0 x1 + g2Ker x2 x3, g1Ker x0 x1, g2Ker x2 x3] n := by
  rw [ref_v58, g1Ref_eq_g1Ker, g2Ref_eq_g2Ker]

end Cert.RefSide

end
-- ==== Proof.KIEntry.lean ====
/-
  What the regions are entered from, at the ideal instance.

  Before each region the host flattens the two feature maps of its level: the 64 × 64 (resp. 32 × 32)
  pixels of every channel are numbered row by row, pixel `p` being row `p / 64`, column `p % 64`
  (resp. `p / 32`, `p % 32`). The first region changes only its own result, so the second region's
  feature arrays are still the flattened arguments.
-/
import proofs.«158146_j14877766713777_1_alg».proof.Proof.KIFrame
import proofs.«158146_j14877766713777_1_alg».proof.Proof.RefSide
import Idealize.ShloMosaic.Lib.StableHlo.Run
import Idealize.ShloMosaic.Lib.Pipeline.Value
import Idealize.ShloMosaic.Lib.ValueIdx

noncomputable section

namespace Cert.KernelIdeal.HandFinal

open Cert.KernelIdeal Cert.KernelIdeal.Gen Cert.KernelIdeal.Hand
open Idealize.ShloMosaic Idealize.ShloMosaic.TcCoe Idealize.ShloMosaic.ValueIdx
open Idealize.SL Idealize.SL.Sem

/-- Flattening 64 × 64 pixels: entry `(b, c, p)` of the flattened map is entry `(b, c, p / 64, p % 64)`. -/
theorem flat1 {α : Type} (x : S4x128x64x64.Idx → α) (b : Fin 4) (ch : Fin 128) (p : Fin 4096) :
    shapeCast S4x128x4096 x shapeCasts_S4x128x64x64_S4x128x4096 (ix3 b ch p)
      = x (ix4 b ch ⟨p.val / 64, by have := p.isLt; omega⟩ ⟨p.val % 64, by have := p.isLt; omega⟩) := by
  refine shapeCast_apply x _ _ _ ?_
  rw [Shape.rowMajor_val_four, Shape.rowMajor_val_three]
  have := p.isLt
  show ((b.val * 128 + ch.val) * 64 + p.val / 64) * 64 + p.val % 64 = (b.val * 128 + ch.val) * 4096 + p.val
  omega

/-- Flattening 32 × 32 pixels: entry `(b, c, p)` of the flattened map is entry `(b, c, p / 32, p % 32)`. -/
theorem flat2 {α : Type} (x : S4x256x32x32.Idx → α) (b : Fin 4) (ch : Fin 256) (p : Fin 1024) :
    shapeCast S4x256x1024 x shapeCasts_S4x256x32x32_S4x256x1024 (ix3 b ch p)
      = x (ix4 b ch ⟨p.val / 32, by have := p.isLt; omega⟩ ⟨p.val % 32, by have := p.isLt; omega⟩) := by
  refine shapeCast_apply x _ _ _ ?_
  rw [Shape.rowMajor_val_four, Shape.rowMajor_val_three]
  have := p.isLt
  show ((b.val * 256 + ch.val) * 32 + p.val / 32) * 32 + p.val % 32 = (b.val * 256 + ch.val) * 1024 + p.val
  omega

variable (m : (ℓ : Loc nD τ sig) → Buf (Elt Ideal) ℓ) (ρ : Dev nD → PrngReg)

/-- The first region's teacher array is the first argument flattened. -/
theorem W1_v0 (c : Dev nD) : (W1 m ρ c main_v0 : S4x128x4096.Idx → EReal)
    = shapeCast S4x128x4096 (m ((c : Thread nD τ).loc main_arg0)) shapeCasts_S4x128x64x64_S4x128x4096 := by
  dsimp only [W1, hostOps0]
  after_results
  rfl

/-- The first region's student array is the second argument flattened. -/
theorem W1_v1 (c : Dev nD) : (W1 m ρ c main_v1 : S4x128x4096.Idx → EReal)
    = shapeCast S4x128x4096 (m ((c : Thread nD τ).loc main_arg1)) shapeCasts_S4x128x64x64_S4x128x4096 := by
  dsimp only [W1, hostOps0]
  after_results
  rfl

/-- An argument still holds its launch contents when the second pair of reshapes runs. -/
theorem W2_arg (c : Dev nD) (b : Ref sig .tc) (h0 : b ∉ hostOps0_W) (hv2 : b ≠ main_v2) :
    W2 m ρ c b = m ((c : Thread nD τ).loc b) :=
  (W2_of_ne m ρ c b hv2).trans ((StableHlo.after_of_writes_sub (W := hostOps0_W) (hostOps0 (F := Ideal)) _ hostOps0_writes h0).trans rfl)

/-- The second region's teacher array is the third argument flattened. -/
theorem W3_v3 (c : Dev nD) : (W3 m ρ c main_v3 : S4x256x1024.Idx → EReal)
    = shapeCast S4x256x1024 (m ((c : Thread nD τ).loc main_arg2)) shapeCasts_S4x256x32x32_S4x256x1024 := by
  rw [← W2_arg m ρ c main_arg2 (by decide) (by decide)]
  dsimp only [W3, hostOps1]
  after_results
  rfl

/-- The second region's student array is the fourth argument flattened. -/
theorem W3_v4 (c : Dev nD) : (W3 m ρ c main_v4 : S4x256x1024.Idx → EReal)
    = shapeCast S4x256x1024 (m ((c : Thread nD τ).loc main_arg3)) shapeCasts_S4x256x32x32_S4x256x1024 := by
  rw [← W2_arg m ρ c main_arg3 (by decide) (by decide)]
  dsimp only [W3, hostOps1]
  after_results
  rfl

/-- Read at a channel and a pixel, the first region's arrays are the first level's flattened maps. -/
theorem T1_eq (c : Dev nD) (b : Fin 4) (ch : Fin 128) (p : Fin 4096) :
    (V1 m ρ c main_v0 : S4x128x4096.Idx → EReal) (ix3 b ch p) = Cert.RefSide.px1 (m ((c : Thread nD τ).loc main_arg0)) b ch p := by
  show (W1 m ρ c main_v0 : S4x128x4096.Idx → EReal) (ix3 b ch p) = _
  rw [W1_v0]; exact flat1 _ b ch p
theorem S1_eq (c : Dev nD) (b : Fin 4) (ch : Fin 128) (p : Fin 4096) :
    (V1 m ρ c main_v1 : S4x128x4096.Idx → EReal) (ix3 b ch p) = Cert.RefSide.px1 (m ((c : Thread nD τ).loc main_arg1)) b ch p := by
  show (W1 m ρ c main_v1 : S4x128x4096.Idx → EReal) (ix3 b ch p) = _
  rw [W1_v1]; exact flat1 _ b ch p
/-- Read at a channel and a pixel, the second region's arrays are the second level's flattened maps. -/
theorem T2_eq (c : Dev nD) (b : Fin 4) (ch : Fin 256) (p : Fin 1024) :
    (V3 m ρ c main_v3 : S4x256x1024.Idx → EReal) (ix3 b ch p) = Cert.RefSide.px2 (m ((c : Thread nD τ).loc main_arg2)) b ch p := by
  show (W3 m ρ c main_v3 : S4x256x1024.Idx → EReal) (ix3 b ch p) = _
  rw [W3_v3]; exact flat2 _ b ch p
theorem S2_eq (c : Dev nD) (b : Fin 4) (ch : Fin 256) (p : Fin 1024) :
    (V3 m ρ c main_v4 : S4x256x1024.Idx → EReal) (ix3 b ch p) = Cert.RefSide.px2 (m ((c : Thread nD τ).loc main_arg3)) b ch p := by
  show (W3 m ρ c main_v4 : S4x256x1024.Idx → EReal) (ix3 b ch p) = _
  rw [W3_v4]; exact flat2 _ b ch p

end Cert.KernelIdeal.HandFinal

end
-- ==== Proof.KernelPayload.lean ====
/-
  The kernel's pure values at the ideal instance, read entry by entry.

  One grid point of either feature level holds a tile of pixels (channels by tile) and the whole map
  (channels by pixels) of the teacher and of the student. Every pixel is divided by its channel norm,
  the two similarity matrices of the tile's pixels against all pixels are formed by contracting the
  channel axis, and the sum over all pixel pairs of the squared difference is added to the running
  total, a one-entry block carried from one grid point to the next.
-/
import proofs.«158146_j14877766713777_1_alg».proof.Proof.Spec
import proofs.«158146_j14877766713777_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen Idealize.ShloMosaic Idealize.ShloMosaic.ValueIdx

/-! ## Readings shared by the two feature levels -/

section Shared

variable {α : Type}

/-- A vector laid out as a column: entry (i, 0) is entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum down the columns of a matrix: entry j is the sum over the rows k of entry (k, j). -/
theorem colSum_apply {c p : ℕ} (v : FVec Ideal ⟨2, ![c, p]⟩ .f32) (h : (⟨2, ![c, p]⟩ : Shape).Reduces [0] ⟨1, ![p]⟩)
    (hφ : FKind.Formats .f32) (hacc : (0x00000000#32 : BitVec 32) = FKind.add.neutral .f32 hφ) (j : Fin p) :
    multiReduction .add [0] ⟨1, ![p]⟩ v 0x00000000#32 h hφ hacc (ix1 j) = ∑ k : Fin c, v (ix2 k j) := by
  refine (Ideal.multiReduction_add_single v _ h hφ hacc (ix1 j)).trans ?_
  refine Finset.sum_congr rfl fun k _ => congrArg v ?_
  funext d
  refine Fin.ext ?_
  match d with
  | ⟨0, _⟩ => rfl
  | ⟨1, _⟩ => rfl

/-- The sum along the rows of a matrix: entry i is the sum over the columns k of entry (i, k). -/
theorem rowSum_apply {p q : ℕ} (v : FVec Ideal ⟨2, ![p, q]⟩ .f32) (h : (⟨2, ![p, q]⟩ : Shape).Reduces [1] ⟨1, ![p]⟩)
    (hφ : FKind.Formats .f32) (hacc : (0x00000000#32 : BitVec 32) = FKind.add.neutral .f32 hφ) (i : Fin p) :
    multiReduction .add [1] ⟨1, ![p]⟩ v 0x00000000#32 h hφ hacc (ix1 i) = ∑ k : Fin q, v (ix2 i k) := by
  refine (Ideal.multiReduction_add_single v _ h hφ hacc (ix1 i)).trans ?_
  refine Finset.sum_congr rfl fun k _ => congrArg v ?_
  funext d
  refine Fin.ext ?_
  match d with
  | ⟨0, _⟩ => rfl
  | ⟨1, _⟩ => rfl

/-- The row of channel norms of a block of one batch element: entry (0, j) is the channel norm of pixel j. -/
theorem nrmRow_apply {c p : ℕ} (x : Vec Ideal ⟨3, ![1, c, p]⟩ .f32)
    (h1 : (⟨3, ![1, c, p]⟩ : Shape).ShapeCasts ⟨2, ![c, p]⟩) (h2 : (⟨2, ![c, p]⟩ : Shape).Reduces [0] ⟨1, ![p]⟩)
    (h3 : (⟨1, ![p]⟩ : Shape).ShapeCasts ⟨2, ![1, p]⟩)
    (hφ : FKind.Formats .f32) (hacc : (0x00000000#32 : BitVec 32) = FKind.add.neutral .f32 hφ) (j : Fin p) :
    addf (sqrt (shapeCast ⟨2, ![1, p]⟩
        (multiReduction .add [0] ⟨1, ![p]⟩ (mulf (shapeCast ⟨2, ![c, p]⟩ x h1 : FVec Ideal ⟨2, ![c, p]⟩ .f32) (shapeCast ⟨2, ![c, p]⟩ x h1)) 0x00000000#32 h2 hφ hacc) h3))
      (broadcast ⟨2, ![1, p]⟩ (Scalar.ofBits .f32 0x322BCC77#32)) (ix2 (0 : Fin 1) j)
      = Cert.Spec.nrm (fun k : Fin c => x (ix3 (0 : Fin 1) k j)) := by
  show Ideal.sqrt (shapeCast ⟨2, ![1, p]⟩ _ h3 (ix2 (0 : Fin 1) j)) + Ideal.ofBits .f32 0x322BCC77#32 = _
  rw [shapeCast_a_1a_apply, colSum_apply]
  refine congrArg (fun t => Ideal.sqrt t + Ideal.ofBits .f32 0x322BCC77#32) (Finset.sum_congr rfl fun k _ => ?_)
  show shapeCast ⟨2, ![c, p]⟩ x h1 (ix2 k j) * shapeCast ⟨2, ![c, p]⟩ x h1 (ix2 k j) = _
  rw [shapeCast_1ab_ab_apply]

end Shared

/-! ## The first feature level: 128 channels, tiles of 256 pixels, 4096 pixels -/

section Level0

/-- Off the contracted channel axis the tile operand is read at the output's row. -/
theorem lhs0_1 (j : S256x4096.Idx) (k : dot_S128x256_S128x4096_S256x4096_0_0_1_1_n_n.contr.Idx) :
    (dot_S128x256_S128x4096_S256x4096_0_0_1_1_n_n.lhsIdx j k 1).val = (j 0).val := by
  unfold DotDims.lhsIdx
  rw [dif_neg (show ¬(1 : Fin S128x256.rank) ∈ dot_S128x256_S128x4096_S256x4096_0_0_1_1_n_n.lhsBatch by decide), dif_pos (show (1 : Fin S128x256.rank) ∈ dot_S128x256_S128x4096_S256x4096_0_0_1_1_n_n.lhsNonContracting by decide)]
  rfl

/-- Off the contracted channel axis the whole-map operand is read at the output's column. -/
theorem rhs0_1 (j : S256x4096.Idx) (k : dot_S128x256_S128x4096_S256x4096_0_0_1_1_n_n.contr.Idx) :
    (dot_S128x256_S128x4096_S256x4096_0_0_1_1_n_n.rhsIdx j k 1).val = (j 1).val := by
  unfold DotDims.rhsIdx
  rw [dif_neg (show ¬(1 : Fin S128x4096.rank) ∈ dot_S128x256_S128x4096_S256x4096_0_0_1_1_n_n.rhsBatch by decide), dif_pos (show (1 : Fin S128x4096.rank) ∈ dot_S128x256_S128x4096_S256x4096_0_0_1_1_n_n.rhsNonContracting by decide)]
  rfl

/-- The product contracting the channel axis of both operands, into a zero accumulator: entry (p, q) is the
    sum over the channels c of the left operand at (c, p) times the right operand at (c, q). -/
theorem matmul0_apply (l : FVec Ideal S128x256 .bf16) (r : FVec Ideal S128x4096 .bf16) (p : Fin 256) (q : Fin 4096) :
    matmul dot_S128x256_S128x4096_S256x4096_0_0_1_1_n_n none l r (constant S256x4096 .f32 0x00000000#32) (ix2 p q)
      = ∑ c : Fin 128, l (ix2 c p) * r (ix2 c q) := by
  refine (Ideal.matmul_constant_zero_apply dot_S128x256_S128x4096_S256x4096_0_0_1_1_n_n none l r (ix2 p q)).trans ?_
  rw [← Equiv.sum_comp (contrEquiv1 dot_S128x256_S128x4096_S256x4096_0_0_1_1_n_n 128 rfl rfl).symm]
  refine Finset.sum_congr rfl fun k _ => ?_
  have hk := contrEquiv1_symm_val dot_S128x256_S128x4096_S256x4096_0_0_1_1_n_n 128 rfl rfl k
  have el : dot_S128x256_S128x4096_S256x4096_0_0_1_1_n_n.lhsIdx (ix2 p q) ((contrEquiv1 dot_S128x256_S128x4096_S256x4096_0_0_1_1_n_n 128 rfl rfl).symm k) = ix2 k p := funext fun a => Fin.ext (by
    match a with
    | ⟨0, _⟩ => exact (dot_S128x256_S128x4096_S256x4096_0_0_1_1_n_n.lhsIdx_val_of_single rfl _ _).trans hk
    | ⟨1, _⟩ => exact lhs0_1 _ _)
  have er : dot_S128x256_S128x4096_S256x4096_0_0_1_1_n_n.rhsIdx (ix2 p q) ((contrEquiv1 dot_S128x256_S128x4096_S256x4096_0_0_1_1_n_n 128 rfl rfl).symm k) = ix2 k q := funext fun a => Fin.ext (by
    match a with
    | ⟨0, _⟩ => exact (dot_S128x256_S128x4096_S256x4096_0_0_1_1_n_n.rhsIdx_val_of_single rfl _ _).trans hk
    | ⟨1, _⟩ => exact rhs0_1 _ _)
  rw [el, er]

/-- The similarity matrix of a tile against a whole map: both operands divided by their rows of channel norms
    and contracted over the channels. -/
theorem sim0_apply (xa : Vec Ideal S1x128x256 .f32) (xb : Vec Ideal S1x128x4096 .f32)
    (va : FVec Ideal S128x256 .f32) (na : FVec Ideal S1x256 .f32) (vb : FVec Ideal S128x4096 .f32) (nb : FVec Ideal S1x4096 .f32)
    (hva : ∀ (c : Fin 128) (p : Fin 256), va (ix2 c p) = xa (ix3 (0 : Fin 1) c p))
    (hna : ∀ p : Fin 256, na (ix2 (0 : Fin 1) p) = Cert.Spec.nrm (fun c : Fin 128 => xa (ix3 (0 : Fin 1) c p)))
    (hvb : ∀ (c : Fin 128) (q : Fin 4096), vb (ix2 c q) = xb (ix3 (0 : Fin 1) c q))
    (hnb : ∀ q : Fin 4096, nb (ix2 (0 : Fin 1) q) = Cert.Spec.nrm (fun c : Fin 128 => xb (ix3 (0 : Fin 1) c q)))
    (hb1 : S1x256.Broadcasts S128x256) (hb2 : S1x4096.Broadcasts S128x4096) (ht : FTy.bits .bf16 < FTy.bits .f32) (p : Fin 256) (q : Fin 4096) :
    matmul dot_S128x256_S128x4096_S256x4096_0_0_1_1_n_n none (truncf .bf16 (divf va (broadcastTo S128x256 na hb1)) ht) (truncf .bf16 (divf vb (broadcastTo S128x4096 nb hb2)) ht)
        (constant S256x4096 .f32 0x00000000#32) (ix2 p q)
      = Cert.Spec.simX (fun (c : Fin 128) (p : Fin 256) => xa (ix3 (0 : Fin 1) c p)) (fun (c : Fin 128) (q : Fin 4096) => xb (ix3 (0 : Fin 1) c q)) p q := by
  refine (matmul0_apply _ _ p q).trans (Finset.sum_congr rfl fun c _ => ?_)
  show Ideal.div (va (ix2 c p)) (broadcastTo S128x256 na hb1 (ix2 c p)) * Ideal.div (vb (ix2 c q)) (broadcastTo S128x4096 nb hb2 (ix2 c q)) = _
  rw [broadcastTo_1b_ab_apply, broadcastTo_1b_ab_apply, hva, hna, hvb, hnb]
  rfl

/-- The tile blocks with their unit batch axis dropped. -/
theorem k0_pay4_apply (x : Vec Ideal S1x128x256 .f32) (c : Fin 128) (p : Fin 256) : k0_pay4 (F := Ideal) x (ix2 c p) = x (ix3 (0 : Fin 1) c p) :=
  shapeCast_1ab_ab_apply x _ c p
theorem k0_pay5_apply (x : Vec Ideal S1x128x256 .f32) (c : Fin 128) (p : Fin 256) : k0_pay5 (F := Ideal) x (ix2 c p) = x (ix3 (0 : Fin 1) c p) :=
  shapeCast_1ab_ab_apply x _ c p
/-- The whole-map blocks with their unit batch axis dropped. -/
theorem k0_pay6_apply (x : Vec Ideal S1x128x4096 .f32) (c : Fin 128) (q : Fin 4096) : k0_pay6 (F := Ideal) x (ix2 c q) = x (ix3 (0 : Fin 1) c q) :=
  shapeCast_1ab_ab_apply x _ c q
theorem k0_pay7_apply (x : Vec Ideal S1x128x4096 .f32) (c : Fin 128) (q : Fin 4096) : k0_pay7 (F := Ideal) x (ix2 c q) = x (ix3 (0 : Fin 1) c q) :=
  shapeCast_1ab_ab_apply x _ c q

/-- The rows of channel norms of the four blocks. -/
theorem k0_pay8_apply (x : Vec Ideal S1x128x256 .f32) (p : Fin 256) :
    k0_pay8 (F := Ideal) x (ix2 (0 : Fin 1) p) = Cert.Spec.nrm (fun c : Fin 128 => x (ix3 (0 : Fin 1) c p)) :=
  nrmRow_apply x _ _ _ _ _ p
theorem k0_pay9_apply (x : Vec Ideal S1x128x256 .f32) (p : Fin 256) :
    k0_pay9 (F := Ideal) x (ix2 (0 : Fin 1) p) = Cert.Spec.nrm (fun c : Fin 128 => x (ix3 (0 : Fin 1) c p)) :=
  nrmRow_apply x _ _ _ _ _ p
theorem k0_pay10_apply (x : Vec Ideal S1x128x4096 .f32) (q : Fin 4096) :
    k0_pay10 (F := Ideal) x (ix2 (0 : Fin 1) q) = Cert.Spec.nrm (fun c : Fin 128 => x (ix3 (0 : Fin 1) c q)) :=
  nrmRow_apply x _ _ _ _ _ q
theorem k0_pay11_apply (x : Vec Ideal S1x128x4096 .f32) (q : Fin 4096) :
    k0_pay11 (F := Ideal) x (ix2 (0 : Fin 1) q) = Cert.Spec.nrm (fun c : Fin 128 => x (ix3 (0 : Fin 1) c q)) :=
  nrmRow_apply x _ _ _ _ _ q

/-- The running total after one grid point: what it was, plus the sum over the tile's pixels p and all pixels q of
    the squared difference of the teacher's and the student's similarities of p and q. -/
theorem acc0_apply (x0 x1 : Vec Ideal S1x128x256 .f32) (x2 x3 : Vec Ideal S1x128x4096 .f32) (s : Vec Ideal S1x1 .f32) :
    k0_pay1 (F := Ideal) (k0_pay4 x0) (k0_pay5 x1) (k0_pay6 x2) (k0_pay7 x3) (k0_pay8 x0) (k0_pay9 x1) (k0_pay10 x2) (k0_pay11 x3) s (ix2 (0 : Fin 1) (0 : Fin 1))
      = s (ix2 (0 : Fin 1) (0 : Fin 1)) + ∑ p : Fin 256, ∑ q : Fin 4096,
          Cert.Spec.d2X (fun (c : Fin 128) (p : Fin 256) => x0 (ix3 (0 : Fin 1) c p)) (fun (c : Fin 128) (q : Fin 4096) => x2 (ix3 (0 : Fin 1) c q))
            (fun (c : Fin 128) (p : Fin 256) => x1 (ix3 (0 : Fin 1) c p)) (fun (c : Fin 128) (q : Fin 4096) => x3 (ix3 (0 : Fin 1) c q)) p q := by
  unfold k0_pay1
  dsimp only
  refine (congrFun (shapeCast_self _ _) _).trans ?_
  refine (addf_apply _ _ _).trans ?_
  refine congrArg (s (ix2 (0 : Fin 1) (0 : Fin 1)) + ·) ?_
  refine (shapeCast_a_1a_apply _ _ (0 : Fin 1) (0 : Fin 1)).trans ?_
  refine (colSum_apply _ _ _ _ (0 : Fin 1)).trans ?_
  refine Finset.sum_congr rfl fun p _ => ?_
  refine (shapeCast_a_a1_apply _ _ p (0 : Fin 1)).trans ?_
  refine (rowSum_apply _ _ _ _ p).trans ?_
  refine Finset.sum_congr rfl fun q _ => ?_
  refine (mulf_apply _ _ _).trans ?_
  unfold Cert.Spec.d2X
  have et := sim0_apply x0 x2 (k0_pay4 x0) (k0_pay8 x0) (k0_pay6 x2) (k0_pay10 x2) (k0_pay4_apply x0) (k0_pay8_apply x0) (k0_pay6_apply x2) (k0_pay10_apply x2)
    broadcasts_S1x256_S128x256 broadcasts_S1x4096_S128x4096 bitsLt_bf16_f32 p q
  have es := sim0_apply x1 x3 (k0_pay5 x1) (k0_pay9 x1) (k0_pay7 x3) (k0_pay11 x3) (k0_pay5_apply x1) (k0_pay9_apply x1) (k0_pay7_apply x3) (k0_pay11_apply x3)
    broadcasts_S1x256_S128x256 broadcasts_S1x4096_S128x4096 bitsLt_bf16_f32 p q
  have ed := (subf_apply _ _ _).trans (congrArg₂ (· - ·) et es)
  exact congrArg₂ (· * ·) ed ed

end Level0

/-! ## The second feature level: 256 channels, tiles of 256 pixels, 1024 pixels -/

section Level1

/-- Off the contracted channel axis the tile operand is read at the output's row. -/
theorem lhs1_1 (j : S256x1024.Idx) (k : dot_S256x256_S256x1024_S256x1024_0_0_1_1_n_n.contr.Idx) :
    (dot_S256x256_S256x1024_S256x1024_0_0_1_1_n_n.lhsIdx j k 1).val = (j 0).val := by
  unfold DotDims.lhsIdx
  rw [dif_neg (show ¬(1 : Fin S256x256.rank) ∈ dot_S256x256_S256x1024_S256x1024_0_0_1_1_n_n.lhsBatch by decide), dif_pos (show (1 : Fin S256x256.rank) ∈ dot_S256x256_S256x1024_S256x1024_0_0_1_1_n_n.lhsNonContracting by decide)]
  rfl

/-- Off the contracted channel axis the whole-map operand is read at the output's column. -/
theorem rhs1_1 (j : S256x1024.Idx) (k : dot_S256x256_S256x1024_S256x1024_0_0_1_1_n_n.contr.Idx) :
    (dot_S256x256_S256x1024_S256x1024_0_0_1_1_n_n.rhsIdx j k 1).val = (j 1).val := by
  unfold DotDims.rhsIdx
  rw [dif_neg (show ¬(1 : Fin S256x1024.rank) ∈ dot_S256x256_S256x1024_S256x1024_0_0_1_1_n_n.rhsBatch by decide), dif_pos (show (1 : Fin S256x1024.rank) ∈ dot_S256x256_S256x1024_S256x1024_0_0_1_1_n_n.rhsNonContracting by decide)]
  rfl

/-- The product contracting the channel axis of both operands, into a zero accumulator: entry (p, q) is the
    sum over the channels c of the left operand at (c, p) times the right operand at (c, q). -/
theorem matmul1_apply (l : FVec Ideal S256x256 .bf16) (r : FVec Ideal S256x1024 .bf16) (p : Fin 256) (q : Fin 1024) :
    matmul dot_S256x256_S256x1024_S256x1024_0_0_1_1_n_n none l r (constant S256x1024 .f32 0x00000000#32) (ix2 p q)
      = ∑ c : Fin 256, l (ix2 c p) * r (ix2 c q) := by
  refine (Ideal.matmul_constant_zero_apply dot_S256x256_S256x1024_S256x1024_0_0_1_1_n_n none l r (ix2 p q)).trans ?_
  rw [← Equiv.sum_comp (contrEquiv1 dot_S256x256_S256x1024_S256x1024_0_0_1_1_n_n 256 rfl rfl).symm]
  refine Finset.sum_congr rfl fun k _ => ?_
  have hk := contrEquiv1_symm_val dot_S256x256_S256x1024_S256x1024_0_0_1_1_n_n 256 rfl rfl k
  have el : dot_S256x256_S256x1024_S256x1024_0_0_1_1_n_n.lhsIdx (ix2 p q) ((contrEquiv1 dot_S256x256_S256x1024_S256x1024_0_0_1_1_n_n 256 rfl rfl).symm k) = ix2 k p := funext fun a => Fin.ext (by
    match a with
    | ⟨0, _⟩ => exact (dot_S256x256_S256x1024_S256x1024_0_0_1_1_n_n.lhsIdx_val_of_single rfl _ _).trans hk
    | ⟨1, _⟩ => exact lhs1_1 _ _)
  have er : dot_S256x256_S256x1024_S256x1024_0_0_1_1_n_n.rhsIdx (ix2 p q) ((contrEquiv1 dot_S256x256_S256x1024_S256x1024_0_0_1_1_n_n 256 rfl rfl).symm k) = ix2 k q := funext fun a => Fin.ext (by
    match a with
    | ⟨0, _⟩ => exact (dot_S256x256_S256x1024_S256x1024_0_0_1_1_n_n.rhsIdx_val_of_single rfl _ _).trans hk
    | ⟨1, _⟩ => exact rhs1_1 _ _)
  rw [el, er]

/-- The similarity matrix of a tile against a whole map: both operands divided by their rows of channel norms
    and contracted over the channels. -/
theorem sim1_apply (xa : Vec Ideal S1x256x256 .f32) (xb : Vec Ideal S1x256x1024 .f32)
    (va : FVec Ideal S256x256 .f32) (na : FVec Ideal S1x256 .f32) (vb : FVec Ideal S256x1024 .f32) (nb : FVec Ideal S1x1024 .f32)
    (hva : ∀ (c : Fin 256) (p : Fin 256), va (ix2 c p) = xa (ix3 (0 : Fin 1) c p))
    (hna : ∀ p : Fin 256, na (ix2 (0 : Fin 1) p) = Cert.Spec.nrm (fun c : Fin 256 => xa (ix3 (0 : Fin 1) c p)))
    (hvb : ∀ (c : Fin 256) (q : Fin 1024), vb (ix2 c q) = xb (ix3 (0 : Fin 1) c q))
    (hnb : ∀ q : Fin 1024, nb (ix2 (0 : Fin 1) q) = Cert.Spec.nrm (fun c : Fin 256 => xb (ix3 (0 : Fin 1) c q)))
    (hb1 : S1x256.Broadcasts S256x256) (hb2 : S1x1024.Broadcasts S256x1024) (ht : FTy.bits .bf16 < FTy.bits .f32) (p : Fin 256) (q : Fin 1024) :
    matmul dot_S256x256_S256x1024_S256x1024_0_0_1_1_n_n none (truncf .bf16 (divf va (broadcastTo S256x256 na hb1)) ht) (truncf .bf16 (divf vb (broadcastTo S256x1024 nb hb2)) ht)
        (constant S256x1024 .f32 0x00000000#32) (ix2 p q)
      = Cert.Spec.simX (fun (c : Fin 256) (p : Fin 256) => xa (ix3 (0 : Fin 1) c p)) (fun (c : Fin 256) (q : Fin 1024) => xb (ix3 (0 : Fin 1) c q)) p q := by
  refine (matmul1_apply _ _ p q).trans (Finset.sum_congr rfl fun c _ => ?_)
  show Ideal.div (va (ix2 c p)) (broadcastTo S256x256 na hb1 (ix2 c p)) * Ideal.div (vb (ix2 c q)) (broadcastTo S256x1024 nb hb2 (ix2 c q)) = _
  rw [broadcastTo_1b_ab_apply, broadcastTo_1b_ab_apply, hva, hna, hvb, hnb]
  rfl

/-- The tile blocks with their unit batch axis dropped. -/
theorem k1_pay4_apply (x : Vec Ideal S1x256x256 .f32) (c : Fin 256) (p : Fin 256) : k1_pay4 (F := Ideal) x (ix2 c p) = x (ix3 (0 : Fin 1) c p) :=
  shapeCast_1ab_ab_apply x _ c p
theorem k1_pay5_apply (x : Vec Ideal S1x256x256 .f32) (c : Fin 256) (p : Fin 256) : k1_pay5 (F := Ideal) x (ix2 c p) = x (ix3 (0 : Fin 1) c p) :=
  shapeCast_1ab_ab_apply x _ c p
/-- The whole-map blocks with their unit batch axis dropped. -/
theorem k1_pay6_apply (x : Vec Ideal S1x256x1024 .f32) (c : Fin 256) (q : Fin 1024) : k1_pay6 (F := Ideal) x (ix2 c q) = x (ix3 (0 : Fin 1) c q) :=
  shapeCast_1ab_ab_apply x _ c q
theorem k1_pay7_apply (x : Vec Ideal S1x256x1024 .f32) (c : Fin 256) (q : Fin 1024) : k1_pay7 (F := Ideal) x (ix2 c q) = x (ix3 (0 : Fin 1) c q) :=
  shapeCast_1ab_ab_apply x _ c q

/-- The rows of channel norms of the four blocks. -/
theorem k1_pay8_apply (x : Vec Ideal S1x256x256 .f32) (p : Fin 256) :
    k1_pay8 (F := Ideal) x (ix2 (0 : Fin 1) p) = Cert.Spec.nrm (fun c : Fin 256 => x (ix3 (0 : Fin 1) c p)) :=
  nrmRow_apply x _ _ _ _ _ p
theorem k1_pay9_apply (x : Vec Ideal S1x256x256 .f32) (p : Fin 256) :
    k1_pay9 (F := Ideal) x (ix2 (0 : Fin 1) p) = Cert.Spec.nrm (fun c : Fin 256 => x (ix3 (0 : Fin 1) c p)) :=
  nrmRow_apply x _ _ _ _ _ p
theorem k1_pay10_apply (x : Vec Ideal S1x256x1024 .f32) (q : Fin 1024) :
    k1_pay10 (F := Ideal) x (ix2 (0 : Fin 1) q) = Cert.Spec.nrm (fun c : Fin 256 => x (ix3 (0 : Fin 1) c q)) :=
  nrmRow_apply x _ _ _ _ _ q
theorem k1_pay11_apply (x : Vec Ideal S1x256x1024 .f32) (q : Fin 1024) :
    k1_pay11 (F := Ideal) x (ix2 (0 : Fin 1) q) = Cert.Spec.nrm (fun c : Fin 256 => x (ix3 (0 : Fin 1) c q)) :=
  nrmRow_apply x _ _ _ _ _ q

/-- The running total after one grid point: what it was, plus the sum over the tile's pixels p and all pixels q of
    the squared difference of the teacher's and the student's similarities of p and q. -/
theorem acc1_apply (x0 x1 : Vec Ideal S1x256x256 .f32) (x2 x3 : Vec Ideal S1x256x1024 .f32) (s : Vec Ideal S1x1 .f32) :
    k1_pay1 (F := Ideal) (k1_pay4 x0) (k1_pay5 x1) (k1_pay6 x2) (k1_pay7 x3) (k1_pay8 x0) (k1_pay9 x1) (k1_pay10 x2) (k1_pay11 x3) s (ix2 (0 : Fin 1) (0 : Fin 1))
      = s (ix2 (0 : Fin 1) (0 : Fin 1)) + ∑ p : Fin 256, ∑ q : Fin 1024,
          Cert.Spec.d2X (fun (c : Fin 256) (p : Fin 256) => x0 (ix3 (0 : Fin 1) c p)) (fun (c : Fin 256) (q : Fin 1024) => x2 (ix3 (0 : Fin 1) c q))
            (fun (c : Fin 256) (p : Fin 256) => x1 (ix3 (0 : Fin 1) c p)) (fun (c : Fin 256) (q : Fin 1024) => x3 (ix3 (0 : Fin 1) c q)) p q := by
  unfold k1_pay1
  dsimp only
  refine (congrFun (shapeCast_self _ _) _).trans ?_
  refine (addf_apply _ _ _).trans ?_
  refine congrArg (s (ix2 (0 : Fin 1) (0 : Fin 1)) + ·) ?_
  refine (shapeCast_a_1a_apply _ _ (0 : Fin 1) (0 : Fin 1)).trans ?_
  refine (colSum_apply _ _ _ _ (0 : Fin 1)).trans ?_
  refine Finset.sum_congr rfl fun p _ => ?_
  refine (shapeCast_a_a1_apply _ _ p (0 : Fin 1)).trans ?_
  refine (rowSum_apply _ _ _ _ p).trans ?_
  refine Finset.sum_congr rfl fun q _ => ?_
  refine (mulf_apply _ _ _).trans ?_
  unfold Cert.Spec.d2X
  have et := sim1_apply x0 x2 (k1_pay4 x0) (k1_pay8 x0) (k1_pay6 x2) (k1_pay10 x2) (k1_pay4_apply x0) (k1_pay8_apply x0) (k1_pay6_apply x2) (k1_pay10_apply x2)
    broadcasts_S1x256_S256x256 broadcasts_S1x1024_S256x1024 bitsLt_bf16_f32 p q
  have es := sim1_apply x1 x3 (k1_pay5 x1) (k1_pay9 x1) (k1_pay7 x3) (k1_pay11 x3) (k1_pay5_apply x1) (k1_pay9_apply x1) (k1_pay7_apply x3) (k1_pay11_apply x3)
    broadcasts_S1x256_S256x256 broadcasts_S1x1024_S256x1024 bitsLt_bf16_f32 p q
  have ed := (subf_apply _ _ _).trans (congrArg₂ (· - ·) et es)
  exact congrArg₂ (· * ·) ed ed

end Level1

/-! ## The stored total and the reset -/

section Small

variable {F : FTy → Type} [FloatOps F]

/-- The total as it is written back: the one entry of the carried block, under one more unit axis. -/
theorem k0_pay2_apply (v : Vec F S1x1 .f32) :
    k0_pay2 v (ix3 (0 : Fin 1) (0 : Fin 1) (0 : Fin 1)) = v (ix2 (0 : Fin 1) (0 : Fin 1)) :=
  shapeCast_ab_1ab_apply v _ (0 : Fin 1) (0 : Fin 1) (0 : Fin 1)
theorem k1_pay2_apply (v : Vec F S1x1 .f32) :
    k1_pay2 v (ix3 (0 : Fin 1) (0 : Fin 1) (0 : Fin 1)) = v (ix2 (0 : Fin 1) (0 : Fin 1)) :=
  shapeCast_ab_1ab_apply v _ (0 : Fin 1) (0 : Fin 1) (0 : Fin 1)

/-- The reset at the first row tile of a batch element: the total starts from zero. -/
theorem k0_pay3_apply : k0_pay3 (F := Ideal) (ix2 (0 : Fin 1) (0 : Fin 1)) = 0 := by
  unfold k0_pay3
  refine (congrFun (shapeCast_self _ _) _).trans ?_
  exact Ideal.ofBits_zero_f32
theorem k1_pay3_apply : k1_pay3 (F := Ideal) (ix2 (0 : Fin 1) (0 : Fin 1)) = 0 := by
  unfold k1_pay3
  refine (congrFun (shapeCast_self _ _) _).trans ?_
  exact Ideal.ofBits_zero_f32

end Small

end Cert.KernelIdeal.HandValue

end
-- ==== Proof.KIValue.lean ====
/-
  What the two kernel regions leave in their result arrays, for any contents `V` the region is entered from.

  A point of a region's grid is a batch element `b` and a row tile `k`. Its tile windows hold rows
  `256 k, …, 256 k + 255` of the teacher's and the student's flattened maps of `b`, its whole-map windows hold the
  two maps of `b`; so the cross form of the squared similarity difference that the body sums over the tile's
  rows and all pixels is the plain form at the shifted row. The scratch is zeroed at the first tile of a batch
  element and grows by one tile's contribution at every point, so after tile `k` it holds the contributions of
  tiles `0, …, k`, and after the last tile the batch element's total. The result window's one-entry block of
  batch element `b` is written back at the last tile of `b`, and no other point writes that entry: the result
  array ends with entry `b` at the total of `b`.
-/
import proofs.«158146_j14877766713777_1_alg».proof.Proof.KIDat
import proofs.«158146_j14877766713777_1_alg».proof.Proof.KernelPayload
import proofs.«158146_j14877766713777_1_alg».proof.Proof.SpecSums

set_option maxRecDepth 16384

noncomputable section

namespace Cert.KernelIdeal.HandValue2

open Cert.KernelIdeal Cert.KernelIdeal.Gen Cert.KernelIdeal.Hand Cert.KernelIdeal.HandValue
open Idealize.ShloMosaic Idealize.ShloMosaic.TcCoe Idealize.ShloMosaic.ValueIdx
open Idealize.ShloMosaic.Pipeline (Dat Cfg Window)
open Cert.Spec Cert.RefSide
open scoped BigOperators

/-! ### A tile that is a slice of the map -/

/-- The cross form of the squared similarity difference, taken between a tile and the whole map, is the plain
    form at the tile's pixel when the tile's maps are the whole maps read at the shifted pixel. -/
theorem d2X_eq_d2 {C P Q : Type} [Fintype C] (ta : C → P → EReal) (tb : C → Q → EReal) (sa : C → P → EReal)
    (sb : C → Q → EReal) (T S : C → Q → EReal) (σ : P → Q)
    (h0 : ∀ c p, ta c p = T c (σ p)) (h1 : ∀ c p, sa c p = S c (σ p))
    (h2 : ∀ c q, tb c q = T c q) (h3 : ∀ c q, sb c q = S c q) (p : P) (q : Q) :
    d2X ta tb sa sb p q = d2 T S (σ p) q := by
  obtain rfl : tb = T := funext fun c => funext fun q => h2 c q
  obtain rfl : sb = S := funext fun c => funext fun q => h3 c q
  obtain rfl : ta = fun c p => tb c (σ p) := funext fun c => funext fun p => h0 c p
  obtain rfl : sa = fun c p => sb c (σ p) := funext fun c => funext fun p => h1 c p
  rfl

/-- One grid point of the first region adds, to the running total, the sum over the rows of its tile and all
    pixels of the squared similarity difference of the whole maps. -/
theorem acc0_slice (x0 x1 : Vec Ideal S1x128x256 .f32) (x2 x3 : Vec Ideal S1x128x4096 .f32) (s : Vec Ideal S1x1 .f32)
    (T S : Fin 128 → Fin 4096 → EReal) (i : Fin 16)
    (h0 : ∀ ch p, x0 (ix3 (0 : Fin 1) ch p) = T ch (tile1 i p))
    (h1 : ∀ ch p, x1 (ix3 (0 : Fin 1) ch p) = S ch (tile1 i p))
    (h2 : ∀ ch q, x2 (ix3 (0 : Fin 1) ch q) = T ch q)
    (h3 : ∀ ch q, x3 (ix3 (0 : Fin 1) ch q) = S ch q) :
    acc0 x0 x1 x2 x3 s (ix2 (0 : Fin 1) (0 : Fin 1))
      = s (ix2 (0 : Fin 1) (0 : Fin 1)) + ∑ p : Fin 256, ∑ q : Fin 4096, d2 T S (tile1 i p) q := by
  refine (acc0_apply x0 x1 x2 x3 s).trans ?_
  refine congrArg (s (ix2 (0 : Fin 1) (0 : Fin 1)) + ·)
    (Finset.sum_congr rfl fun p _ => Finset.sum_congr rfl fun q _ => ?_)
  exact d2X_eq_d2 _ _ _ _ T S (tile1 i) h0 h1 h2 h3 p q

variable (V : (c : Dev nD) → (b : Ref sig .tc) → Buf (Elt Ideal) ((c : Thread nD τ).loc b))

/-! ### Region 0 -/

/-- The teacher's flattened first-level map as the region finds it. -/
def T0 (c : Dev nD) (b : Fin 4) (ch : Fin 128) (p : Fin 4096) : EReal := V c main_v0 (ix3 b ch p)

/-- The student's flattened first-level map as the region finds it. -/
def S0 (c : Dev nD) (b : Fin 4) (ch : Fin 128) (p : Fin 4096) : EReal := V c main_v1 (ix3 b ch p)

/-- The block indices of the first region's windows at grid point `t`: batch element `t / 16`, and row tile `t % 16`
    for the two tile windows. -/
theorem idx_facts0 : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- The teacher's tile at a point of batch element `b` and row tile `k` is rows `256 k …` of the teacher's map. -/
theorem iblk0_0_at (c : Dev nD) (t : Fin cfg0.N) (b : Fin 4) (k : Fin 16) (ht : t.val = 16 * b.val + k.val)
    (ch : Fin 128) (p : Fin 256) : iblk0 V c 0 t (ix3 (0 : Fin 1) ch p) = T0 V c b ch (tile1 k p) := by
  obtain ⟨e0, e1, e2, -⟩ := idx_facts0 t
  have hk := k.isLt
  show V c main_v0 (((cfg0.win 0).blk t).view.emb (ix3 (0 : Fin 1) ch p)) = V c main_v0 (ix3 b ch (tile1 k p))
  refine congrArg (V c main_v0) (funext fun a => Fin.ext ?_)
  match a with
  | ⟨0, _⟩ => show win0_0.index t (0 : Fin 3) * 1 + 1 * 0 = b.val; omega
  | ⟨1, _⟩ => show win0_0.index t (1 : Fin 3) * 128 + 1 * ch.val = ch.val; omega
  | ⟨2, _⟩ => show win0_0.index t (2 : Fin 3) * 256 + 1 * p.val = 256 * k.val + p.val; omega

/-- The student's tile at a point of batch element `b` and row tile `k` is rows `256 k …` of the student's map. -/
theorem iblk0_1_at (c : Dev nD) (t : Fin cfg0.N) (b : Fin 4) (k : Fin 16) (ht : t.val = 16 * b.val + k.val)
    (ch : Fin 128) (p : Fin 256) : iblk0 V c 1 t (ix3 (0 : Fin 1) ch p) = S0 V c b ch (tile1 k p) := by
  obtain ⟨-, -, -, e0, e1, e2, -⟩ := idx_facts0 t
  have hk := k.isLt
  show V c main_v1 (((cfg0.win 1).blk t).view.emb (ix3 (0 : Fin 1) ch p)) = V c main_v1 (ix3 b ch (tile1 k p))
  refine congrArg (V c main_v1) (funext fun a => Fin.ext ?_)
  match a with
  | ⟨0, _⟩ => show win0_1.index t (0 : Fin 3) * 1 + 1 * 0 = b.val; omega
  | ⟨1, _⟩ => show win0_1.index t (1 : Fin 3) * 128 + 1 * ch.val = ch.val; omega
  | ⟨2, _⟩ => show win0_1.index t (2 : Fin 3) * 256 + 1 * p.val = 256 * k.val + p.val; omega

/-- The teacher's whole-map window at a point of batch element `b` is the teacher's map of `b`. -/
theorem iblk0_2_at (c : Dev nD) (t : Fin cfg0.N) (b : Fin 4) (k : Fin 16) (ht : t.val = 16 * b.val + k.val)
    (ch : Fin 128) (q : Fin 4096) : iblk0 V c 2 t (ix3 (0 : Fin 1) ch q) = T0 V c b ch q := by
  obtain ⟨-, -, -, -, -, -, e0, e1, e2, -⟩ := idx_facts0 t
  have hk := k.isLt
  show V c main_v0 (((cfg0.win 2).blk t).view.emb (ix3 (0 : Fin 1) ch q)) = V c main_v0 (ix3 b ch q)
  refine congrArg (V c main_v0) (funext fun a => Fin.ext ?_)
  match a with
  | ⟨0, _⟩ => show win0_2.index t (0 : Fin 3) * 1 + 1 * 0 = b.val; omega
  | ⟨1, _⟩ => show win0_2.index t (1 : Fin 3) * 128 + 1 * ch.val = ch.val; omega
  | ⟨2, _⟩ => show win0_2.index t (2 : Fin 3) * 4096 + 1 * q.val = q.val; omega

/-- The student's whole-map window at a point of batch element `b` is the student's map of `b`. -/
theorem iblk0_3_at (c : Dev nD) (t : Fin cfg0.N) (b : Fin 4) (k : Fin 16) (ht : t.val = 16 * b.val + k.val)
    (ch : Fin 128) (q : Fin 4096) : iblk0 V c 3 t (ix3 (0 : Fin 1) ch q) = S0 V c b ch q := by
  obtain ⟨-, -, -, -, -, -, -, -, -, e0, e1, e2, -⟩ := idx_facts0 t
  have hk := k.isLt
  show V c main_v1 (((cfg0.win 3).blk t).view.emb (ix3 (0 : Fin 1) ch q)) = V c main_v1 (ix3 b ch q)
  refine congrArg (V c main_v1) (funext fun a => Fin.ext ?_)
  match a with
  | ⟨0, _⟩ => show win0_3.index t (0 : Fin 3) * 1 + 1 * 0 = b.val; omega
  | ⟨1, _⟩ => show win0_3.index t (1 : Fin 3) * 128 + 1 * ch.val = ch.val; omega
  | ⟨2, _⟩ => show win0_3.index t (2 : Fin 3) * 4096 + 1 * q.val = q.val; omega

/-- What one row tile of one batch element contributes. -/
def tileSum0 (c : Dev nD) (b : Fin 4) (i : Fin 16) : EReal :=
  ∑ p : Fin 256, ∑ q : Fin 4096, d2 (T0 V c b) (S0 V c b) (tile1 i p) q

/-- The running sum depends on the position only. -/
theorem accAt0_congr (c : Dev nD) {n n' : ℕ} (e : n = n') (h : n < cfg0.N) (h' : n' < cfg0.N) :
    accAt0 V c n h = accAt0 V c n' h' := by
  subst e; rfl

/-- After tile `k` of batch element `b` the scratch holds the contributions of the tiles up to `k`. -/
theorem accAt0_partial (c : Dev nD) (b : Fin 4) : ∀ (k : ℕ) (hk : k < 16) (hn : 16 * b.val + k < cfg0.N),
    accAt0 V c (16 * b.val + k) hn (ix2 (0 : Fin 1) (0 : Fin 1))
      = ∑ i ∈ Finset.range (k + 1), (if h : i < 16 then tileSum0 V c b ⟨i, h⟩ else 0)
  | 0, hk, hn => by
    have h0 : (⟨16 * b.val + 0, hn⟩ : Fin cfg0.N).val % 16 = 0 := by show (16 * b.val + 0) % 16 = 0; omega
    refine (congrFun (accAt0_first V c ⟨16 * b.val + 0, hn⟩ h0) _).trans ?_
    refine (acc0_slice (iblk0 V c 0 ⟨16 * b.val + 0, hn⟩) (iblk0 V c 1 ⟨16 * b.val + 0, hn⟩)
      (iblk0 V c 2 ⟨16 * b.val + 0, hn⟩) (iblk0 V c 3 ⟨16 * b.val + 0, hn⟩) (k0_pay3 (F := Ideal)) (T0 V c b) (S0 V c b) ⟨0, hk⟩
      (iblk0_0_at V c ⟨16 * b.val + 0, hn⟩ b ⟨0, hk⟩ rfl) (iblk0_1_at V c ⟨16 * b.val + 0, hn⟩ b ⟨0, hk⟩ rfl)
      (iblk0_2_at V c ⟨16 * b.val + 0, hn⟩ b ⟨0, hk⟩ rfl) (iblk0_3_at V c ⟨16 * b.val + 0, hn⟩ b ⟨0, hk⟩ rfl)).trans ?_
    rw [k0_pay3_apply, zero_add, Finset.sum_range_one, dif_pos hk]
    rfl
  | k + 1, hk, hn => by
    have h0 : ¬ (⟨16 * b.val + (k + 1), hn⟩ : Fin cfg0.N).val % 16 = 0 := by
      show ¬ (16 * b.val + (k + 1)) % 16 = 0; omega
    have hn' : 16 * b.val + k < cfg0.N := Nat.lt_of_succ_lt hn
    refine (congrFun (accAt0_next V c ⟨16 * b.val + (k + 1), hn⟩ h0) _).trans ?_
    refine (acc0_slice (iblk0 V c 0 ⟨16 * b.val + (k + 1), hn⟩) (iblk0 V c 1 ⟨16 * b.val + (k + 1), hn⟩)
      (iblk0 V c 2 ⟨16 * b.val + (k + 1), hn⟩) (iblk0 V c 3 ⟨16 * b.val + (k + 1), hn⟩)
      (accAt0 V c ((⟨16 * b.val + (k + 1), hn⟩ : Fin cfg0.N).val - 1) (Nat.lt_of_le_of_lt (Nat.sub_le _ _) hn))
      (T0 V c b) (S0 V c b) ⟨k + 1, hk⟩
      (iblk0_0_at V c ⟨16 * b.val + (k + 1), hn⟩ b ⟨k + 1, hk⟩ rfl) (iblk0_1_at V c ⟨16 * b.val + (k + 1), hn⟩ b ⟨k + 1, hk⟩ rfl)
      (iblk0_2_at V c ⟨16 * b.val + (k + 1), hn⟩ b ⟨k + 1, hk⟩ rfl) (iblk0_3_at V c ⟨16 * b.val + (k + 1), hn⟩ b ⟨k + 1, hk⟩ rfl)).trans ?_
    rw [Finset.sum_range_succ _ (k + 1), dif_pos hk, ← accAt0_partial c b k (Nat.lt_of_succ_lt hk) hn',
      accAt0_congr V c (show (⟨16 * b.val + (k + 1), hn⟩ : Fin cfg0.N).val - 1 = 16 * b.val + k from rfl) _ hn']
    rfl

/-- After the last tile of batch element `b` the scratch holds the batch element's total. -/
theorem accAt0_total (c : Dev nD) (b : Fin 4) (hn : 16 * b.val + 15 < cfg0.N) :
    accAt0 V c (16 * b.val + 15) hn (ix2 (0 : Fin 1) (0 : Fin 1))
      = ∑ i : Fin 16, ∑ p : Fin 256, ∑ q : Fin 4096, d2 (T0 V c b) (S0 V c b) (tile1 i p) q := by
  rw [accAt0_partial V c b 15 (by omega) hn]
  show ∑ i ∈ Finset.range 16, _ = _
  rw [Finset.sum_range]
  refine Finset.sum_congr rfl fun i _ => ?_
  rw [dif_pos i.isLt]
  rfl

/-- The result array of the first region: entry `b` is the scratch after the last tile of batch element `b`. -/
def G0 (c : Dev nD) : S4x1x1.Idx → EReal := fun i =>
  accAt0 V c (16 * (i 0).val + 15) (by have h : (i 0).val < 4 := (i 0).isLt; have : cfg0.N = 64 := N_0; omega)
    (ix2 (0 : Fin 1) (0 : Fin 1))

/-- What a writing point writes back is its block of that array. -/
theorem flushed0_eq (c : Dev nD) (t : Fin cfg0.N) (hf : (cfg0.win 4).flush t = true) :
    (dat0 V c).flushed 4 t = ((cfg0.win 4).blk t).view.read (Elt Ideal) (G0 V c) := by
  have h15 : t.val % 16 = 15 := (flush0_4 t).mp hf
  obtain ⟨-, -, -, -, -, -, -, -, -, -, -, -, e0, e1, e2⟩ := idx_facts0 t
  show (cfg0.win 4).cut (grid0.coords t) ((dat0 V c).after 4 t) = _
  rw [after0_4]
  funext j
  obtain rfl : j = ix3 (0 : Fin 1) (0 : Fin 1) (0 : Fin 1) := by
    refine funext fun a => Fin.ext ?_
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega
  show k0_pay2 (accAt0 V c t.val t.isLt) (ix3 (0 : Fin 1) (0 : Fin 1) (0 : Fin 1))
    = G0 V c (((cfg0.win 4).blk t).view.emb (ix3 (0 : Fin 1) (0 : Fin 1) (0 : Fin 1)))
  rw [k0_pay2_apply]
  unfold G0
  refine congrFun (accAt0_congr V c ?_ _ _) _
  show t.val = 16 * (win0_4.index t (0 : Fin 3) * 1 + 1 * 0) + 15
  omega

/-- The first region's result array after the run: entry `b` is batch element `b`'s total. -/
theorem out0_total (c : Dev nD) (b : Fin 4) :
    (dat0 V c).arrAt 4 cfg0.N (ix3 b (0 : Fin 1) (0 : Fin 1))
      = ∑ i : Fin 16, ∑ p : Fin 256, ∑ q : Fin 4096, d2 (T0 V c b) (S0 V c b) (tile1 i p) q := by
  have hN : cfg0.N = 64 := N_0
  have hb := b.isLt
  have hlt : 16 * b.val + 15 < cfg0.N := by omega
  obtain ⟨-, -, -, -, -, -, -, -, -, -, -, -, e0, e1, e2⟩ := idx_facts0 ⟨16 * b.val + 15, hlt⟩
  have hf : (cfg0.win 4).flush ⟨16 * b.val + 15, hlt⟩ = true :=
    (flush0_4 ⟨16 * b.val + 15, hlt⟩).mpr (by show (16 * b.val + 15) % 16 = 15; omega)
  have e : ((cfg0.win 4).blk ⟨16 * b.val + 15, hlt⟩).view.emb (ix3 (0 : Fin 1) (0 : Fin 1) (0 : Fin 1))
      = ix3 b (0 : Fin 1) (0 : Fin 1) := by
    refine funext fun a => Fin.ext ?_
    match a with
    | ⟨0, _⟩ => show win0_4.index ⟨16 * b.val + 15, hlt⟩ (0 : Fin 3) * 1 + 1 * 0 = b.val; rw [e0]; show (16 * b.val + 15) / 16 * 1 + 1 * 0 = b.val; omega
    | ⟨1, _⟩ => show win0_4.index ⟨16 * b.val + 15, hlt⟩ (1 : Fin 3) * 1 + 1 * 0 = 0; omega
    | ⟨2, _⟩ => show win0_4.index ⟨16 * b.val + 15, hlt⟩ (2 : Fin 3) * 1 + 1 * 0 = 0; omega
  have hi : ix3 b (0 : Fin 1) (0 : Fin 1) ∈ ((cfg0.win 4).blk ⟨16 * b.val + 15, hlt⟩).view.set :=
    e ▸ ((cfg0.win 4).blk ⟨16 * b.val + 15, hlt⟩).view.emb_mem_set (ix3 (0 : Fin 1) (0 : Fin 1) (0 : Fin 1))
  refine ((dat0 V c).arrAt_apply_of_mem 4 (G0 V c) (flushed0_eq V c) cfg0.N ⟨16 * b.val + 15, hlt⟩
    (ix3 b (0 : Fin 1) (0 : Fin 1)) hlt hf hi).trans ?_
  exact accAt0_total V c b _

/-! ### Region 1 -/

/-- One grid point of the second region adds, to the running total, the sum over the rows of its tile and all
    pixels of the squared similarity difference of the whole maps. -/
theorem acc1_slice (x0 x1 : Vec Ideal S1x256x256 .f32) (x2 x3 : Vec Ideal S1x256x1024 .f32) (s : Vec Ideal S1x1 .f32)
    (T S : Fin 256 → Fin 1024 → EReal) (i : Fin 4)
    (h0 : ∀ ch p, x0 (ix3 (0 : Fin 1) ch p) = T ch (tile2 i p))
    (h1 : ∀ ch p, x1 (ix3 (0 : Fin 1) ch p) = S ch (tile2 i p))
    (h2 : ∀ ch q, x2 (ix3 (0 : Fin 1) ch q) = T ch q)
    (h3 : ∀ ch q, x3 (ix3 (0 : Fin 1) ch q) = S ch q) :
    acc1 x0 x1 x2 x3 s (ix2 (0 : Fin 1) (0 : Fin 1))
      = s (ix2 (0 : Fin 1) (0 : Fin 1)) + ∑ p : Fin 256, ∑ q : Fin 1024, d2 T S (tile2 i p) q := by
  refine (acc1_apply x0 x1 x2 x3 s).trans ?_
  refine congrArg (s (ix2 (0 : Fin 1) (0 : Fin 1)) + ·)
    (Finset.sum_congr rfl fun p _ => Finset.sum_congr rfl fun q _ => ?_)
  exact d2X_eq_d2 _ _ _ _ T S (tile2 i) h0 h1 h2 h3 p q

/-- The teacher's flattened second-level map as the region finds it. -/
def T1 (c : Dev nD) (b : Fin 4) (ch : Fin 256) (p : Fin 1024) : EReal := V c main_v3 (ix3 b ch p)

/-- The student's flattened second-level map as the region finds it. -/
def S1 (c : Dev nD) (b : Fin 4) (ch : Fin 256) (p : Fin 1024) : EReal := V c main_v4 (ix3 b ch p)

/-- The block indices of the second region's windows at grid point `t`: batch element `t / 4`, and row tile `t % 4`
    for the two tile windows. -/
theorem idx_facts1 : ∀ t : Fin cfg1.N,
    win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = 0 ∧ win1_4.index t (2 : Fin 3) = 0 :=
  (by decide +kernel : ∀ t : Fin grid1.N, _)

/-- The teacher's tile at a point of batch element `b` and row tile `k` is rows `256 k …` of the teacher's map. -/
theorem iblk1_0_at (c : Dev nD) (t : Fin cfg1.N) (b : Fin 4) (k : Fin 4) (ht : t.val = 4 * b.val + k.val)
    (ch : Fin 256) (p : Fin 256) : iblk1 V c 0 t (ix3 (0 : Fin 1) ch p) = T1 V c b ch (tile2 k p) := by
  obtain ⟨e0, e1, e2, -⟩ := idx_facts1 t
  have hk := k.isLt
  show V c main_v3 (((cfg1.win 0).blk t).view.emb (ix3 (0 : Fin 1) ch p)) = V c main_v3 (ix3 b ch (tile2 k p))
  refine congrArg (V c main_v3) (funext fun a => Fin.ext ?_)
  match a with
  | ⟨0, _⟩ => show win1_0.index t (0 : Fin 3) * 1 + 1 * 0 = b.val; omega
  | ⟨1, _⟩ => show win1_0.index t (1 : Fin 3) * 256 + 1 * ch.val = ch.val; omega
  | ⟨2, _⟩ => show win1_0.index t (2 : Fin 3) * 256 + 1 * p.val = 256 * k.val + p.val; omega

/-- The student's tile at a point of batch element `b` and row tile `k` is rows `256 k …` of the student's map. -/
theorem iblk1_1_at (c : Dev nD) (t : Fin cfg1.N) (b : Fin 4) (k : Fin 4) (ht : t.val = 4 * b.val + k.val)
    (ch : Fin 256) (p : Fin 256) : iblk1 V c 1 t (ix3 (0 : Fin 1) ch p) = S1 V c b ch (tile2 k p) := by
  obtain ⟨-, -, -, e0, e1, e2, -⟩ := idx_facts1 t
  have hk := k.isLt
  show V c main_v4 (((cfg1.win 1).blk t).view.emb (ix3 (0 : Fin 1) ch p)) = V c main_v4 (ix3 b ch (tile2 k p))
  refine congrArg (V c main_v4) (funext fun a => Fin.ext ?_)
  match a with
  | ⟨0, _⟩ => show win1_1.index t (0 : Fin 3) * 1 + 1 * 0 = b.val; omega
  | ⟨1, _⟩ => show win1_1.index t (1 : Fin 3) * 256 + 1 * ch.val = ch.val; omega
  | ⟨2, _⟩ => show win1_1.index t (2 : Fin 3) * 256 + 1 * p.val = 256 * k.val + p.val; omega

/-- The teacher's whole-map window at a point of batch element `b` is the teacher's map of `b`. -/
theorem iblk1_2_at (c : Dev nD) (t : Fin cfg1.N) (b : Fin 4) (k : Fin 4) (ht : t.val = 4 * b.val + k.val)
    (ch : Fin 256) (q : Fin 1024) : iblk1 V c 2 t (ix3 (0 : Fin 1) ch q) = T1 V c b ch q := by
  obtain ⟨-, -, -, -, -, -, e0, e1, e2, -⟩ := idx_facts1 t
  have hk := k.isLt
  show V c main_v3 (((cfg1.win 2).blk t).view.emb (ix3 (0 : Fin 1) ch q)) = V c main_v3 (ix3 b ch q)
  refine congrArg (V c main_v3) (funext fun a => Fin.ext ?_)
  match a with
  | ⟨0, _⟩ => show win1_2.index t (0 : Fin 3) * 1 + 1 * 0 = b.val; omega
  | ⟨1, _⟩ => show win1_2.index t (1 : Fin 3) * 256 + 1 * ch.val = ch.val; omega
  | ⟨2, _⟩ => show win1_2.index t (2 : Fin 3) * 1024 + 1 * q.val = q.val; omega

/-- The student's whole-map window at a point of batch element `b` is the student's map of `b`. -/
theorem iblk1_3_at (c : Dev nD) (t : Fin cfg1.N) (b : Fin 4) (k : Fin 4) (ht : t.val = 4 * b.val + k.val)
    (ch : Fin 256) (q : Fin 1024) : iblk1 V c 3 t (ix3 (0 : Fin 1) ch q) = S1 V c b ch q := by
  obtain ⟨-, -, -, -, -, -, -, -, -, e0, e1, e2, -⟩ := idx_facts1 t
  have hk := k.isLt
  show V c main_v4 (((cfg1.win 3).blk t).view.emb (ix3 (0 : Fin 1) ch q)) = V c main_v4 (ix3 b ch q)
  refine congrArg (V c main_v4) (funext fun a => Fin.ext ?_)
  match a with
  | ⟨0, _⟩ => show win1_3.index t (0 : Fin 3) * 1 + 1 * 0 = b.val; omega
  | ⟨1, _⟩ => show win1_3.index t (1 : Fin 3) * 256 + 1 * ch.val = ch.val; omega
  | ⟨2, _⟩ => show win1_3.index t (2 : Fin 3) * 1024 + 1 * q.val = q.val; omega

/-- What one row tile of one batch element contributes. -/
def tileSum1 (c : Dev nD) (b : Fin 4) (i : Fin 4) : EReal :=
  ∑ p : Fin 256, ∑ q : Fin 1024, d2 (T1 V c b) (S1 V c b) (tile2 i p) q

/-- The running sum depends on the position only. -/
theorem accAt1_congr (c : Dev nD) {n n' : ℕ} (e : n = n') (h : n < cfg1.N) (h' : n' < cfg1.N) :
    accAt1 V c n h = accAt1 V c n' h' := by
  subst e; rfl

/-- After tile `k` of batch element `b` the scratch holds the contributions of the tiles up to `k`. -/
theorem accAt1_partial (c : Dev nD) (b : Fin 4) : ∀ (k : ℕ) (hk : k < 4) (hn : 4 * b.val + k < cfg1.N),
    accAt1 V c (4 * b.val + k) hn (ix2 (0 : Fin 1) (0 : Fin 1))
      = ∑ i ∈ Finset.range (k + 1), (if h : i < 4 then tileSum1 V c b ⟨i, h⟩ else 0)
  | 0, hk, hn => by
    have h0 : (⟨4 * b.val + 0, hn⟩ : Fin cfg1.N).val % 4 = 0 := by show (4 * b.val + 0) % 4 = 0; omega
    refine (congrFun (accAt1_first V c ⟨4 * b.val + 0, hn⟩ h0) _).trans ?_
    refine (acc1_slice (iblk1 V c 0 ⟨4 * b.val + 0, hn⟩) (iblk1 V c 1 ⟨4 * b.val + 0, hn⟩)
      (iblk1 V c 2 ⟨4 * b.val + 0, hn⟩) (iblk1 V c 3 ⟨4 * b.val + 0, hn⟩) (k1_pay3 (F := Ideal)) (T1 V c b) (S1 V c b) ⟨0, hk⟩
      (iblk1_0_at V c ⟨4 * b.val + 0, hn⟩ b ⟨0, hk⟩ rfl) (iblk1_1_at V c ⟨4 * b.val + 0, hn⟩ b ⟨0, hk⟩ rfl)
      (iblk1_2_at V c ⟨4 * b.val + 0, hn⟩ b ⟨0, hk⟩ rfl) (iblk1_3_at V c ⟨4 * b.val + 0, hn⟩ b ⟨0, hk⟩ rfl)).trans ?_
    rw [k1_pay3_apply, zero_add, Finset.sum_range_one, dif_pos hk]
    rfl
  | k + 1, hk, hn => by
    have h0 : ¬ (⟨4 * b.val + (k + 1), hn⟩ : Fin cfg1.N).val % 4 = 0 := by
      show ¬ (4 * b.val + (k + 1)) % 4 = 0; omega
    have hn' : 4 * b.val + k < cfg1.N := Nat.lt_of_succ_lt hn
    refine (congrFun (accAt1_next V c ⟨4 * b.val + (k + 1), hn⟩ h0) _).trans ?_
    refine (acc1_slice (iblk1 V c 0 ⟨4 * b.val + (k + 1), hn⟩) (iblk1 V c 1 ⟨4 * b.val + (k + 1), hn⟩)
      (iblk1 V c 2 ⟨4 * b.val + (k + 1), hn⟩) (iblk1 V c 3 ⟨4 * b.val + (k + 1), hn⟩)
      (accAt1 V c ((⟨4 * b.val + (k + 1), hn⟩ : Fin cfg1.N).val - 1) (Nat.lt_of_le_of_lt (Nat.sub_le _ _) hn))
      (T1 V c b) (S1 V c b) ⟨k + 1, hk⟩
      (iblk1_0_at V c ⟨4 * b.val + (k + 1), hn⟩ b ⟨k + 1, hk⟩ rfl) (iblk1_1_at V c ⟨4 * b.val + (k + 1), hn⟩ b ⟨k + 1, hk⟩ rfl)
      (iblk1_2_at V c ⟨4 * b.val + (k + 1), hn⟩ b ⟨k + 1, hk⟩ rfl) (iblk1_3_at V c ⟨4 * b.val + (k + 1), hn⟩ b ⟨k + 1, hk⟩ rfl)).trans ?_
    rw [Finset.sum_range_succ _ (k + 1), dif_pos hk, ← accAt1_partial c b k (Nat.lt_of_succ_lt hk) hn',
      accAt1_congr V c (show (⟨4 * b.val + (k + 1), hn⟩ : Fin cfg1.N).val - 1 = 4 * b.val + k from rfl) _ hn']
    rfl

/-- After the last tile of batch element `b` the scratch holds the batch element's total. -/
theorem accAt1_total (c : Dev nD) (b : Fin 4) (hn : 4 * b.val + 3 < cfg1.N) :
    accAt1 V c (4 * b.val + 3) hn (ix2 (0 : Fin 1) (0 : Fin 1))
      = ∑ i : Fin 4, ∑ p : Fin 256, ∑ q : Fin 1024, d2 (T1 V c b) (S1 V c b) (tile2 i p) q := by
  rw [accAt1_partial V c b 3 (by omega) hn]
  show ∑ i ∈ Finset.range 4, _ = _
  rw [Finset.sum_range]
  refine Finset.sum_congr rfl fun i _ => ?_
  rw [dif_pos i.isLt]
  rfl

/-- The result array of the second region: entry `b` is the scratch after the last tile of batch element `b`. -/
def G1 (c : Dev nD) : S4x1x1.Idx → EReal := fun i =>
  accAt1 V c (4 * (i 0).val + 3) (by have h : (i 0).val < 4 := (i 0).isLt; have : cfg1.N = 16 := N_1; omega)
    (ix2 (0 : Fin 1) (0 : Fin 1))

/-- What a writing point writes back is its block of that array. -/
theorem flushed1_eq (c : Dev nD) (t : Fin cfg1.N) (hf : (cfg1.win 4).flush t = true) :
    (dat1 V c).flushed 4 t = ((cfg1.win 4).blk t).view.read (Elt Ideal) (G1 V c) := by
  have h3 : t.val % 4 = 3 := (flush1_4 t).mp hf
  obtain ⟨-, -, -, -, -, -, -, -, -, -, -, -, e0, e1, e2⟩ := idx_facts1 t
  show (cfg1.win 4).cut (grid1.coords t) ((dat1 V c).after 4 t) = _
  rw [after1_4]
  funext j
  obtain rfl : j = ix3 (0 : Fin 1) (0 : Fin 1) (0 : Fin 1) := by
    refine funext fun a => Fin.ext ?_
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega
  show k1_pay2 (accAt1 V c t.val t.isLt) (ix3 (0 : Fin 1) (0 : Fin 1) (0 : Fin 1))
    = G1 V c (((cfg1.win 4).blk t).view.emb (ix3 (0 : Fin 1) (0 : Fin 1) (0 : Fin 1)))
  rw [k1_pay2_apply]
  unfold G1
  refine congrFun (accAt1_congr V c ?_ _ _) _
  show t.val = 4 * (win1_4.index t (0 : Fin 3) * 1 + 1 * 0) + 3
  omega

/-- The second region's result array after the run: entry `b` is batch element `b`'s total. -/
theorem out1_total (c : Dev nD) (b : Fin 4) :
    (dat1 V c).arrAt 4 cfg1.N (ix3 b (0 : Fin 1) (0 : Fin 1))
      = ∑ i : Fin 4, ∑ p : Fin 256, ∑ q : Fin 1024, d2 (T1 V c b) (S1 V c b) (tile2 i p) q := by
  have hN : cfg1.N = 16 := N_1
  have hb := b.isLt
  have hlt : 4 * b.val + 3 < cfg1.N := by omega
  obtain ⟨-, -, -, -, -, -, -, -, -, -, -, -, e0, e1, e2⟩ := idx_facts1 ⟨4 * b.val + 3, hlt⟩
  have hf : (cfg1.win 4).flush ⟨4 * b.val + 3, hlt⟩ = true :=
    (flush1_4 ⟨4 * b.val + 3, hlt⟩).mpr (by show (4 * b.val + 3) % 4 = 3; omega)
  have e : ((cfg1.win 4).blk ⟨4 * b.val + 3, hlt⟩).view.emb (ix3 (0 : Fin 1) (0 : Fin 1) (0 : Fin 1))
      = ix3 b (0 : Fin 1) (0 : Fin 1) := by
    refine funext fun a => Fin.ext ?_
    match a with
    | ⟨0, _⟩ => show win1_4.index ⟨4 * b.val + 3, hlt⟩ (0 : Fin 3) * 1 + 1 * 0 = b.val; rw [e0]; show (4 * b.val + 3) / 4 * 1 + 1 * 0 = b.val; omega
    | ⟨1, _⟩ => show win1_4.index ⟨4 * b.val + 3, hlt⟩ (1 : Fin 3) * 1 + 1 * 0 = 0; omega
    | ⟨2, _⟩ => show win1_4.index ⟨4 * b.val + 3, hlt⟩ (2 : Fin 3) * 1 + 1 * 0 = 0; omega
  have hi : ix3 b (0 : Fin 1) (0 : Fin 1) ∈ ((cfg1.win 4).blk ⟨4 * b.val + 3, hlt⟩).view.set :=
    e ▸ ((cfg1.win 4).blk ⟨4 * b.val + 3, hlt⟩).view.emb_mem_set (ix3 (0 : Fin 1) (0 : Fin 1) (0 : Fin 1))
  refine ((dat1 V c).arrAt_apply_of_mem 4 (G1 V c) (flushed1_eq V c) cfg1.N ⟨4 * b.val + 3, hlt⟩
    (ix3 b (0 : Fin 1) (0 : Fin 1)) hlt hf hi).trans ?_
  exact accAt1_total V c b _

end Cert.KernelIdeal.HandValue2

end
-- ==== Proof.LibNary3.lean ====
/-
  A host operation of three operands, read with each operand's contents at its own reference.

  The general read-back of an n-ary operation leaves its operands under a binder, `fun k => F ↑(![x, a, b] k)`, where
  no further result can be rewritten; for a literal family of three references the operands are spelt out here one by
  one (the three-operand companion of the library's four-operand form), together with the read-back tactic that tries
  this form first.
-/
import Idealize.ShloMosaic.Lib.StableHlo.Run

noncomputable section

namespace Cert.Lib

open Idealize.ShloMosaic Idealize.ShloMosaic.StableHlo

variable {τ : Topo} {sig : RefSig} {Val : EltTy → Type}
variable {x a b y : Ref sig .tc}

/-- A three-operand operation's result at its own reference: the function of the three operands' contents, each at its
    own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, spelt for a rewriting pass (the result reference not indexed, as the library's own forms are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib

/-- The contents of one buffer after a line of host operations, as the operations' functions of the contents before
    it: the library's read-back, with a three-operand operation read operand by operand. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result]
               | rw [Idealize.ShloMosaic.StableHlo.reshape_result] | rw [Cert.Lib.nary3_result]
               | rw [Idealize.ShloMosaic.StableHlo.nary_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.nary_result_ne]; rotate_left; decide))))

/-- The same read-back as ONE rewriting pass, each shared intermediate result visited once: for a line whose
    intermediate results have several consumers each. -/
macro "after_results3_simp" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.Lib.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne']))

end
-- ==== Proof.KernelTail.lean ====
/-
  The host lines after the second region, read entry by entry at the ideal instance.

  Each feature level leaves one partial total per batch element. The host sums the four totals of a
  level, divides by the number of pixel pairs times the batch size (a power of two, kept as its
  single-precision word), adds the two levels, and lays the sum and the two terms side by side in a
  vector of three entries.
-/
import proofs.«158146_j14877766713777_1_alg».proof.Proof.Gen.KernelIdeal.Launch
import proofs.«158146_j14877766713777_1_alg».proof.Proof.LibNary3
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HandTail

open Cert.KernelIdeal Cert.KernelIdeal.Gen Idealize.ShloMosaic Idealize.ShloMosaic.TcCoe Idealize.ShloMosaic.ValueIdx Idealize.ShloMosaic.StableHlo

/-- One level's term of the loss: the sum of its four per-batch totals over the level's scale. -/
def term (x : S4x1x1.Idx → EReal) (K : EReal) : EReal :=
  Ideal.div (∑ b : Fin 4, x (ix3 b (0 : Fin 1) (0 : Fin 1))) K

/-- The same term as the host lines compute it: the sum of the four totals from a zero word, divided by the scale's word. -/
def hostTerm (x : S4x1x1.Idx → EReal) (w : BitVec 32) : FVec Ideal S_ .f32 :=
  Host.divf (F := Ideal) (Host.reduceAdd (F := Ideal) (φ := .f32) x (constant (F := Ideal) S_ .f32 0x00000000#32) reducesTo_S4x1x1_S_d0_1_2 h_S_)
    (constant (F := Ideal) S_ .f32 w)

/-- A sum over the indices of a shape with one true axis is the sum over that axis. -/
theorem sum_idx_a11 {M : Type*} [AddCommMonoid M] {n : ℕ} (f : (⟨3, ![n, 1, 1]⟩ : Shape).Idx → M) :
    ∑ i, f i = ∑ b : Fin n, f (ix3 b (0 : Fin 1) (0 : Fin 1)) := by
  let e : (⟨3, ![n, 1, 1]⟩ : Shape).Idx ≃ Fin n :=
    { toFun := fun i => i 0
      invFun := fun b => ix3 b (0 : Fin 1) (0 : Fin 1)
      left_inv := fun i => by
        funext a
        match a with
        | ⟨0, _⟩ => rfl
        | ⟨1, h1⟩ => exact Fin.ext (by have h : (i ⟨1, h1⟩).val < 1 := (i ⟨1, h1⟩).isLt; show (0 : ℕ) = _; omega)
        | ⟨2, h2⟩ => exact Fin.ext (by have h : (i ⟨2, h2⟩).val < 1 := (i ⟨2, h2⟩).isLt; show (0 : ℕ) = _; omega)
      right_inv := fun b => rfl }
  rw [← Equiv.sum_comp e.symm]
  rfl

/-- The host's sum of a level's four totals from zero, divided by the level's scale, is the level's term. -/
theorem levelTerm_apply (x : S4x1x1.Idx → EReal) (w : BitVec 32) (i : S_.Idx) :
    hostTerm x w i = term x (Ideal.ofBits .f32 w) := by
  unfold term hostTerm
  show Ideal.div (Host.reduceAdd (F := Ideal) (φ := .f32) x (constant (F := Ideal) S_ .f32 0x00000000#32) reducesTo_S4x1x1_S_d0_1_2 h_S_ i) (Ideal.ofBits .f32 w) = _
  refine congrArg (Ideal.div · (Ideal.ofBits .f32 w)) ?_
  simp only [Host.reduceAdd, Ideal.hostReduceAdd_def]
  rw [Ideal.hostReduceAdd_total reducesTo_S4x1x1_S_d0_1_2 (fun b => b.elim0), sum_idx_a11]
  show Ideal.ofBits .f32 0x00000000#32 + _ = _
  rw [Ideal.ofBits_zero_f32, zero_add]

/-- Three one-entry vectors laid side by side: entry k is the k-th vector's entry. -/
theorem concat3_0 (u0 u1 u2 : S1.Idx → EReal) (h : Shape.Concatenates [S1, S1, S1] S3 0) :
    concatenate S3 0 [⟨S1, u0⟩, ⟨S1, u1⟩, ⟨S1, u2⟩] h (ix1 (0 : Fin 3)) = u0 (ix1 (0 : Fin 1)) :=
  concatenate_apply_piece (t := S3) 0 [⟨S1, u0⟩, ⟨S1, u1⟩, ⟨S1, u2⟩] h (ix1 (0 : Fin 3)) 0 (show (0 : ℕ) < 3 by decide) S1 u0 rfl rfl 0 rfl (ix1 (0 : Fin 1))
    (fun b hb => absurd (Fin.ext (by have hb1 : b.val < 1 := b.isLt; show b.val = 0; omega)) hb) rfl
theorem concat3_1 (u0 u1 u2 : S1.Idx → EReal) (h : Shape.Concatenates [S1, S1, S1] S3 0) :
    concatenate S3 0 [⟨S1, u0⟩, ⟨S1, u1⟩, ⟨S1, u2⟩] h (ix1 (1 : Fin 3)) = u1 (ix1 (0 : Fin 1)) :=
  concatenate_apply_piece (t := S3) 0 [⟨S1, u0⟩, ⟨S1, u1⟩, ⟨S1, u2⟩] h (ix1 (1 : Fin 3)) 1 (show (1 : ℕ) < 3 by decide) S1 u1 rfl rfl 1 rfl (ix1 (0 : Fin 1))
    (fun b hb => absurd (Fin.ext (by have hb1 : b.val < 1 := b.isLt; show b.val = 0; omega)) hb) rfl
theorem concat3_2 (u0 u1 u2 : S1.Idx → EReal) (h : Shape.Concatenates [S1, S1, S1] S3 0) :
    concatenate S3 0 [⟨S1, u0⟩, ⟨S1, u1⟩, ⟨S1, u2⟩] h (ix1 (2 : Fin 3)) = u2 (ix1 (0 : Fin 1)) :=
  concatenate_apply_piece (t := S3) 0 [⟨S1, u0⟩, ⟨S1, u1⟩, ⟨S1, u2⟩] h (ix1 (2 : Fin 3)) 2 (show (2 : ℕ) < 3 by decide) S1 u2 rfl rfl 2 rfl (ix1 (0 : Fin 1))
    (fun b hb => absurd (Fin.ext (by have hb1 : b.val < 1 := b.isLt; show b.val = 0; omega)) hb) rfl

/-- A scalar spread to a one-entry vector: the entry is the scalar. -/
theorem bcast1_apply (y : S_.Idx → EReal) (h : S_.BroadcastsInDim S1 (![] : Fin 0 → Fin S1.rank)) :
    broadcastInDim S1 ![] h y (ix1 (0 : Fin 1)) = y ix0 :=
  broadcastInDim_apply _ h y (ix1 (0 : Fin 1)) ix0 (fun a => a.elim0)

/-- The loss: the two levels' terms added. -/
theorem tail_v10 (V : Valuation τ sig (Elt Ideal)) :
    (StableHlo.after (hostOps2 (F := Ideal)) V main_v10 : S_.Idx → EReal) ix0
      = term (V main_v2) (Ideal.ofBits .f32 0x4C800000#32) + term (V main_v5) (Ideal.ofBits .f32 0x4A800000#32) := by
  unfold hostOps2
  after_results3
  show addf (hostTerm (V main_v2) 0x4C800000#32) (hostTerm (V main_v5) 0x4A800000#32) ix0 = _
  refine (addf_apply _ _ _).trans ?_
  exact congrArg₂ (· + ·) (levelTerm_apply _ _ _) (levelTerm_apply _ _ _)

/-- The result vector's first entry: the loss. -/
theorem tail_v14_0 (V : Valuation τ sig (Elt Ideal)) :
    (StableHlo.after (hostOps2 (F := Ideal)) V main_v14 : S3.Idx → EReal) (ix1 (0 : Fin 3))
      = term (V main_v2) (Ideal.ofBits .f32 0x4C800000#32) + term (V main_v5) (Ideal.ofBits .f32 0x4A800000#32) := by
  unfold hostOps2
  after_results3
  refine (concat3_0 _ _ _ _).trans ?_
  show broadcastInDim (s := S_) S1 ![] bcast_S_S1 (addf (hostTerm (V main_v2) 0x4C800000#32) (hostTerm (V main_v5) 0x4A800000#32)) (ix1 (0 : Fin 1)) = _
  refine (bcast1_apply _ _).trans ?_
  refine (addf_apply _ _ _).trans ?_
  exact congrArg₂ (· + ·) (levelTerm_apply _ _ _) (levelTerm_apply _ _ _)

/-- Its second entry: the first level's term. -/
theorem tail_v14_1 (V : Valuation τ sig (Elt Ideal)) :
    (StableHlo.after (hostOps2 (F := Ideal)) V main_v14 : S3.Idx → EReal) (ix1 (1 : Fin 3))
      = term (V main_v2) (Ideal.ofBits .f32 0x4C800000#32) := by
  unfold hostOps2
  after_results3
  refine (concat3_1 _ _ _ _).trans ?_
  show broadcastInDim (s := S_) S1 ![] bcast_S_S1 (hostTerm (V main_v2) 0x4C800000#32) (ix1 (0 : Fin 1)) = _
  refine (bcast1_apply _ _).trans ?_
  exact levelTerm_apply _ _ _

/-- Its third entry: the second level's term. -/
theorem tail_v14_2 (V : Valuation τ sig (Elt Ideal)) :
    (StableHlo.after (hostOps2 (F := Ideal)) V main_v14 : S3.Idx → EReal) (ix1 (2 : Fin 3))
      = term (V main_v5) (Ideal.ofBits .f32 0x4A800000#32) := by
  unfold hostOps2
  after_results3
  refine (concat3_2 _ _ _ _).trans ?_
  show broadcastInDim (s := S_) S1 ![] bcast_S_S1 (hostTerm (V main_v5) 0x4A800000#32) (ix1 (0 : Fin 1)) = _
  refine (bcast1_apply _ _).trans ?_
  exact levelTerm_apply _ _ _

end Cert.KernelIdeal.HandTail

end
-- ==== Proof.KIFinal.lean ====
/-
  The kernel program's two results at the ideal instance, as the specification's losses.

  Each region leaves in its result array, per batch element, the sum over every pixel pair of the
  squared difference of the two similarity matrices (the pairs' first pixel swept tile by tile). The host
  then sums the batch elements and divides once by the number of pairs times the batch size: that is
  the level's loss in its one-division form. The first result is the sum of the two levels' losses, the
  second lists that sum and the two losses.
-/
import proofs.«158146_j14877766713777_1_alg».proof.Proof.KIEntry
import proofs.«158146_j14877766713777_1_alg».proof.Proof.KIValue
import proofs.«158146_j14877766713777_1_alg».proof.Proof.KernelTail

noncomputable section

namespace Cert.KernelIdeal.HandFinal

open Cert.KernelIdeal Cert.KernelIdeal.Gen Cert.KernelIdeal.Hand Cert.KernelIdeal.HandTail Cert.KernelIdeal.HandValue2
open Cert.Spec Cert.RefSide
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first region's result array is still in place when the host's tail runs. -/
theorem W4_v2 (c : Dev nD) : W4 m ρ c main_v2 = (dat0 (V1 m ρ) c).arrAt 4 cfg0.N :=
  (W4_of_ne m ρ c main_v2 (by decide)).trans
    ((StableHlo.after_of_writes_sub (W := hostOps1_W) (hostOps1 (F := Ideal)) _ hostOps1_writes (by decide)).trans (W2_out m ρ c))

/-- The first level's loss, from the first region's result array. -/
theorem level1 (c : Dev nD) :
    term (W4 m ρ c main_v2) (Ideal.ofBits .f32 0x4C800000#32)
      = g1Ker (m ((c : Thread nD τ).loc main_arg0)) (m ((c : Thread nD τ).loc main_arg1)) := by
  unfold term g1Ker lossKer
  rw [W4_v2, zero_eq, zero_add]
  refine congrArg (fun x => Ideal.div x _) (Finset.sum_congr rfl fun b _ => ?_)
  have hT : T0 (V1 m ρ) c b = px1 (m ((c : Thread nD τ).loc main_arg0)) b := funext fun ch => funext fun p => T1_eq m ρ c b ch p
  have hS : S0 (V1 m ρ) c b = px1 (m ((c : Thread nD τ).loc main_arg1)) b := funext fun ch => funext fun p => S1_eq m ρ c b ch p
  rw [out0_total (V1 m ρ) c b, hT, hS]

/-- The second level's loss, from the second region's result array. -/
theorem level2 (c : Dev nD) :
    term (W4 m ρ c main_v5) (Ideal.ofBits .f32 0x4A800000#32)
      = g2Ker (m ((c : Thread nD τ).loc main_arg2)) (m ((c : Thread nD τ).loc main_arg3)) := by
  unfold term g2Ker lossKer
  rw [W4_out, zero_eq, zero_add]
  refine congrArg (fun x => Ideal.div x _) (Finset.sum_congr rfl fun b _ => ?_)
  have hT : HandValue2.T1 (V3 m ρ) c b = px2 (m ((c : Thread nD τ).loc main_arg2)) b := funext fun ch => funext fun p => T2_eq m ρ c b ch p
  have hS : HandValue2.S1 (V3 m ρ) c b = px2 (m ((c : Thread nD τ).loc main_arg3)) b := funext fun ch => funext fun p => S2_eq m ρ c b ch p
  rw [out1_total (V3 m ρ) c b, hT, hS]

/-- The first result: the sum of the two levels' losses. -/
theorem result_v10 (c : Dev nD) (i : S_.Idx) :
    (W5 m ρ c main_v10 : S_.Idx → EReal) i
      = g1Ker (m ((c : Thread nD τ).loc main_arg0)) (m ((c : Thread nD τ).loc main_arg1))
        + g2Ker (m ((c : Thread nD τ).loc main_arg2)) (m ((c : Thread nD τ).loc main_arg3)) := by
  obtain rfl : i = ix0 := Subsingleton.elim _ _
  rw [← level1 m ρ c, ← level2 m ρ c]
  exact tail_v10 (W4 m ρ c)

/-- The second result: that sum, the first level's loss, the second level's loss. -/
theorem result_v14 (c : Dev nD) (n : Fin 3) :
    (W5 m ρ c main_v14 : S3.Idx → EReal) (ix1 n)
      = ![g1Ker (m ((c : Thread nD τ).loc main_arg0)) (m ((c : Thread nD τ).loc main_arg1))
            + g2Ker (m ((c : Thread nD τ).loc main_arg2)) (m ((c : Thread nD τ).loc main_arg3)),
          g1Ker (m ((c : Thread nD τ).loc main_arg0)) (m ((c : Thread nD τ).loc main_arg1)),
          g2Ker (m ((c : Thread nD τ).loc main_arg2)) (m ((c : Thread nD τ).loc main_arg3))] n := by
  rw [← level1 m ρ c, ← level2 m ρ c]
  match n with
  | ⟨0, _⟩ => exact tail_v14_0 (W4 m ρ c)
  | ⟨1, _⟩ => exact tail_v14_1 (W4 m ρ c)
  | ⟨2, _⟩ => exact tail_v14_2 (W4 m ρ c)

end Cert.KernelIdeal.HandFinal

end
-- ==== Proof.lean ====
/-
  The certificate: a tiled pixel-similarity loss kernel against its plain reference.

  For each of two feature levels both programs normalise every pixel of the teacher's and the student's
  feature map by its channel norm, form the two pixel-by-pixel similarity matrices, and add up the
  squared differences of the matrices over the batch, scaled by one over the number of pixel pairs times
  the batch size. The kernel sweeps the rows of the matrices in tiles of 256, carries the running sum of a
  batch element in a one-entry scratch, and divides the grand total once; the reference divides every
  entry twice and then sums. On the extended reals the two agree: dividing by a positive real distributes
  over any finite sum, and a finite sum may be regrouped into tiles, with no finiteness of the terms needed.

  The three frames: both kernel programs run as two host reshapes, a region, two host reshapes, a region
  and the host's tail, and no step writes an argument; the reference's frame is its run with the results
  dropped. The ideal pass rewrote nothing, so the kernel's idealization is its own text.
-/
import proofs.«158146_j14877766713777_1_alg».proof.Defs
import proofs.«158146_j14877766713777_1_alg».proof.Proof.Gen.Kernel
import proofs.«158146_j14877766713777_1_alg».proof.Proof.Gen.KernelIdeal
import proofs.«158146_j14877766713777_1_alg».proof.Proof.Gen.ReferenceIdeal
import proofs.«158146_j14877766713777_1_alg».proof.Proof.Gen.Pre_finite_inputs
import proofs.«158146_j14877766713777_1_alg».proof.Proof.Gen.ReferenceIdeal.Run
import proofs.«158146_j14877766713777_1_alg».proof.Proof.Gen.ReferenceIdeal.Read
import proofs.«158146_j14877766713777_1_alg».proof.Proof.KFrame
import proofs.«158146_j14877766713777_1_alg».proof.Proof.KIFrame
import proofs.«158146_j14877766713777_1_alg».proof.Proof.KIFinal
import proofs.«158146_j14877766713777_1_alg».proof.Proof.RefSide

noncomputable section

namespace Cert.Proof

open Idealize.ShloMosaic Idealize.ShloMosaic.TcCoe Idealize.ShloMosaic.ValueIdx Idealize.SL.Sem

/-- The word-level kernel program runs and leaves its arguments as launched. -/
theorem frame_k : Cert.frame_Kernel :=
  fun m ρ _ => Cert.Kernel.Hand.frame m ρ

/-- So does the idealized kernel program. -/
theorem frame_ki : Cert.frame_KernelIdeal :=
  fun m ρ _ => Cert.KernelIdeal.Hand.frame m ρ

/-- The reference's frame is its run with the results dropped. -/
theorem frame_ri : Cert.frame_ReferenceIdeal :=
  fun m ρ _ => (θ_run Cert.ReferenceIdeal.defs _ _).mono (fun _ h c => (h c).2.2) (Cert.ReferenceIdeal.Value.run (F := Ideal) m ρ)

/-- At the ideal instance both programs end with the same two results: the sum of the two levels' losses, and
    the list of that sum and the two losses, each loss in its one-division form on the kernel's side and shown
    equal to it on the reference's side. -/
theorem algebraic [Cert.KernelIdeal.Facts] :
    Cert.algebraic_KernelIdeal_ReferenceIdeal := by
  intro m ρ m' ρ' _ hagree
  refine ⟨fun c => Cert.KernelIdeal.Hand.W5 m ρ c Cert.KernelIdeal.main_v10, fun c => Cert.KernelIdeal.Hand.W5 m ρ c Cert.KernelIdeal.main_v14, ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v10 (by decide)),
      h c _ (Cert.KernelIdeal.Hand.mem_uc Cert.KernelIdeal.main_v14 (by decide)),
      (h c _ (Cert.KernelIdeal.Hand.mem_uc Cert.KernelIdeal.main_arg0 (by decide))).trans (Cert.KernelIdeal.Hand.W5_of_untouched m ρ c Cert.KernelIdeal.main_arg0 (by decide) (by decide) (by decide) (by decide) (by decide)),
      (h c _ (Cert.KernelIdeal.Hand.mem_uc Cert.KernelIdeal.main_arg1 (by decide))).trans (Cert.KernelIdeal.Hand.W5_of_untouched m ρ c Cert.KernelIdeal.main_arg1 (by decide) (by decide) (by decide) (by decide) (by decide)),
      (h c _ (Cert.KernelIdeal.Hand.mem_uc Cert.KernelIdeal.main_arg2 (by decide))).trans (Cert.KernelIdeal.Hand.W5_of_untouched m ρ c Cert.KernelIdeal.main_arg2 (by decide) (by decide) (by decide) (by decide) (by decide)),
      (h c _ (Cert.KernelIdeal.Hand.mem_uc Cert.KernelIdeal.main_arg3 (by decide))).trans (Cert.KernelIdeal.Hand.W5_of_untouched m ρ c Cert.KernelIdeal.main_arg3 (by decide) (by decide) (by decide) (by decide) (by decide))⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v54_eq, (hagree c).1, (hagree c).2.1, (hagree c).2.2.1, (hagree c).2.2.2]
      funext i
      exact (Cert.RefSide.ref_v54_ker _ _ _ _ i).trans (Cert.KernelIdeal.HandFinal.result_v10 m ρ c i).symm
    · rw [Cert.ReferenceIdeal.Read.val_main_v58_eq, (hagree c).1, (hagree c).2.1, (hagree c).2.2.1, (hagree c).2.2.2]
      funext i
      obtain ⟨n, rfl⟩ : ∃ n : Fin 3, i = ix1 n := ⟨i 0, eq_ix1 i⟩
      exact (Cert.RefSide.ref_v58_ker _ _ _ _ n).trans (Cert.KernelIdeal.HandFinal.result_v14 m ρ c n).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
